-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S10 : Shape := ⟨1, ![10]⟩
abbrev S16384x1024 : Shape := ⟨2, ![16384, 1024]⟩
abbrev S512x1024 : Shape := ⟨2, ![512, 1024]⟩
abbrev S1x512x1024 : Shape := ⟨3, ![1, 512, 1024]⟩
abbrev S1 : Shape := ⟨1, ![1]⟩
abbrev S512x1 : Shape := ⟨2, ![512, 1]⟩
abbrev S512x512 : Shape := ⟨2, ![512, 512]⟩
abbrev S512 : Shape := ⟨1, ![512]⟩

abbrev nBuf : Space → Nat
  | .hbm => 16
  | .vmem => 21
  | .smem => 2
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S16384x1024, .bf16⟩
  | .hbm, ⟨12, _⟩ => ⟨S16384x1024, .bf16⟩
  | .hbm, ⟨13, _⟩ => ⟨S8x2048x1024, .bf16⟩
  | .hbm, ⟨14, _⟩ => ⟨S8x2048x1024, .bf16⟩
  | .hbm, ⟨15, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1, .f32⟩
  | .local _ .vmem, ⟨19, _⟩ => ⟨S512x1, .f32⟩
  | .local _ .vmem, ⟨20, _⟩ => ⟨S512x1024, .f32⟩
  | .local _ .smem, ⟨0, _⟩ => ⟨S10, .i32⟩
  | .local _ .smem, ⟨1, _⟩ => ⟨S10, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond4 (v1 : BitVec 32) (v3 : BitVec 32) : BitVec 1 :=
  let v21 : BitVec 1 := Scalar.cmpi .eq v3 v1
  let v22 : BitVec 32 := Scalar.extui v21
  let c0_i32_11 : BitVec 32 := 0#32
  let v23 : BitVec 1 := Scalar.cmpi .ne v22 c0_i32_11
  v23

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_4 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S8x2048x1024_S16384x1024 : S8x2048x1024.ShapeCasts S16384x1024
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1 pf i = cc1_transform_4 k1_off1_inb numel1_S1 pf i'

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_arg0) S1x512x1024.size reads1_0 false false 2 stage1_0 sem1_0 nbuf1_0 hstage1_0

abbrev spec1_1 : Pipeline.WinSpec sig grid1.rank :=
  Pipeline.WinSpec.ofSpec (Memref.whole main_v2) S1024x1024.size reads1_1 false true 1 stage1_1 sem1_1 nbuf1_1 hstage1_1

abbrev spec1_2 : Pipeline.WinSpec sig grid1.rank :=
  Pipeline.WinSpec.ofSpec (Memref.whole main_v8) S1x512x1024.size reads1_2 false false 2 stage1_2 sem1_2 nbuf1_2 hstage1_2

abbrev spec1_3 : Pipeline.WinSpec sig grid1.rank :=
  Pipeline.WinSpec.ofSpec (Memref.whole main_v9) S1x512x1024.size reads1_3 false false 2 stage1_3 sem1_3 nbuf1_3 hstage1_3

abbrev spec1_4 : Pipeline.WinSpec sig grid1.rank :=
  Pipeline.WinSpec.ofSpec (Memref.whole main_v10) S1x512x1024.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 | 2 => cc1_transform_2 k1_off1_inb numel1_S1 pf | 3 => cc1_transform_3 k1_off1_inb numel1_S1 pf | 4 => cc1_transform_4 k1_off1_inb numel1_S1 pf | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 pf | 3 => hreads1_3 pf | 4 => hreads1_4 pf | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S8x2048x1024.size a), EltTy.bits .f32 = 32 ∨ (Rect.block (s := S8x2048x1024) S1x512x1024.size (cc1_transform_0 k1_off1_inb numel1_S1 pf i) h).WholeWords (EltTy.packing .f32)) ∧
  (∀ i : grid1.Coords, ∃ h : (∀ a, (cc1_transform_2 k1_off1_inb numel1_S1 pf i a + 1) * S1x512x1024.size a ≤ S8x2048x1024.size a), EltTy.bits .bf16 = 32 ∨ (Rect.block (s := S8x2048x1024) S1x512x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S8x2048x1024.size a), EltTy.bits .bf16 = 32 ∨ (Rect.block (s := S8x2048x1024) S1x512x1024.size (cc1_transform_3 k1_off1_inb numel1_S1 pf i) h).WholeWords (EltTy.packing .bf16)) ∧
  (∀ i : grid1.Coords, ∃ h : (∀ a, (cc1_transform_4 k1_off1_inb numel1_S1 pf i a + 1) * S1x512x1024.size a ≤ S8x2048x1024.size a), EltTy.bits .f32 = 32 ∨ (Rect.block (s := S8x2048x1024) S1x512x1024.size (cc1_transform_4 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => hinb1_1 | 2 => fun i a => (hok.2.1 i).elim fun h _ => h a | 3 => fun i a => (hok.2.2.1 i).elim fun h _ => h a | 4 => fun i a => (hok.2.2.2 i).elim fun h _ => h a | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => hwx1_1 | 2 => fun i => (hok.2.1 i).elim fun _ h => h | 3 => fun i => (hok.2.2.1 i).elim fun _ h => h | 4 => fun i => (hok.2.2.2 i).elim fun _ h => h | ⟨_ + 5, h⟩ => absurd h (Nat.not_lt.2 (Nat.le_add_left _ _))
abbrev idle1 (pf : pre1.Contents (Elt F)) : Fin 5 → grid1.Coords → Bool := fun | 0 => fun _ => false | 1 => fun _ => false | 2 => fun _ => false | 3 => fun _ => false | 4 => fun i => !(k1_cond4 (pf.atD 0 (k1_off1 i)) (pf.atD 1 (k1_off1 i)) == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KRegion0.lean ====
/-
  The first kernel call (the key and value projections) at any reading of the floats, as the pipeline's proof data:
  at every grid point the body loads the 512 rows of the flattened input that the point's block holds and the two
  transposed weight matrices whole, and stores into each output block the product of the rows with one matrix. What
  each output block holds after the body is therefore one pure function of the point's input blocks (`out0_3`,
  `out0_4`), the input blocks are left as they were, and nothing else of the core's state is touched.
-/
import proofs.«121710_j11665131176114_2_alg».proof.Proof.Gen.Kernel.Launch
import proofs.«121710_j11665131176114_2_alg».proof.Proof.Gen.Kernel.Skeleton
import proofs.«121710_j11665131176114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0

/-- The key block after the body: the rows times the first weight matrix, stored whole. -/
def out0_3 (x0 : Vec F S512x1024 .f32) (x1 : Vec F S1024x1024 .bf16) : Vec F S512x1024 .bf16 :=
  View.canon [⟨r0_x, k0_pay2 (View.ld x0 r0_x) (View.ld x1 r0_w)⟩]
/-- The value block after the body: the rows times the second weight matrix, stored whole. -/
def out0_4 (x0 : Vec F S512x1024 .f32) (x2 : Vec F S1024x1024 .bf16) : Vec F S512x1024 .bf16 :=
  View.canon [⟨r0_x, k0_pay3 (View.ld x0 r0_x) (View.ld x2 r0_w)⟩]

/-- One store of the whole block covers it. -/
theorem cover0_x (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The body on whole staging buffers, the inputs' at `x0`, `x1`, `x2` and the outputs' at anything: it runs to the
    continuation with the inputs as they were and the outputs at `out0_3`, `out0_4` of them. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole)
    (x0 : Vec F S512x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kv_kernel i arg1 harg1 arg2 harg2 arg3 harg3 arg4 harg4 arg5 harg5) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_x _)
  iexists _; isplitr
  swap; · iexact H4
  ipureintro
  exact View.read_writes_eq_canon _ _ _ (cover0_x _)

/-- The proof data of the first call on core `c`: the arrays as the call finds them; after the body at point `t` each
    input's buffer at its block and each output's at `out0_W` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KR1Setup.lean ====
/-
  The second kernel call (causal attention over a triangular schedule of (query tile, key tile) pairs) as the
  pipeline sees it: the two schedule tables it prefetches, read off the buffers as the call finds them; the blocks its
  windows stage; the words of the tables the body loads at a grid point and the four conditions it branches on (the
  key tile is the first of its row: start the running statistics and project the queries; the key tile is the
  diagonal one: mask, update, and write the output; the key tile lies strictly below the diagonal: update unmasked).
-/
import proofs.«121710_j11665131176114_2_alg».proof.Proof.Gen.Kernel.Launch
import proofs.«121710_j11665131176114_2_alg».proof.Proof.Gen.Kernel.Skeleton
import proofs.«121710_j11665131176114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- A load of the whole buffer after stores the last of which filled the whole buffer reads that store's value. -/
theorem readCov_cons_unit_zero {Val : EltTy → Type} [∀ e, Nonempty (Val e)] {sig : RefSig} {κ : Kind} {sp : Space} {S : Shape} {e : EltTy}
    {v : View sig κ sp S e} {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section Region1
-- the core's buffer contents when the call is entered
variable (V : (c : Dev nD) → (b : Ref sig .tc) → Buf (Elt F) ((c : Thread nD τ).loc b))

/-- The two schedule tables as the call finds them (one device). -/
def tbl1 : pre1.Contents (Elt F) := fun j => V (0 : Dev nD) (pre1.ref j)
theorem V_pre1 (c : Dev nD) (j : Fin 2) : V c (pre1.ref j) = tbl1 V j := by
  obtain rfl : c = 0 := Subsingleton.elim _ _; rfl
/-- The pipeline's side condition of the tables: every table-indexed block lies inside its array. -/
abbrev Ok1 : Prop := ok1 (F := F) (tbl1 V)
abbrev adm1 (hO : Ok1 V) : (pcfg1 (F := F)).Adm := ⟨tbl1 V, hO⟩
abbrev cfgM1 (hO : Ok1 V) : Pipeline.Cfg sig Λ₀ := cfg1 (adm1 V hO)

/-- Each table as the body is handed it. -/
abbrev tbM1_0 : Memref sig .tc .smem S10 .i32 := Memref.whole main_c
abbrev tbM1_1 : Memref sig .tc .smem S10 .i32 := Memref.whole main_c_0
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The tables held whole, table by table. -/
theorem PhiT1_eq (c : Dev nD) : (Pipeline.prefHeld pre1 c (fun _ => fullShare) (tbl1 V) : sProp 𝕄) = iprop(tbPt1 c tbM1_0 (tbl1 V 0) ∗ tbPt1 c tbM1_1 (tbl1 V 1)) := by
  unfold Pipeline.prefHeld
  rw [show (Finset.univ : Finset (Fin 2)) = insert (0 : Fin 2) {(1 : Fin 2)} from by decide,
    bigSep_insert (by decide), bigSep_singleton]
  rfl

/-- Window `w`'s block at point `t`, read off its array as the call finds it. -/
def iblk1 (hO : Ok1 V) (c : Dev nD) (w : Fin (cfgM1 V hO).W) (t : Fin (cfgM1 V hO).N) : (((cfgM1 V hO).win w).xblock ((cfgM1 V hO).grid.coords t)).Idx → Elt F ((cfgM1 V hO).win w).elt :=
  (((cfgM1 V hO).win w).blk t).view.read (Elt F) (V c (Pipeline.arrRef spec1 w))

/-- The word the body loads from a table at a grid point. -/
abbrev word1 (c : Dev nD) (M : Memref sig .tc .smem S10 .i32) (i : grid1.Coords) (xt : TbBuf1 (F := F) c M) : Elt F .i32 :=
  M.view.readAt (Elt F) (Rect.unit (s := S10) (k1_off1 i) S1.size (k1_off1_inb i)).toLoadRect xt (Shape.Idx.first (numel1_S1.symm ▸ Nat.one_pos))

/-- The key tile is the first of its row. -/
abbrev cInit (w3 : BitVec 32) : Prop := Scalar.cmpi .ne (Scalar.extui (Scalar.cmpi .eq w3 0#32)) 0#32 = 1#1
/-- The key tile is the diagonal one. -/
abbrev cDiag (w1 w3 : BitVec 32) : Prop := Scalar.cmpi .ne (Scalar.extui (Scalar.cmpi .eq w3 w1)) 0#32 = 1#1
/-- The key tile lies strictly below the diagonal. -/
abbrev cOff (w1 w3 : BitVec 32) : Prop := Scalar.cmpi .ne (Scalar.extui (Scalar.cmpi .slt w3 w1)) 0#32 = 1#1
/-- The output block is written (the same test as the diagonal one). -/
abbrev cFin (w1 w3 : BitVec 32) : Prop := k1_cond4 w1 w3 = 1#1
theorem cFin_iff (w1 w3 : BitVec 32) : cFin w1 w3 ↔ cDiag w1 w3 := Iff.rfl

/-- The scratch operands: whole scoped buffers of the kernel's own. -/
abbrev scM1_0 : Memref sig .tc .vmem S512x1024 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1024 .f32 := Memref.whole cc1_scratch3

end Region1

end Cert.Kernel.Gen

end
-- ==== Proof.KR1Dat.lean ====
/-
  The second kernel call as the pipeline's proof data. Between grid points the kernel carries four scratch buffers —
  the projected queries of the current query tile, and per query row the running maximum, the running normaliser
  and the running weighted sum of value rows. One grid point maps the carried state to the next (`step1`): where the
  key tile is the first of its row the state is started afresh (queries projected, maximum −∞, sums zero); the
  maximum, normaliser and weighted sum then take the masked update on the diagonal tile and the unmasked one below
  it. The output block is written on the diagonal tile only, as the weighted sum over the normaliser, and is left
  untouched elsewhere. The invariant holds the carried state after the points so far (`stFrom`), for whatever the
  scratch held before the first point — the first point starts the state afresh, so nothing depends on that.
-/
import proofs.«121710_j11665131176114_2_alg».proof.Proof.KR1Setup

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b)) (hO : Ok1 V)

theorem before1_0_of {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfgM1 V hO) c) (hA : dat.A 1 = V c (Pipeline.arrRef spec1 1))
    (hafter : ∀ t, dat.after 1 t = iblk1 V hO c 1 t) (t : Fin (cfgM1 V hO).N) (d) : dat.before 1 t d = iblk1 V hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfgM1 V hO) c) (hA : dat.A 2 = V c (Pipeline.arrRef spec1 2))
    (hafter : ∀ t, dat.after 2 t = iblk1 V hO c 2 t) (t : Fin (cfgM1 V hO).N) (d) : dat.before 2 t d = iblk1 V hO c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfgM1 V hO) c) (hA : dat.A 3 = V c (Pipeline.arrRef spec1 3))
    (hafter : ∀ t, dat.after 3 t = iblk1 V hO c 3 t) (t : Fin (cfgM1 V hO).N) (d) : dat.before 3 t d = iblk1 V hO c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, and the body as the pipeline calls it there. -/
abbrev ms1_0 (t : Fin (cfgM1 V hO).N) : Memref sig .tc .vmem S1x512x1024 .f32 := spec1_0.stage ((cfgM1 V hO).slots t 0)
abbrev hs1_0 (t : Fin (cfgM1 V hO).N) : (ms1_0 V hO t).IsWhole := hstage1_0 (((cfgM1 V hO).slots t 0).cast nbuf1_0)
abbrev ms1_1 (t : Fin (cfgM1 V hO).N) : Memref sig .tc .vmem S1024x1024 .bf16 := spec1_1.stage ((cfgM1 V hO).slots t 1)
abbrev hs1_1 (t : Fin (cfgM1 V hO).N) : (ms1_1 V hO t).IsWhole := hstage1_1 (((cfgM1 V hO).slots t 1).cast nbuf1_1)
abbrev ms1_2 (t : Fin (cfgM1 V hO).N) : Memref sig .tc .vmem S1x512x1024 .bf16 := spec1_2.stage ((cfgM1 V hO).slots t 2)
abbrev hs1_2 (t : Fin (cfgM1 V hO).N) : (ms1_2 V hO t).IsWhole := hstage1_2 (((cfgM1 V hO).slots t 2).cast nbuf1_2)
abbrev ms1_3 (t : Fin (cfgM1 V hO).N) : Memref sig .tc .vmem S1x512x1024 .bf16 := spec1_3.stage ((cfgM1 V hO).slots t 3)
abbrev hs1_3 (t : Fin (cfgM1 V hO).N) : (ms1_3 V hO t).IsWhole := hstage1_3 (((cfgM1 V hO).slots t 3).cast nbuf1_3)
abbrev ms1_4 (t : Fin (cfgM1 V hO).N) : Memref sig .tc .vmem S1x512x1024 .f32 := spec1_4.stage ((cfgM1 V hO).slots t 4)
abbrev hs1_4 (t : Fin (cfgM1 V hO).N) : (ms1_4 V hO t).IsWhole := hstage1_4 (((cfgM1 V hO).slots t 4).cast nbuf1_4)
abbrev bodyAt1 (t : Fin (cfgM1 V hO).N) : Prog (TpuEff nD τ sig (Elt F) Λ₀ .tc) PUnit :=
  cc1_kernel (grid1.coords t) tbM1_0 (Memref.isWhole_whole _) tbM1_1 (Memref.isWhole_whole _) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)

/-- The two table words the body loads at point `t`: the query tile's number and the key tile's. -/
abbrev W1at (c : Dev nD) (t : Fin (cfgM1 V hO).N) : Elt F .i32 := word1 c tbM1_0 (grid1.coords t) (tbl1 V 0)
abbrev W3at (c : Dev nD) (t : Fin (cfgM1 V hO).N) : Elt F .i32 := word1 c tbM1_1 (grid1.coords t) (tbl1 V 1)

/-- The carried state: queries, running maximum, normaliser, weighted sum. -/
abbrev St1 (F : FTy → Type) : Type := Vec F S512x1024 .bf16 × Vec F S512x1 .f32 × Vec F S512x1 .f32 × Vec F S512x1024 .f32

/-- One grid point on the carried state. -/
def step1 (w1 w3 : BitVec 32) (x0 : Vec F S1x512x1024 .f32) (x1 : Vec F S1024x1024 .bf16) (x2 x3 : Vec F S1x512x1024 .bf16) (s : St1 F) : St1 F :=
  let s0 : St1 F := if cInit w3 then (k1_pay4 x0 x1, k1_pay1 (F := F), k1_pay2 (F := F), k1_pay3 (F := F)) else s
  if cDiag w1 w3 then
    (s0.1, k1_pay20 w1 w3 (k1_pay6 s0.1 x2) s0.2.1, k1_pay18 w1 w3 (k1_pay6 s0.1 x2) s0.2.1 s0.2.2.1, k1_pay19 w1 w3 (k1_pay5 x3) (k1_pay6 s0.1 x2) s0.2.1 s0.2.2.2)
  else if cOff w1 w3 then
    (s0.1, k1_pay12 s0.1 x2 s0.2.1, k1_pay10 s0.1 x2 s0.2.1 s0.2.2.1, k1_pay11 s0.1 x2 x3 s0.2.1 s0.2.2.2)
  else s0

/-- The carried state after the first `n` points, from `dS` before the first. -/
def stFrom (c : Dev nD) (dS : St1 F) : (n : ℕ) → n ≤ (cfgM1 V hO).N → St1 F
  | 0, _ => dS
  | n + 1, h => step1 (W1at V hO c ⟨n, h⟩) (W3at V hO c ⟨n, h⟩) (iblk1 V hO c 0 ⟨n, h⟩) (iblk1 V hO c 1 ⟨n, h⟩) (iblk1 V hO c 2 ⟨n, h⟩) (iblk1 V hO c 3 ⟨n, h⟩) (stFrom c dS n (Nat.le_of_succ_le h))

theorem stFrom_succ (c : Dev nD) (dS : St1 F) (t : Fin (cfgM1 V hO).N) :
    stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl

/-- What the tables' contents decide about the schedule, point by point: which of the four situations a point is in,
    that the first point starts a row, and where the output window is idle. -/
structure TblFacts1 : Prop where
  cases : ∀ (c : Dev nD) (t : Fin (cfgM1 V hO).N),
    (cInit (W3at V hO c t) ∧ cDiag (W1at V hO c t) (W3at V hO c t) ∧ ¬cOff (W1at V hO c t) (W3at V hO c t))
    ∨ (cInit (W3at V hO c t) ∧ ¬cDiag (W1at V hO c t) (W3at V hO c t) ∧ cOff (W1at V hO c t) (W3at V hO c t))
    ∨ (¬cInit (W3at V hO c t) ∧ ¬cDiag (W1at V hO c t) (W3at V hO c t) ∧ cOff (W1at V hO c t) (W3at V hO c t))
    ∨ (¬cInit (W3at V hO c t) ∧ cDiag (W1at V hO c t) (W3at V hO c t) ∧ ¬cOff (W1at V hO c t) (W3at V hO c t))
  init0 : ∀ (c : Dev nD) (h0 : 0 < (cfgM1 V hO).N), cInit (W3at V hO c ⟨0, h0⟩)
  idle : ∀ (c : Dev nD) (t : Fin (cfgM1 V hO).N), ¬cDiag (W1at V hO c t) (W3at V hO c t) → (cfgM1 V hO).idle 4 ((cfgM1 V hO).grid.coords t) = true ∧ ((cfgM1 V hO).win 4).flush t = false
  live : ∀ (c : Dev nD) (t : Fin (cfgM1 V hO).N), cDiag (W1at V hO c t) (W3at V hO c t) → (cfgM1 V hO).idle 4 ((cfgM1 V hO).grid.coords t) = false

/-- The state after a point does not depend on what the scratch held before the first point. -/
theorem stFrom_indep (hT : TblFacts1 V hO) (c : Dev nD) (dS dS' : St1 F) : ∀ (n : ℕ) (h : n + 1 ≤ (cfgM1 V hO).N),
    stFrom V hO c dS (n + 1) h = stFrom V hO c dS' (n + 1) h
  | 0, h => by
      show step1 _ _ _ _ _ _ dS = step1 _ _ _ _ _ _ dS'
      unfold step1
      simp only [if_pos (hT.init0 c h)]
  | n + 1, h => by
      show step1 _ _ _ _ _ _ (stFrom V hO c dS (n + 1) _) = step1 _ _ _ _ _ _ (stFrom V hO c dS' (n + 1) _)
      rw [stFrom_indep hT c dS dS' n (Nat.le_of_succ_le h)]

/-- The state after each point, from anything. -/
def stAt (c : Dev nD) (n : ℕ) (h : n ≤ (cfgM1 V hO).N) : St1 F :=
  stFrom V hO c (scM1_0.view.read (Elt F) scM1_0.view.junk, scM1_1.view.read (Elt F) scM1_1.view.junk, scM1_2.view.read (Elt F) scM1_2.view.junk, scM1_3.view.read (Elt F) scM1_3.view.junk) n h

/-- What rides along untouched: the other call's staging buffers, the generator register, and the two tables. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r) ∗ tbPt1 c tbM1_0 (tbl1 V 0) ∗ tbPt1 c tbM1_1 (tbl1 V 1))

/-- The invariant before position `n`, from `dS` before the first point. -/
def PhiSAt (c : Dev nD) (dS : St1 F) (n : ℕ) (h : n ≤ (cfgM1 V hO).N) : sProp 𝕄 :=
  iprop(owns (c : Thread nD τ) scM1_0 fullShare (stFrom V hO c dS n h).1 ∗ owns (c : Thread nD τ) scM1_1 fullShare (stFrom V hO c dS n h).2.1
    ∗ owns (c : Thread nD τ) scM1_2 fullShare (stFrom V hO c dS n h).2.2.1 ∗ owns (c : Thread nD τ) scM1_3 fullShare (stFrom V hO c dS n h).2.2.2 ∗ Rest1 V c)

def PhiS (c : Dev nD) (n : ℕ) (h : n ≤ (cfgM1 V hO).N) : sProp 𝕄 :=
  iprop(∃ dS : St1 F, PhiSAt V hO c dS n h)

/-- The proof data of the second call on core `c`. -/
def dat1 (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => iblk1 V hO c 1 t
    | ⟨2, _⟩ => iblk1 V hO c 2 t
    | ⟨3, _⟩ => iblk1 V hO c 3 t
    | ⟨4, _⟩ => k1_pay13 (stAt V hO c (t.val + 1) t.isLt).2.2.2 (stAt V hO c (t.val + 1) t.isLt).2.2.1
  Φ t := PhiS V hO c t.val (Nat.le_of_lt_succ t.isLt)
  q _ := fullShare
  owed _ := 0

theorem A_eq1 (c : Dev nD) (w : Fin (cfgM1 V hO).W) : (dat1 V hO c).A w = V c (Pipeline.arrRef spec1 w) := by
  dsimp only [dat1]

theorem PhiS_castSucc (c : Dev nD) (t : Fin (cfgM1 V hO).N) :
    (dat1 V hO c).Φ t.castSucc = PhiS V hO c t.val (Nat.le_of_lt t.isLt) := by
  dsimp only [dat1]; simp only [Fin.coe_castSucc]

theorem after1_0 (c : Dev nD) (t : Fin (cfgM1 V hO).N) : (dat1 V hO c).after 0 t = iblk1 V hO c 0 t := by dsimp only [dat1]; try rfl
theorem after1_1 (c : Dev nD) (t : Fin (cfgM1 V hO).N) : (dat1 V hO c).after 1 t = iblk1 V hO c 1 t := by dsimp only [dat1]; try rfl
theorem after1_2 (c : Dev nD) (t : Fin (cfgM1 V hO).N) : (dat1 V hO c).after 2 t = iblk1 V hO c 2 t := by dsimp only [dat1]; try rfl
theorem after1_3 (c : Dev nD) (t : Fin (cfgM1 V hO).N) : (dat1 V hO c).after 3 t = iblk1 V hO c 3 t := by dsimp only [dat1]; try rfl
theorem after1_4 (c : Dev nD) (t : Fin (cfgM1 V hO).N) : (dat1 V hO c).after 4 t = k1_pay13 (stAt V hO c (t.val + 1) t.isLt).2.2.2 (stAt V hO c (t.val + 1) t.isLt).2.2.1 := by dsimp only [dat1]; try rfl

theorem before1_0 (c : Dev nD) (t : Fin (cfgM1 V hO).N) (d) : (dat1 V hO c).before 0 t d = iblk1 V hO c 0 t :=
  before1_0_of V hO (dat1 V hO c) (A_eq1 V hO c 0) (after1_0 V hO c) t d
theorem before1_1 (c : Dev nD) (t : Fin (cfgM1 V hO).N) (d) : (dat1 V hO c).before 1 t d = iblk1 V hO c 1 t :=
  before1_1_of V hO (dat1 V hO c) (A_eq1 V hO c 1) (after1_1 V hO c) t d
theorem before1_2 (c : Dev nD) (t : Fin (cfgM1 V hO).N) (d) : (dat1 V hO c).before 2 t d = iblk1 V hO c 2 t :=
  before1_2_of V hO (dat1 V hO c) (A_eq1 V hO c 2) (after1_2 V hO c) t d
theorem before1_3 (c : Dev nD) (t : Fin (cfgM1 V hO).N) (d) : (dat1 V hO c).before 3 t d = iblk1 V hO c 3 t :=
  before1_3_of V hO (dat1 V hO c) (A_eq1 V hO c 3) (after1_3 V hO c) t d

/-- The input windows are never idle. -/
theorem liveAt1_0 (t : Fin (cfgM1 V hO).N) : (cfgM1 V hO).idle 0 ((cfgM1 V hO).grid.coords t) = false := rfl
theorem liveAt1_1 (t : Fin (cfgM1 V hO).N) : (cfgM1 V hO).idle 1 ((cfgM1 V hO).grid.coords t) = false := rfl
theorem liveAt1_2 (t : Fin (cfgM1 V hO).N) : (cfgM1 V hO).idle 2 ((cfgM1 V hO).grid.coords t) = false := rfl
theorem liveAt1_3 (t : Fin (cfgM1 V hO).N) : (cfgM1 V hO).idle 3 ((cfgM1 V hO).grid.coords t) = false := rfl

/-- What the body is called with at point `t`, -/
def bodyPre1 (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d))
    ∗ (∃ d, owns (c : Thread nD τ) (ms1_2 V hO t) fullShare ((dat1 V hO c).before 2 t d))
    ∗ (∃ d, owns (c : Thread nD τ) (ms1_3 V hO t) fullShare ((dat1 V hO c).before 3 t d))
    ∗ (∃ d, owns (c : Thread nD τ) (ms1_4 V hO t) fullShare ((dat1 V hO c).before 4 t d)))

/-- and what it returns. -/
def bodyPost1 (c : Dev nD) (t : Fin (cfgM1 V hO).N) : sProp 𝕄 :=
  iprop((dat1 V hO c).Φ t.succ ∗ (dat1 V hO c).owesAt () t.succ
    ∗ (dat1 V hO c).leavesExact 0 t
    ∗ (dat1 V hO c).leavesExact 1 t
    ∗ (dat1 V hO c).leavesExact 2 t
    ∗ (dat1 V hO c).leavesExact 3 t
    ∗ (dat1 V hO c).leavesExact 4 t)

end Region1

end Cert.Kernel.Gen

end
-- ==== Proof.KR1RunA.lean ====
/-
  The attention body at the first grid point of a query row's group when the key tile is also the diagonal one: the
  running statistics are started and the queries projected, the masked update is applied, and the output block is written.
-/
import proofs.«121710_j11665131176114_2_alg».proof.Proof.KR1Setup

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_A (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1)
    (hc0 : cInit (word1 c tbM1_1 i xt1)) (hc1 : cDiag (word1 c tbM1_0 i xt0) (word1 c tbM1_1 i xt1)) (hc2 : ¬cOff (word1 c tbM1_0 i xt0) (word1 c tbM1_1 i xt1)) (hc3 : cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d)
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k1_pay13 (k1_pay19 (word1 c tbM1_0 i xt0) (word1 c tbM1_1 i xt1) (k1_pay5 x3) (k1_pay6 (k1_pay4 x0 x1) x2) (k1_pay1 (F := F)) (k1_pay3 (F := F))) (k1_pay18 (word1 c tbM1_0 i xt0) (word1 c tbM1_1 i xt1) (k1_pay6 (k1_pay4 x0 x1) x2) (k1_pay1 (F := F)) (k1_pay2 (F := F))))
        ∗ owns (c : Thread nD τ) arg9 fullShare (k1_pay4 x0 x1) ∗ owns (c : Thread nD τ) arg10 fullShare (k1_pay20 (word1 c tbM1_0 i xt0) (word1 c tbM1_1 i xt1) (k1_pay6 (k1_pay4 x0 x1) x2) (k1_pay1 (F := F))) ∗ owns (c : Thread nD τ) arg11 fullShare (k1_pay18 (word1 c tbM1_0 i xt0) (word1 c tbM1_1 i xt1) (k1_pay6 (k1_pay4 x0 x1) x2) (k1_pay1 (F := F)) (k1_pay2 (F := F))) ∗ owns (c : Thread nD τ) arg12 fullShare (k1_pay19 (word1 c tbM1_0 i xt0) (word1 c tbM1_1 i xt1) (k1_pay5 x3) (k1_pay6 (k1_pay4 x0 x1) x2) (k1_pay1 (F := F)) (k1_pay3 (F := F)))
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_eq_canon _ _ _ (fun y => ⟨_, List.mem_cons_self, View.mem_set_unit_zero hz3 inb_S1x512x1024_S1x512x1024_0_0_0 y⟩)).trans ?_
    refine (View.canon_cons_unit_zero hz3 inb_S1x512x1024_S1x512x1024_0_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HQ]
  · iexists _; isplitr
    swap; · iexact HQ
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.Kernel.Gen

end
-- ==== Proof.KR1RunB.lean ====
/-
  The attention body at the first grid point of a query row's group when the key tile lies strictly below the diagonal:
  the running statistics are started and the queries projected, then the unmasked update is applied; the output block
  is not touched.
-/
import proofs.«121710_j11665131176114_2_alg».proof.Proof.KR1Setup

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_B (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1) (x8 : Vec F S1x512x1024 .f32)
    (hc0 : cInit (word1 c tbM1_1 i xt1)) (hc1 : ¬cDiag (word1 c tbM1_0 i xt0) (word1 c tbM1_1 i xt1)) (hc2 : cOff (word1 c tbM1_0 i xt0) (word1 c tbM1_1 i xt1)) (hc3 : ¬cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare (k1_pay4 x0 x1) ∗ owns (c : Thread nD τ) arg10 fullShare (k1_pay12 (k1_pay4 x0 x1) x2 (k1_pay1 (F := F))) ∗ owns (c : Thread nD τ) arg11 fullShare (k1_pay10 (k1_pay4 x0 x1) x2 (k1_pay1 (F := F)) (k1_pay2 (F := F))) ∗ owns (c : Thread nD τ) arg12 fullShare (k1_pay11 (k1_pay4 x0 x1) x2 x3 (k1_pay1 (F := F)) (k1_pay3 (F := F)))
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists f4; isplitr; · ipureintro; exact hf4
    iexact H4
  isplitl [HQ]
  · iexists _; isplitr
    swap; · iexact HQ
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.Kernel.Gen

end
-- ==== Proof.KR1RunC.lean ====
/-
  The attention body at a grid point whose key tile lies strictly below the diagonal and is not the first of its row:
  the query scratch is read, the running maximum, normaliser and weighted sum are each replaced by their unmasked
  update, and the output block is not touched.
-/
import proofs.«121710_j11665131176114_2_alg».proof.Proof.KR1Setup

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_C (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1) (x8 : Vec F S1x512x1024 .f32)
    (hc0 : ¬cInit (word1 c tbM1_1 i xt1)) (hc1 : ¬cDiag (word1 c tbM1_0 i xt0) (word1 c tbM1_1 i xt1)) (hc2 : cOff (word1 c tbM1_0 i xt0) (word1 c tbM1_1 i xt1)) (hc3 : ¬cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare (xq) ∗ owns (c : Thread nD τ) arg10 fullShare (k1_pay12 (xq) x2 xm) ∗ owns (c : Thread nD τ) arg11 fullShare (k1_pay10 (xq) x2 xm xl) ∗ owns (c : Thread nD τ) arg12 fullShare (k1_pay11 (xq) x2 x3 xm xa)
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists f4; isplitr; · ipureintro; exact hf4
    iexact H4
  isplitl [HQ]
  · iexists _; isplitr; · ipureintro; exact harg9.read_unread _
    iexact HQ
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.Kernel.Gen

end
-- ==== Proof.KR1RunD.lean ====
/-
  The attention body at a grid point whose key tile is the diagonal one and not the first of its row: the masked
  update is applied and the output block is written as the weighted sum over the normaliser.
-/
import proofs.«121710_j11665131176114_2_alg».proof.Proof.KR1Setup

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_D (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1)
    (hc0 : ¬cInit (word1 c tbM1_1 i xt1)) (hc1 : cDiag (word1 c tbM1_0 i xt0) (word1 c tbM1_1 i xt1)) (hc2 : ¬cOff (word1 c tbM1_0 i xt0) (word1 c tbM1_1 i xt1)) (hc3 : cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d)
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k1_pay13 (k1_pay19 (word1 c tbM1_0 i xt0) (word1 c tbM1_1 i xt1) (k1_pay5 x3) (k1_pay6 (xq) x2) xm xa) (k1_pay18 (word1 c tbM1_0 i xt0) (word1 c tbM1_1 i xt1) (k1_pay6 (xq) x2) xm xl))
        ∗ owns (c : Thread nD τ) arg9 fullShare (xq) ∗ owns (c : Thread nD τ) arg10 fullShare (k1_pay20 (word1 c tbM1_0 i xt0) (word1 c tbM1_1 i xt1) (k1_pay6 (xq) x2) xm) ∗ owns (c : Thread nD τ) arg11 fullShare (k1_pay18 (word1 c tbM1_0 i xt0) (word1 c tbM1_1 i xt1) (k1_pay6 (xq) x2) xm xl) ∗ owns (c : Thread nD τ) arg12 fullShare (k1_pay19 (word1 c tbM1_0 i xt0) (word1 c tbM1_1 i xt1) (k1_pay5 x3) (k1_pay6 (xq) x2) xm xa)
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_eq_canon _ _ _ (fun y => ⟨_, List.mem_cons_self, View.mem_set_unit_zero hz3 inb_S1x512x1024_S1x512x1024_0_0_0 y⟩)).trans ?_
    refine (View.canon_cons_unit_zero hz3 inb_S1x512x1024_S1x512x1024_0_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HQ]
  · iexists _; isplitr; · ipureintro; exact harg9.read_unread _
    iexact HQ
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.Kernel.Gen

end
-- ==== Proof.KR1Body.lean ====
/-
  The second kernel call's body at every grid point, against its proof data: in each of the four situations a point can
  be in, the body takes the carried state before the point to the state after it (one `step1`), leaves the input
  blocks as they were and, on the diagonal tile, leaves the output block at the weighted sum over the normaliser;
  below the diagonal the output window is idle and its buffer is handed back untouched.
-/
import proofs.«121710_j11665131176114_2_alg».proof.Proof.KR1Dat
import proofs.«121710_j11665131176114_2_alg».proof.Proof.KR1RunA
import proofs.«121710_j11665131176114_2_alg».proof.Proof.KR1RunB
import proofs.«121710_j11665131176114_2_alg».proof.Proof.KR1RunC
import proofs.«121710_j11665131176114_2_alg».proof.Proof.KR1RunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b)) (hO : Ok1 V)

set_option maxHeartbeats 8000000 in
theorem sound_body1 (hT : TblFacts1 V hO) (c : Dev nD) (t : Fin (cfgM1 V hO).N) :
    bodyPre1 V hO c t ⊢ wp frame (wpE (defs₀ (F := F)) Variants.none c none) Set.univ (bodyAt1 V hO t) (fun _ => bodyPost1 V hO c t) := by
  unfold bodyPre1 bodyPost1 bodyAt1
  simp only [before1_0, before1_1, before1_2, before1_3]
  rw [show (dat1 V hO c).owesAt () t.succ = (dat1 V hO c).owesAt () t.castSucc from rfl]
  rw [show (dat1 V hO c).Φ t.succ = PhiS V hO c (t.val + 1) t.isLt from rfl, PhiS_castSucc V hO c t]
  unfold PhiS PhiSAt Rest1
  rw [show (dat1 V hO c).leavesExact 0 t = owns (c : Thread nD τ) (((cfgM1 V hO).win 0).stage ((cfgM1 V hO).slots t 0)) fullShare ((dat1 V hO c).after 0 t) from by
        unfold Dat.leavesExact; rw [liveAt1_0 V hO t], after1_0]
  rw [show (dat1 V hO c).leavesExact 1 t = owns (c : Thread nD τ) (((cfgM1 V hO).win 1).stage ((cfgM1 V hO).slots t 1)) fullShare ((dat1 V hO c).after 1 t) from by
        unfold Dat.leavesExact; rw [liveAt1_1 V hO t], after1_1]
  rw [show (dat1 V hO c).leavesExact 2 t = owns (c : Thread nD τ) (((cfgM1 V hO).win 2).stage ((cfgM1 V hO).slots t 2)) fullShare ((dat1 V hO c).after 2 t) from by
        unfold Dat.leavesExact; rw [liveAt1_2 V hO t], after1_2]
  rw [show (dat1 V hO c).leavesExact 3 t = owns (c : Thread nD τ) (((cfgM1 V hO).win 3).stage ((cfgM1 V hO).slots t 3)) fullShare ((dat1 V hO c).after 3 t) from by
        unfold Dat.leavesExact; rw [liveAt1_3 V hO t], after1_3]
  rcases hT.cases c t with ⟨h0, h1, h2⟩ | ⟨h0, h1, h2⟩ | ⟨h0, h1, h2⟩ | ⟨h0, h1, h2⟩
  · -- situation A
    rw [show (dat1 V hO c).leavesExact 4 t = owns (c : Thread nD τ) (((cfgM1 V hO).win 4).stage ((cfgM1 V hO).slots t 4)) fullShare ((dat1 V hO c).after 4 t) from by
          unfold Dat.leavesExact; rw [hT.live c t h1], after1_4]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl
    have eO : stAt V hO c (t.val + 1) t.isLt = stFrom V hO c dS (t.val + 1) t.isLt := stFrom_indep V hO hT c _ dS t.val t.isLt
    rw [eO, eS]
    iapply (run1_A c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) h0 h1 h2 h1 Set.univ _)
    isplitl [H0]; · iexact H0
    isplitl [H1]; · iexact H1
    isplitl [H2]; · iexact H2
    isplitl [H3]; · iexact H3
    isplitl [H4]; · iexists _; iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_pos h0, if_pos h1]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold step1; simp only [if_pos h0, if_pos h1]
    iexact H4
  · -- situation B
    rw [Dat.leavesExact_idle (dat1 V hO c) 4 t (hT.idle c t h1).1 (hT.idle c t h1).2]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl

    iapply (run1_B c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) ((dat1 V hO c).before 4 t d4) h0 h1 h2 h1 Set.univ _)
    isplitl [H0]; · iexact H0
    isplitl [H1]; · iexact H1
    isplitl [H2]; · iexact H2
    isplitl [H3]; · iexact H3
    isplitl [H4]; · iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_pos h0, if_neg h1, if_pos h2]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4
  · -- situation C
    rw [Dat.leavesExact_idle (dat1 V hO c) 4 t (hT.idle c t h1).1 (hT.idle c t h1).2]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl

    iapply (run1_C c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) ((dat1 V hO c).before 4 t d4) h0 h1 h2 h1 Set.univ _)
    isplitl [H0]; · iexact H0
    isplitl [H1]; · iexact H1
    isplitl [H2]; · iexact H2
    isplitl [H3]; · iexact H3
    isplitl [H4]; · iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_neg h0, if_neg h1, if_pos h2]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4
  · -- situation D
    rw [show (dat1 V hO c).leavesExact 4 t = owns (c : Thread nD τ) (((cfgM1 V hO).win 4).stage ((cfgM1 V hO).slots t 4)) fullShare ((dat1 V hO c).after 4 t) from by
          unfold Dat.leavesExact; rw [hT.live c t h1], after1_4]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl
    have eO : stAt V hO c (t.val + 1) t.isLt = stFrom V hO c dS (t.val + 1) t.isLt := stFrom_indep V hO hT c _ dS t.val t.isLt
    rw [eO, eS]
    iapply (run1_D c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) h0 h1 h2 h1 Set.univ _)
    isplitl [H0]; · iexact H0
    isplitl [H1]; · iexact H1
    isplitl [H2]; · iexact H2
    isplitl [H3]; · iexact H3
    isplitl [H4]; · iexists _; iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_neg h0, if_pos h1]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold step1; simp only [if_neg h0, if_pos h1]
    iexact H4

/-- The library's body obligation, at every point. -/
theorem body_obligation1 (hT : TblFacts1 V hO) (c : Dev nD) : BodyObligation (dat1 (F := F) V hO c) (defs₀ (F := F)) Variants.none () Set.univ := fun t => by
  rw [bigSep_W1, bigSep_W1]
  exact sound_body1 V hO hT c t

/-- What the call is handed — the generator register, the tables, the scoped buffers no window stages — is the invariant
    before the first point, at whatever the scratch holds. -/
theorem hin1 (c : Dev nD) : (iprop((∃ r, prngReg c r) ∗ Pipeline.prefHeld pre1 c (fun _ => fullShare) (tbl1 V) ∗ Pipeline.scopedRest (Ix := Unit) (Name := ℕ) (U := UR sig nD τ) (Lvl := ℕ) (Val := Elt F) spec1 c) : sProp 𝕄) ⊢ (dat1 V hO c).Φ 0 := by
  rw [show (dat1 V hO c).Φ 0 = PhiS V hO c 0 (Nat.zero_le _) from rfl, PhiT1_eq, scopedRest1_eq]
  unfold PhiS PhiSAt Rest1
  simp only [owns_whole_eq]
  iintro ⟨Hg, ⟨HT0, HT1⟩, R0, R1, R2, R3, R4, R5, R6, R7, ⟨%f0, S0⟩, ⟨%f1, S1⟩, ⟨%f2, S2⟩, ⟨%f3, S3⟩⟩
  iexists (f0, f1, f2, f3)
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  isplitl [S3]; · iexists f3; isplitr; · ipureintro; rfl
                  iexact S3
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [Hg]; · iexact Hg
  isplitl [HT0]; · iexact HT0
  iexact HT1

/-- After the last point the invariant gives all of it back. -/
theorem hout1 (c : Dev nD) : (dat1 V hO c).Φ (Fin.last (cfgM1 V hO).N) ⊢ (iprop(iprop((∃ r, prngReg c r) ∗ Pipeline.prefHeld pre1 c (fun _ => fullShare) (tbl1 V)) ∗ Pipeline.scopedRest (Ix := Unit) (Name := ℕ) (U := UR sig nD τ) (Lvl := ℕ) (Val := Elt F) spec1 c) : sProp 𝕄) := by
  rw [show (dat1 V hO c).Φ (Fin.last (cfgM1 V hO).N) = PhiS V hO c (Fin.last (cfgM1 V hO).N).val (Nat.le_of_lt_succ (Fin.last (cfgM1 V hO).N).isLt) from rfl, PhiT1_eq, scopedRest1_eq]
  unfold PhiS PhiSAt Rest1
  simp only [owns_whole_eq]
  iintro ⟨%dS, ⟨%f0, -, S0⟩, ⟨%f1, -, S1⟩, ⟨%f2, -, S2⟩, ⟨%f3, -, S3⟩, R0, R1, R2, R3, R4, R5, R6, R7, Hg, HT0, HT1⟩
  isplitl [Hg HT0 HT1]
  · isplitl [Hg]; · iexact Hg
    isplitl [HT0]; · iexact HT0
    iexact HT1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [S0]; · iexists f0; iexact S0
  isplitl [S1]; · iexists f1; iexact S1
  isplitl [S2]; · iexists f2; iexact S2
  iexists f3; iexact S3

end Region1

end Cert.Kernel.Gen

end
-- ==== Proof.KRun.lean ====
/-
  The whole program as a run: the host stretch before the first kernel call, the first call (key and value
  projections), the two reshapes, and the attention call — each as a segment entered from the core's unscoped buffers at
  the contents the previous segment leaves. Every weakly fair execution terminates, and every final memory holds each
  unscoped buffer at the last segment's contents: the argument arrays as launched, and the result array at what the
  attention call's write-backs leave.
-/
import proofs.«121710_j11665131176114_2_alg».proof.Proof.KRegion0
import proofs.«121710_j11665131176114_2_alg».proof.Proof.KR1Body
import proofs.«121710_j11665131176114_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b

section
variable (hO : Ok1 (VV3 m))

/-- At the second call's exit. -/
def W4 (c : Dev nD) : Valuation τ sig (Elt F) :=
  Pipeline.withArrays spec1 c (W3 m c) fun w => (dat1 (VV3 m) hO c).arrAt w (cfgM1 (VV3 m) hO).N
theorem W4_arr (c : Dev nD) (w : Fin (cfgM1 (VV3 m) hO).W) :
    W4 m hO c (Proc.devRef .tc (Pipeline.arrRef spec1 w)) = (dat1 (VV3 m) hO c).arrAt w (cfgM1 (VV3 m) hO).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m hO c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m hO c b
theorem hF1 (c : Dev nD) (w : Fin (cfgM1 (VV3 m) hO).W) : (dat1 (VV3 m) hO c).arrAt w (cfgM1 (VV3 m) hO).N = VV4 m hO c (Pipeline.arrRef spec1 w) :=
  (W4_arr m hO c w).symm
theorem hrest1 (c : Dev nD) : ∀ b, b ∉ Finset.univ.image (Pipeline.arrRef spec1) → VV4 m hO c b = VV3 m c b :=
  fun b hb => W4_of_ne m hO c b fun w e => hb (Finset.mem_image.mpr ⟨w, Finset.mem_univ _, e⟩)

/-! ## The proof data family and the thread state -/

/-- The prefetched tables' admissible contents: the first call has none, the second its two schedule tables as it finds them. -/
def admA : (p : Fin 2) → (pcfgs (F := F) p).Adm
  | ⟨0, _⟩ => cfg0.toPCfg_adm
  | ⟨1, _⟩ => adm1 (VV3 m) hO
/-- Every pipeline's proof data, each at its call's entry contents. -/
def pdatsA : (p : Fin 2) → (c : Dev nD) → Dat τ (Elt F) Unit ℕ (UR sig nD τ) ℕ (Pipeline.pin (pcfgs (F := F)) (admA m hO) p) c
  | ⟨0, _⟩ => fun c => dat0 (VV1 m) c
  | ⟨1, _⟩ => fun c => dat1 (VV3 m) hO c
abbrev VarN : Variants := Variants.none
abbrev LL : GSem nD τ sig → Finset Unit := fun _ => ∅
abbrev lvv : GSem nD τ sig → Unit → ℕ := fun _ _ => 0
/-- What rides beside the buffers through every segment: the generator register at some state and nothing owed. -/
abbrev RR (c : Dev nD) : sProp 𝕄 := iprop((∃ r, prngReg c r) ∗ ∃ W, owes (c : Thread nD τ) (0 : CellTallies nD τ sig Unit) W)
abbrev hsegA (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarN LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_ucA (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TN (c : Dev nD) : sProp 𝕄 := iprop(StableHlo.held (c : Thread nD τ) (Pipeline.ucRefs τ sig) (W4 m hO c) ∗ ∃ r, prngReg c r)

/-! ## The calls as segments -/

set_option backward.isDefEq.respectTransparency.types false in
/-- The first call over the thread state: entered from every unscoped buffer at `W1`, left at `W2`. -/
def regA0 : Pipeline.RegionSeg (pcfgs (F := F)) (admA m hO) (pdatsA m hO) () defs₀ VarN LL lvv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VV1 m) c).loose
  hwaits := Pipeline.hwaits_of_owed_zero _ _ _ _ LL lvv 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) (admA m hO) (pdatsA m hO) (launch0 (F := F)).win (launch0 (F := F)).arr_whole c
      ((pdatsA m hO 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsA m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (admA m hO) (Ix := Unit) (Name := ℕ) (U := UR sig nD τ) (Lvl := ℕ)
      (launch0 (F := F)).win (launch0 (F := F)).arr_whole c (pdatsA m hO) ((pdatsA m hO 0 c).share_full fun _ => rfl)
      (VV1 m c) (VV2 m c) ((pdatsA m hO 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The tables as the second call finds them are the admissible contents it is pinned at. -/
theorem tbl_eqA (c : Dev nD) : (fun k => VV3 m c (pre1.ref k)) = tbl1 (VV3 m) := funext fun k => V_pre1 (VV3 m) c k

set_option backward.isDefEq.respectTransparency.types false in
/-- The second call over the thread state: entered from every unscoped buffer at `W3`, left at `W4`; the two tables
    go into the pipeline's invariant whole and come back whole. -/
def regA1 (hT : TblFacts1 (VV3 m) hO) : Pipeline.RegionSeg (pcfgs (F := F)) (admA m hO) (pdatsA m hO) () defs₀ VarN LL lvv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VV3 m) hO hT c).loose
  hwaits := Pipeline.hwaits_of_owed_zero _ _ _ _ LL lvv 1 fun _ _ => rfl
  pre c := iprop(StableHlo.held (c : Thread nD τ) (Pipeline.ucRefs τ sig) (W3 m c) ∗ RR c)
  post c := iprop(TN m hO c ∗ ∃ W, owes (c : Thread nD τ) (0 : CellTallies nD τ sig Unit) W)
  X c := iprop(∃ r, prngReg c r)
  Y c := iprop((∃ r, prngReg c r) ∗ Pipeline.prefHeld pre1 c (fun _ => fullShare) (tbl1 (VV3 m)))
  Z c := Pipeline.unscopedRestP (Ix := Unit) (Name := ℕ) (U := UR sig nD τ) (Lvl := ℕ) pre1 spec1 c (VV3 m c)
  hentry c := by
    rw [Pipeline.ownSems0_none]
    have hsplit := Pipeline.arrays_of_unscopedBufs (p := 1) (pcfgs (F := F)) (admA m hO) (pdatsA m hO) (launch1 (F := F)).win (launch1 (F := F)).arr_whole c
      ((pdatsA m hO 1 c).share_full fun _ => rfl) (VV3 m c) fun _ => rfl
    rw [Pipeline.unscopedBufs_held, show Pipeline.unscopedRest (Ix := Unit) (Name := ℕ) (U := UR sig nD τ) (Lvl := ℕ) (Pipeline.pin (pcfgs (F := F)) (admA m hO) 1).spec c (VV3 m c) = _ from Pipeline.unscopedRest_split preFacts1 c (VV3 m c), tbl_eqA m c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (VV3 m) hO c
  hout c := by
    rw [Pipeline.ownSems0_none]
    refine (hout1 (VV3 m) hO c).trans ?_
    iintro ⟨HY, Hs⟩
    isplitl [HY]; · iexact HY
    isplitr; · iempintro
    iexact Hs
  hexit c := by
    have hjoin := Pipeline.unscopedBufs_of_arrays (p := 1) (pcfgs (F := F)) (admA m hO) (Ix := Unit) (Name := ℕ) (U := UR sig nD τ) (Lvl := ℕ)
      (launch1 (F := F)).win (launch1 (F := F)).arr_whole c (pdatsA m hO) ((pdatsA m hO 1 c).share_full fun _ => rfl)
      (VV3 m c) (VV4 m hO c) ((pdatsA m hO 1 c).arrAt · (cfgM1 (VV3 m) hO).N) (hF1 m hO c) (hrest1 m hO c)
    rw [Pipeline.unscopedBufs_held, show Pipeline.unscopedRest (Ix := Unit) (Name := ℕ) (U := UR sig nD τ) (Lvl := ℕ) (Pipeline.pin (pcfgs (F := F)) (admA m hO) 1).spec c (VV3 m c) = _ from Pipeline.unscopedRest_split preFacts1 c (VV3 m c), tbl_eqA m c] at hjoin
    iintro ⟨Ha, HO, ⟨HY, Hpf⟩, Hrest⟩
    imodintro
    isplitl [Ha Hrest HY Hpf]
    · isplitl [Ha Hrest Hpf]
      · iapply hjoin; isplitl [Ha]; · iexact Ha
        isplitl [Hpf]; · iexact Hpf
        iexact Hrest
      iexact HY
    unfold Pipeline.Dat.owesAt Pipeline.owesWithin
    icases HO with ⟨%W, -, HO⟩; iexists W; iexact HO

/-! ## @main as segments, and the launch -/

abbrev rsegs (hT : TblFacts1 (VV3 m) hO) : List (Pipeline.Seg (pcfgs (F := F)) (admA m hO) (pdatsA m hO) () defs₀ VarN LL lvv) :=
  [ .host (hsegA hostOps0 hostOps0_sub hostOps0_fresh (W0 m)),
    .region (regA0 m hO),
    .host (hsegA hostOps1 hostOps1_sub hostOps1_fresh (W2 m)),
    .region (regA1 m hO hT) ]
theorem main_runA (hT : TblFacts1 (VV3 m) hO) (c : Dev nD) : main (F := F) c = Pipeline.Seg.run (rsegs m hO hT) := (main_chain c).trans (by chain_rfl)

set_option backward.isDefEq.respectTransparency.types false in
/-- THE RUN: from any memory with zero counters, every weakly fair execution of @main terminates, nothing faulting, and
    every final memory holds every unscoped buffer at the last boundary's contents. -/
theorem run_mainA (hT : TblFacts1 (VV3 m) hO) : θ_run defs (onTc (τ := τ) (main (F := F))) ⟨m, fun _ => 0, ρ⟩ (fun r => ∀ c : Dev nD,
      ∀ b ∈ Pipeline.ucRefs τ sig, r.2.mem (((c : Thread nD τ)).1, b) = W4 m hO c b) :=
  Pipeline.θ_run_regions_kit (pcfgs (F := F)) (admA m hO) (pdatsA m hO) () (cellOf_inj (admA m hO)) emb₁ defs₀ VarN LL lvv m ρ main (rsegs m hO hT)
    (fun c Q => by rw [main_runA m hO hT c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admA m hO)) (cellOf_inj (admA m hO))) (Pipeline.launchToks (Pipeline.pin (pcfgs (F := F)) (admA m hO)) (cellOf_inj (admA m hO))))
    (hu₀ := by
      iintro Hu; imodintro
      isplitl [Hu]
      · iapply (show (ownU (initOf (Pipeline.cells (Pipeline.pin (pcfgs (F := F)) (admA m hO)) (cellOf_inj (admA m hO))) (Pipeline.launchToks (Pipeline.pin (pcfgs (F := F)) (admA m hO)) (cellOf_inj (admA m hO)))) : sProp 𝕄)
            ⊢ BI.own (emb₁ (initOf (Pipeline.cells (Pipeline.pin (pcfgs (F := F)) (admA m hO)) (cellOf_inj (admA m hO))) (Pipeline.launchToks (Pipeline.pin (pcfgs (F := F)) (admA m hO)) (cellOf_inj (admA m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TN m hO)
    (hch := ⟨fun _ => .rfl, fun _ => .rfl, fun _ => .rfl, fun _ => .rfl, fun _ => .rfl⟩)
    (hinit := by
      refine Pipeline.initEach LL lvv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hO c b)
    (hfin := fun c s' => by
      iintro ⟨⟨Hh, -⟩, HSI⟩
      unfold StableHlo.held
      imodintro
      iapply (pointsTo_read_all (Pipeline.ucRefs τ sig) (fun b => (((c : Thread nD τ)).1, b)) (W4 m hO c) s')
      isplitl [Hh] <;> iassumption)
    (hQ := fun s h c => h c)

end

end Cert.Kernel.Gen

end
-- ==== Proof.KiSched.lean ====
/-
The triangular schedule of the causal attention kernel: the ten steps of a batch
enumerate the pairs (query tile g, key tile j) with j ≤ g < 4 in row-major order.
`qiOf s` is the query tile of step `s`, `kiOf s` its key tile.
-/

namespace Cert.KernelIdeal.Gen

/-- The query-tile number of step `s` of a batch (0 outside the ten steps). -/
def qiOf (s : Nat) : Nat := [0, 1, 1, 2, 2, 2, 3, 3, 3, 3].getD s 0

/-- The key-tile number of step `s` of a batch (0 outside the ten steps). -/
def kiOf (s : Nat) : Nat := [0, 0, 1, 0, 1, 2, 0, 1, 2, 3].getD s 0

end Cert.KernelIdeal.Gen
-- ==== Proof.KTables.lean ====
/-
  What the two prefetched schedule tables decide.

  The second kernel call runs over a grid of 8 × 10 points: point t has batch t / 10 and step t % 10. The ten steps walk
  the lower triangle of a 4 × 4 arrangement of (query tile, key tile) pairs row by row: the first table holds the query
  tile of each step, 0 1 1 2 2 2 3 3 3 3, the second the key tile, 0 0 1 0 1 2 0 1 2 3. Both the index maps of the
  windows and the body read the tables at the step. With the tables' contents a variable every structural fact is a
  definitional unfolding: the word the body loads is the contents' element at the step, the index map of a window is
  (batch, table word, 0), the output window is idle where the body's last condition fails. At the literal contents
  each of them becomes a statement about the eighty points, decided by enumeration:

    * the words loaded at point t are the query tile and the key tile of step t % 10;
    * the key tile never exceeds the query tile, so the three conditions the body branches on (first key tile of the row,
      diagonal key tile, key tile strictly below the diagonal) occur in exactly four combinations;
    * the output window is written, and flushed, exactly at the diagonal steps, and idle elsewhere;
    * the blocks the tables select lie inside their arrays (the pipeline's side condition).
-/
import proofs.«121710_j11665131176114_2_alg».proof.Proof.KR1Setup
import proofs.«121710_j11665131176114_2_alg».proof.Proof.KiSched

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (qiOf kiOf)

variable {F : FTy → Type} [FloatOps F]

/-! ### The literal tables -/

/-- The contents of the two tables as the program's constants give them. -/
def litTbl : pre1.Contents (Elt F) := fun k => match k with
  | ⟨0, _⟩ => fun i => lit0 (S10.rowMajor i)
  | ⟨1, _⟩ => fun i => lit1 (S10.rowMajor i)
  | ⟨_ + 2, h⟩ => absurd h (Nat.not_lt.2 (Nat.le_add_left _ _))

/-- The block index (batch, query tile, 0) at point n. -/
def idxQ (n : ℕ) : Fin 3 → ℕ := ![n / 10, qiOf (n % 10), 0]
/-- The block index (batch, key tile, 0) at point n. -/
def idxK (n : ℕ) : Fin 3 → ℕ := ![n / 10, kiOf (n % 10), 0]

/-! ### Structure: the tables' contents a variable -/

/-- The position in a table that the load at a grid point reads. -/
def wordIdx (i : grid1.Coords) : Fin 10 :=
  S10.rowMajor ((Rect.unit (s := S10) (k1_off1 i) S1.size (k1_off1_inb i)).emb
    (Shape.Idx.first (numel1_S1.symm ▸ Nat.one_pos)))

theorem word1_0_eq (c : Dev nD) (i : grid1.Coords) (pf : pre1.Contents (Elt F)) :
    word1 c tbM1_0 i (pf 0) = pf.at 0 (Rect.unit (s := S10) (k1_off1 i) S1.size (k1_off1_inb i)) numel1_S1 := rfl

theorem word1_1_eq (c : Dev nD) (i : grid1.Coords) (pf : pre1.Contents (Elt F)) :
    word1 c tbM1_1 i (pf 1) = pf.at 1 (Rect.unit (s := S10) (k1_off1 i) S1.size (k1_off1_inb i)) numel1_S1 := rfl

theorem atD0_eq_at (pf : pre1.Contents (Elt F)) (i : grid1.Coords) :
    pf.atD 0 (k1_off1 i) = pf.at 0 (Rect.unit (s := S10) (k1_off1 i) S1.size (k1_off1_inb i)) numel1_S1 := by
  have h : ∀ a : Fin (pre1.ref 0).ty.shape.rank, k1_off1 i a + 1 ≤ (pre1.ref 0).ty.shape.size a := fun a =>
    match a with
    | ⟨0, _⟩ => k1_off1_inb i ⟨0, Nat.one_pos⟩
  exact (dif_pos h).trans rfl

theorem atD1_eq_at (pf : pre1.Contents (Elt F)) (i : grid1.Coords) :
    pf.atD 1 (k1_off1 i) = pf.at 1 (Rect.unit (s := S10) (k1_off1 i) S1.size (k1_off1_inb i)) numel1_S1 := by
  have h : ∀ a : Fin (pre1.ref 1).ty.shape.rank, k1_off1 i a + 1 ≤ (pre1.ref 1).ty.shape.size a := fun a =>
    match a with
    | ⟨0, _⟩ => k1_off1_inb i ⟨0, Nat.one_pos⟩
  exact (dif_pos h).trans rfl

theorem at0_lit (i : grid1.Coords) :
    (litTbl (F := F)).at 0 (Rect.unit (s := S10) (k1_off1 i) S1.size (k1_off1_inb i)) numel1_S1 = lit0 (wordIdx i) := rfl

theorem at1_lit (i : grid1.Coords) :
    (litTbl (F := F)).at 1 (Rect.unit (s := S10) (k1_off1 i) S1.size (k1_off1_inb i)) numel1_S1 = lit1 (wordIdx i) := rfl

/-! ### Decisions over the eighty points and the ten steps (no table variable, no float type) -/

theorem lit0_grid : ∀ t : Fin grid1.N, lit0 (wordIdx (grid1.coords t)) = BitVec.ofNat 32 (qiOf (t.val % 10)) := by
  decide +kernel

theorem lit1_grid : ∀ t : Fin grid1.N, lit1 (wordIdx (grid1.coords t)) = BitVec.ofNat 32 (kiOf (t.val % 10)) := by
  decide +kernel

theorem batch_grid : ∀ t : Fin grid1.N, (BitVec.ofNat 32 ((grid1.coords t) 0).val).toNat = t.val / 10 := by
  decide +kernel

theorem toNat_qi : ∀ s : Fin 10, (BitVec.ofNat 32 (qiOf s.val)).toNat = qiOf s.val := by decide +kernel
theorem toNat_ki : ∀ s : Fin 10, (BitVec.ofNat 32 (kiOf s.val)).toNat = kiOf s.val := by decide +kernel

theorem cond_steps : ∀ s : Fin 10,
    (cInit (BitVec.ofNat 32 (kiOf s.val)) ↔ kiOf s.val = 0)
    ∧ (cDiag (BitVec.ofNat 32 (qiOf s.val)) (BitVec.ofNat 32 (kiOf s.val)) ↔ kiOf s.val = qiOf s.val)
    ∧ (cOff (BitVec.ofNat 32 (qiOf s.val)) (BitVec.ofNat 32 (kiOf s.val)) ↔ kiOf s.val < qiOf s.val) := by
  decide +kernel

theorem ki_le_qi : ∀ s : Fin 10, kiOf s.val ≤ qiOf s.val := by decide +kernel

/-- The output block index changes after point t, or t is the last point, exactly at the diagonal steps. -/
theorem flush_grid : ∀ t : Fin grid1.N,
    (t.val + 1 = grid1.N ∨ ∃ h : t.val + 1 < grid1.N, idxQ (t.val + 1) ≠ idxQ t.val)
      ↔ kiOf (t.val % 10) = qiOf (t.val % 10) := by
  decide +kernel

/-- The blocks the literal tables select lie inside the [8, 2048, 1024] arrays. -/
theorem inbQ_grid : ∀ (t : Fin grid1.N) (ax : Fin 3), (idxQ t.val ax + 1) * S1x512x1024.size ax ≤ S8x2048x1024.size ax := by
  decide +kernel
theorem inbK_grid : ∀ (t : Fin grid1.N) (ax : Fin 3), (idxK t.val ax + 1) * S1x512x1024.size ax ≤ S8x2048x1024.size ax := by
  decide +kernel

/-- Every setting of the grid's coordinates is the coordinates of a point. -/
theorem coords_surj : ∀ i : grid1.Coords, ∃ t : Fin grid1.N, grid1.coords t = i := by
  decide +kernel

/-! ### The index maps at the literal tables, and the pipeline's side condition -/

theorem tr0_lit (t : Fin grid1.N) :
    cc1_transform_0 k1_off1_inb numel1_S1 (litTbl (F := F)) (grid1.coords t) = ![t.val / 10, qiOf (t.val % 10), 0] := by
  funext ax
  match ax with
  | ⟨0, _⟩ => exact batch_grid t
  | ⟨1, _⟩ =>
    show BitVec.toNat ((litTbl (F := F)).at 0 (Rect.unit (s := S10) (k1_off1 (grid1.coords t)) S1.size (k1_off1_inb _)) numel1_S1) = _
    rw [at0_lit, lit0_grid t]
    exact toNat_qi ⟨t.val % 10, Nat.mod_lt _ (by decide)⟩
  | ⟨2, _⟩ => rfl

theorem tr4_lit (t : Fin grid1.N) :
    cc1_transform_4 k1_off1_inb numel1_S1 (litTbl (F := F)) (grid1.coords t) = ![t.val / 10, qiOf (t.val % 10), 0] := by
  funext ax
  match ax with
  | ⟨0, _⟩ => exact batch_grid t
  | ⟨1, _⟩ =>
    show BitVec.toNat ((litTbl (F := F)).at 0 (Rect.unit (s := S10) (k1_off1 (grid1.coords t)) S1.size (k1_off1_inb _)) numel1_S1) = _
    rw [at0_lit, lit0_grid t]
    exact toNat_qi ⟨t.val % 10, Nat.mod_lt _ (by decide)⟩
  | ⟨2, _⟩ => rfl

theorem tr2_lit (t : Fin grid1.N) :
    cc1_transform_2 k1_off1_inb numel1_S1 (litTbl (F := F)) (grid1.coords t) = ![t.val / 10, kiOf (t.val % 10), 0] := by
  funext ax
  match ax with
  | ⟨0, _⟩ => exact batch_grid t
  | ⟨1, _⟩ =>
    show BitVec.toNat ((litTbl (F := F)).at 1 (Rect.unit (s := S10) (k1_off1 (grid1.coords t)) S1.size (k1_off1_inb _)) numel1_S1) = _
    rw [at1_lit, lit1_grid t]
    exact toNat_ki ⟨t.val % 10, Nat.mod_lt _ (by decide)⟩
  | ⟨2, _⟩ => rfl

theorem tr3_lit (t : Fin grid1.N) :
    cc1_transform_3 k1_off1_inb numel1_S1 (litTbl (F := F)) (grid1.coords t) = ![t.val / 10, kiOf (t.val % 10), 0] := by
  funext ax
  match ax with
  | ⟨0, _⟩ => exact batch_grid t
  | ⟨1, _⟩ =>
    show BitVec.toNat ((litTbl (F := F)).at 1 (Rect.unit (s := S10) (k1_off1 (grid1.coords t)) S1.size (k1_off1_inb _)) numel1_S1) = _
    rw [at1_lit, lit1_grid t]
    exact toNat_ki ⟨t.val % 10, Nat.mod_lt _ (by decide)⟩
  | ⟨2, _⟩ => rfl

/-- THE SIDE CONDITION HOLDS of the literal tables: every block they select lies inside its array, and its transfer
    ends on whole words. -/
theorem ok1_lit : ok1 (F := F) litTbl := by
  refine ⟨fun i => ?_, fun i => ?_, fun i => ?_, fun i => ?_⟩
  · obtain ⟨t, rfl⟩ := coords_surj i
    exact ⟨fun ax => by rw [tr0_lit t]; exact inbQ_grid t ax, .inl rfl⟩
  · obtain ⟨t, rfl⟩ := coords_surj i
    exact ⟨fun ax => by rw [tr2_lit t]; exact inbK_grid t ax,
      .inr (Affine.block_words_dvd (of_decide_eq_true rfl) (by decide))⟩
  · obtain ⟨t, rfl⟩ := coords_surj i
    exact ⟨fun ax => by rw [tr3_lit t]; exact inbK_grid t ax,
      .inr (Affine.block_words_dvd (of_decide_eq_true rfl) (by decide))⟩
  · obtain ⟨t, rfl⟩ := coords_surj i
    exact ⟨fun ax => by rw [tr4_lit t]; exact inbQ_grid t ax, .inl rfl⟩

/-! ### (w) The words the body loads -/

theorem word_qi (a : (pcfg1 (F := F)).Adm) (ha : a.1 = litTbl) (c : Dev nD) (t : Fin (cfg1 a).N) :
    word1 c tbM1_0 (grid1.coords t) (a.1 0) = BitVec.ofNat 32 (qiOf (t.val % 10)) := by
  rw [word1_0_eq, ha, at0_lit]
  exact lit0_grid t

theorem word_ki (a : (pcfg1 (F := F)).Adm) (ha : a.1 = litTbl) (c : Dev nD) (t : Fin (cfg1 a).N) :
    word1 c tbM1_1 (grid1.coords t) (a.1 1) = BitVec.ofNat 32 (kiOf (t.val % 10)) := by
  rw [word1_1_eq, ha, at1_lit]
  exact lit1_grid t

/-! ### (k) The conditions the body branches on -/

theorem conds_iff (a : (pcfg1 (F := F)).Adm) (ha : a.1 = litTbl) (c : Dev nD) (t : Fin (cfg1 a).N) :
    (cInit (word1 c tbM1_1 (grid1.coords t) (a.1 1)) ↔ kiOf (t.val % 10) = 0)
    ∧ (cDiag (word1 c tbM1_0 (grid1.coords t) (a.1 0)) (word1 c tbM1_1 (grid1.coords t) (a.1 1))
        ↔ kiOf (t.val % 10) = qiOf (t.val % 10))
    ∧ (cOff (word1 c tbM1_0 (grid1.coords t) (a.1 0)) (word1 c tbM1_1 (grid1.coords t) (a.1 1))
        ↔ kiOf (t.val % 10) < qiOf (t.val % 10)) := by
  rw [word_qi a ha c t, word_ki a ha c t]
  exact cond_steps ⟨t.val % 10, Nat.mod_lt _ (by decide)⟩

/-- The four situations: first and diagonal (the first step of a batch); first, below the diagonal; later, below the
    diagonal; later and diagonal. -/
theorem conds_cases (a : (pcfg1 (F := F)).Adm) (ha : a.1 = litTbl) (c : Dev nD) (t : Fin (cfg1 a).N) :
    (cInit (word1 c tbM1_1 (grid1.coords t) (a.1 1))
        ∧ cDiag (word1 c tbM1_0 (grid1.coords t) (a.1 0)) (word1 c tbM1_1 (grid1.coords t) (a.1 1))
        ∧ ¬cOff (word1 c tbM1_0 (grid1.coords t) (a.1 0)) (word1 c tbM1_1 (grid1.coords t) (a.1 1)))
    ∨ (cInit (word1 c tbM1_1 (grid1.coords t) (a.1 1))
        ∧ ¬cDiag (word1 c tbM1_0 (grid1.coords t) (a.1 0)) (word1 c tbM1_1 (grid1.coords t) (a.1 1))
        ∧ cOff (word1 c tbM1_0 (grid1.coords t) (a.1 0)) (word1 c tbM1_1 (grid1.coords t) (a.1 1)))
    ∨ (¬cInit (word1 c tbM1_1 (grid1.coords t) (a.1 1))
        ∧ ¬cDiag (word1 c tbM1_0 (grid1.coords t) (a.1 0)) (word1 c tbM1_1 (grid1.coords t) (a.1 1))
        ∧ cOff (word1 c tbM1_0 (grid1.coords t) (a.1 0)) (word1 c tbM1_1 (grid1.coords t) (a.1 1)))
    ∨ (¬cInit (word1 c tbM1_1 (grid1.coords t) (a.1 1))
        ∧ cDiag (word1 c tbM1_0 (grid1.coords t) (a.1 0)) (word1 c tbM1_1 (grid1.coords t) (a.1 1))
        ∧ ¬cOff (word1 c tbM1_0 (grid1.coords t) (a.1 0)) (word1 c tbM1_1 (grid1.coords t) (a.1 1))) := by
  obtain ⟨h1, h2, h3⟩ := conds_iff a ha c t
  have hle : kiOf (t.val % 10) ≤ qiOf (t.val % 10) := ki_le_qi ⟨t.val % 10, Nat.mod_lt _ (by decide)⟩
  rw [h1, h2, h3]
  omega

/-- At the first point the key tile is the first of its row. -/
theorem cInit_first (a : (pcfg1 (F := F)).Adm) (ha : a.1 = litTbl) (c : Dev nD) (h0 : 0 < (cfg1 a).N) :
    cInit (word1 c tbM1_1 (grid1.coords ⟨0, h0⟩) (a.1 1)) :=
  (conds_iff a ha c ⟨0, h0⟩).1.mpr (rfl : kiOf (0 % 10) = 0)

/-! ### (x) The index maps -/

theorem gridN : grid1.N = 80 := by decide

theorem N_eq (a : (pcfg1 (F := F)).Adm) : (cfg1 a).N = 80 := gridN

theorem index0_eq (a : (pcfg1 (F := F)).Adm) (ha : a.1 = litTbl) (t : Fin (cfg1 a).N) :
    ((cfg1 a).win 0).index t = ![t.val / 10, qiOf (t.val % 10), 0] := by
  show cc1_transform_0 k1_off1_inb numel1_S1 a.1 (grid1.coords t) = _
  rw [ha]
  exact tr0_lit t

theorem index4_eq (a : (pcfg1 (F := F)).Adm) (ha : a.1 = litTbl) (t : Fin (cfg1 a).N) :
    ((cfg1 a).win 4).index t = ![t.val / 10, qiOf (t.val % 10), 0] := by
  show cc1_transform_4 k1_off1_inb numel1_S1 a.1 (grid1.coords t) = _
  rw [ha]
  exact tr4_lit t

theorem index2_eq (a : (pcfg1 (F := F)).Adm) (ha : a.1 = litTbl) (t : Fin (cfg1 a).N) :
    ((cfg1 a).win 2).index t = ![t.val / 10, kiOf (t.val % 10), 0] := by
  show cc1_transform_2 k1_off1_inb numel1_S1 a.1 (grid1.coords t) = _
  rw [ha]
  exact tr2_lit t

theorem index3_eq (a : (pcfg1 (F := F)).Adm) (ha : a.1 = litTbl) (t : Fin (cfg1 a).N) :
    ((cfg1 a).win 3).index t = ![t.val / 10, kiOf (t.val % 10), 0] := by
  show cc1_transform_3 k1_off1_inb numel1_S1 a.1 (grid1.coords t) = _
  rw [ha]
  exact tr3_lit t

theorem index1_eq (a : (pcfg1 (F := F)).Adm) (t : Fin (cfg1 a).N) : ((cfg1 a).win 1).index t = ![0, 0] := by
  funext ax
  match ax with
  | ⟨0, _⟩ => rfl
  | ⟨1, _⟩ => rfl

/-! ### (i) The output window -/

theorem idle4_word (a : (pcfg1 (F := F)).Adm) (c : Dev nD) (t : Fin (cfg1 a).N) :
    (cfg1 a).idle 4 ((cfg1 a).grid.coords t)
      = !(k1_cond4 (word1 c tbM1_0 (grid1.coords t) (a.1 0)) (word1 c tbM1_1 (grid1.coords t) (a.1 1)) == 1#1) := by
  rw [word1_0_eq, word1_1_eq, ← atD0_eq_at, ← atD1_eq_at]
  rfl

theorem flush4_iff (a : (pcfg1 (F := F)).Adm) (ha : a.1 = litTbl) (t : Fin (cfg1 a).N) :
    ((cfg1 a).win 4).flush t = true ↔ kiOf (t.val % 10) = qiOf (t.val % 10) := by
  have hidx : ∀ u : Fin (cfg1 a).N, ((cfg1 a).win 4).index u = idxQ u.val := fun u => index4_eq a ha u
  unfold Pipeline.Window.flush
  rw [show ((cfg1 a).win 4).isOut = true from rfl, Bool.true_and, Bool.or_eq_true, decide_eq_true_eq, decide_eq_true_eq]
  simp only [hidx]
  exact flush_grid t

theorem out_not_diag (a : (pcfg1 (F := F)).Adm) (ha : a.1 = litTbl) (c : Dev nD) (t : Fin (cfg1 a).N)
    (h : ¬cDiag (word1 c tbM1_0 (grid1.coords t) (a.1 0)) (word1 c tbM1_1 (grid1.coords t) (a.1 1))) :
    (cfg1 a).idle 4 ((cfg1 a).grid.coords t) = true ∧ ((cfg1 a).win 4).flush t = false := by
  refine ⟨?_, ?_⟩
  · rw [idle4_word a c t]
    have hne : k1_cond4 (word1 c tbM1_0 (grid1.coords t) (a.1 0)) (word1 c tbM1_1 (grid1.coords t) (a.1 1)) ≠ 1#1 := h
    rw [beq_eq_false_iff_ne.mpr hne]
    rfl
  · have hk := (conds_iff a ha c t).2.1
    rw [Bool.eq_false_iff]
    exact fun hf => h (hk.mpr ((flush4_iff a ha t).mp hf))

theorem out_diag (a : (pcfg1 (F := F)).Adm) (ha : a.1 = litTbl) (c : Dev nD) (t : Fin (cfg1 a).N)
    (h : cDiag (word1 c tbM1_0 (grid1.coords t) (a.1 0)) (word1 c tbM1_1 (grid1.coords t) (a.1 1))) :
    (cfg1 a).idle 4 ((cfg1 a).grid.coords t) = false ∧ ((cfg1 a).win 4).flush t = true := by
  refine ⟨?_, ?_⟩
  · rw [idle4_word a c t]
    have he : k1_cond4 (word1 c tbM1_0 (grid1.coords t) (a.1 0)) (word1 c tbM1_1 (grid1.coords t) (a.1 1)) = 1#1 := h
    rw [he]
    rfl
  · exact (flush4_iff a ha t).mpr ((conds_iff a ha c t).2.1.mp h)

end Cert.Kernel.Gen

end
-- ==== Proof.KHost.lean ====
/-
  What the host operations of the program write between its kernel calls, as plain terms of the buffers' contents.

  Before the first kernel call the host flattens the input [8, 2048, 1024] to [16384, 1024], transposes each of the three
  weight matrices and narrows it to the matrix unit's format, and writes the two schedule tables (the query tile and the
  key tile of each of the ten (query tile, key tile) pairs of the causal triangle). Between the two calls it folds the
  projected keys and values [16384, 1024] back to [8, 2048, 1024]. Everything else is left as it was; in particular the
  four arguments.

  Read at an index over the extended reals (where a change of format is the identity): the flattened input at row
  b · 2048 + s is the input at (b, s); a transposed weight matrix at (i, e) is the weight matrix at (e, i); a folded
  array at (b, s, e) is the flat one at row b · 2048 + s.
-/
import proofs.«121710_j11665131176114_2_alg».proof.Proof.Gen.Kernel.Launch
import proofs.«121710_j11665131176114_2_alg».proof.Proof.Gen.Kernel.Regions
import Idealize.ShloMosaic.Lib.StableHlo.Run
import Idealize.ShloMosaic.Lib.ValueIdx
import Idealize.ShloMosaic.Lib.ValueLayout
import Idealize.ShloMosaic.Lib.Pipeline.Value

noncomputable section

namespace Cert.Kernel.Host

open Cert.Kernel Cert.Kernel.Gen Idealize.ShloMosaic Idealize.ShloMosaic.TcCoe Idealize.ShloMosaic.ValueIdx
open Idealize.ShloMosaic.StableHlo (after)

section Stretches

variable {F : FTy → Type} [FloatOps F] (W : Valuation τ sig (Elt F))

/-! ## The stretch before the first kernel call -/

/-- The flattened input. -/
theorem after0_v0 :
    (after hostOps0 W (Proc.devRef .tc main_v0) : Vec F S16384x1024 .f32)
      = shapeCast S16384x1024 (W (Proc.devRef .tc main_arg0) : Vec F S8x2048x1024 .f32) shapeCasts_S8x2048x1024_S16384x1024 := by
  after_results <;> rfl

/-- The query weights, transposed and narrowed. -/
theorem after0_v2 :
    (after hostOps0 W (Proc.devRef .tc main_v2) : Vec F S1024x1024 .bf16)
      = truncf .bf16 (transpose S1024x1024 [1, 0] (W (Proc.devRef .tc main_arg1) : Vec F S1024x1024 .f32)
          transposes_S1024x1024_S1024x1024_1_0) bitsLt_bf16_f32 := by
  after_results <;> rfl

/-- The key weights, transposed and narrowed. -/
theorem after0_v4 :
    (after hostOps0 W (Proc.devRef .tc main_v4) : Vec F S1024x1024 .bf16)
      = truncf .bf16 (transpose S1024x1024 [1, 0] (W (Proc.devRef .tc main_arg2) : Vec F S1024x1024 .f32)
          transposes_S1024x1024_S1024x1024_1_0) bitsLt_bf16_f32 := by
  after_results <;> rfl

/-- The value weights, transposed and narrowed. -/
theorem after0_v6 :
    (after hostOps0 W (Proc.devRef .tc main_v6) : Vec F S1024x1024 .bf16)
      = truncf .bf16 (transpose S1024x1024 [1, 0] (W (Proc.devRef .tc main_arg3) : Vec F S1024x1024 .f32)
          transposes_S1024x1024_S1024x1024_1_0) bitsLt_bf16_f32 := by
  after_results <;> rfl

/-- The table of query tiles. -/
theorem after0_c :
    (after hostOps0 W (Proc.devRef .tc main_c) : Vec F S10 .i32) = fun i => lit0 (S10.rowMajor i) := by
  after_results <;> rfl

/-- The table of key tiles. -/
theorem after0_c_0 :
    (after hostOps0 W (Proc.devRef .tc main_c_0) : Vec F S10 .i32) = fun i => lit1 (S10.rowMajor i) := by
  after_results <;> rfl

/-- What the stretch does not write it leaves as it was. -/
theorem after0_of (r : Ref sig .tc) (h : r ∉ hostOps0_W) :
    after hostOps0 W (Proc.devRef .tc r) = W (Proc.devRef .tc r) :=
  StableHlo.after_of_writes_sub hostOps0 W hostOps0_writes h

theorem after0_arg0 : after hostOps0 W (Proc.devRef .tc main_arg0) = W (Proc.devRef .tc main_arg0) := after0_of W main_arg0 (by decide)
theorem after0_arg1 : after hostOps0 W (Proc.devRef .tc main_arg1) = W (Proc.devRef .tc main_arg1) := after0_of W main_arg1 (by decide)
theorem after0_arg2 : after hostOps0 W (Proc.devRef .tc main_arg2) = W (Proc.devRef .tc main_arg2) := after0_of W main_arg2 (by decide)
theorem after0_arg3 : after hostOps0 W (Proc.devRef .tc main_arg3) = W (Proc.devRef .tc main_arg3) := after0_of W main_arg3 (by decide)

/-! ## The stretch between the two kernel calls -/

/-- The projected keys, folded back to [8, 2048, 1024]. -/
theorem after1_v8 :
    (after hostOps1 W (Proc.devRef .tc main_v8) : Vec F S8x2048x1024 .bf16)
      = shapeCast S8x2048x1024 (W (Proc.devRef .tc main_v7_0) : Vec F S16384x1024 .bf16) shapeCasts_S16384x1024_S8x2048x1024 := by
  after_results <;> rfl

/-- The projected values, folded back to [8, 2048, 1024]. -/
theorem after1_v9 :
    (after hostOps1 W (Proc.devRef .tc main_v9) : Vec F S8x2048x1024 .bf16)
      = shapeCast S8x2048x1024 (W (Proc.devRef .tc main_v7_1) : Vec F S16384x1024 .bf16) shapeCasts_S16384x1024_S8x2048x1024 := by
  after_results <;> rfl

/-- What the stretch does not write it leaves as it was. -/
theorem after1_of (r : Ref sig .tc) (h : r ∉ hostOps1_W) :
    after hostOps1 W (Proc.devRef .tc r) = W (Proc.devRef .tc r) :=
  StableHlo.after_of_writes_sub hostOps1 W hostOps1_writes h

theorem after1_arg0 : after hostOps1 W (Proc.devRef .tc main_arg0) = W (Proc.devRef .tc main_arg0) := after1_of W main_arg0 (by decide)
theorem after1_arg1 : after hostOps1 W (Proc.devRef .tc main_arg1) = W (Proc.devRef .tc main_arg1) := after1_of W main_arg1 (by decide)
theorem after1_arg2 : after hostOps1 W (Proc.devRef .tc main_arg2) = W (Proc.devRef .tc main_arg2) := after1_of W main_arg2 (by decide)
theorem after1_arg3 : after hostOps1 W (Proc.devRef .tc main_arg3) = W (Proc.devRef .tc main_arg3) := after1_of W main_arg3 (by decide)

end Stretches

/-! ## The layouts read at an index -/

section Layout

variable {α : Type}

/-- An [8, 2048, 1024] array flattened to [16384, 1024] reads, at row b · 2048 + s and column i, the array at (b, s, i). -/
theorem flatten_apply (x : S8x2048x1024.Idx → α) (b : Fin 8) (s : Fin 2048) (i : Fin 1024) (h : b.val * 2048 + s.val < 16384) :
    shapeCast S16384x1024 x shapeCasts_S8x2048x1024_S16384x1024 (ix2 (⟨b.val * 2048 + s.val, h⟩ : Fin 16384) i) = x (ix3 b s i) :=
  shapeCast_apply x _ _ _ (by
    rw [Shape.rowMajor_val_three, Shape.rowMajor_val_two]
    rfl)

/-- A [16384, 1024] array folded to [8, 2048, 1024] reads, at (b, s, e), the array at row b · 2048 + s and column e. -/
theorem fold_apply (y : S16384x1024.Idx → α) (b : Fin 8) (s : Fin 2048) (e : Fin 1024) (h : b.val * 2048 + s.val < 16384) :
    shapeCast S8x2048x1024 y shapeCasts_S16384x1024_S8x2048x1024 (ix3 b s e) = y (ix2 (⟨b.val * 2048 + s.val, h⟩ : Fin 16384) e) :=
  shapeCast_apply y _ _ _ (by
    rw [Shape.rowMajor_val_three, Shape.rowMajor_val_two]
    rfl)

/-- The row b · 2048 + s is a row of the flat array. -/
theorem row_lt (b : Fin 8) (s : Fin 2048) : b.val * 2048 + s.val < 16384 := by
  have := b.isLt; have := s.isLt; omega

end Layout

section AtIdeal

variable (W : Valuation τ sig (Elt Ideal))

/-- The flattened input at row b · 2048 + s is the input at (b, s). -/
theorem v0_apply (b : Fin 8) (s : Fin 2048) (i : Fin 1024) :
    (after hostOps0 W (Proc.devRef .tc main_v0) : Vec Ideal S16384x1024 .f32) (ix2 (⟨b.val * 2048 + s.val, row_lt b s⟩ : Fin 16384) i)
      = (W (Proc.devRef .tc main_arg0) : Vec Ideal S8x2048x1024 .f32) (ix3 b s i) := by
  rw [after0_v0]
  exact flatten_apply _ b s i _

/-- The transposed query weights at (i, e) are the query weights at (e, i). -/
theorem v2_apply (i e : Fin 1024) :
    (after hostOps0 W (Proc.devRef .tc main_v2) : Vec Ideal S1024x1024 .bf16) (ix2 i e)
      = (W (Proc.devRef .tc main_arg1) : Vec Ideal S1024x1024 .f32) (ix2 e i) := by
  rw [after0_v2, truncf_apply]
  exact transpose_ix2_apply _ _ i e

/-- The transposed key weights at (i, e) are the key weights at (e, i). -/
theorem v4_apply (i e : Fin 1024) :
    (after hostOps0 W (Proc.devRef .tc main_v4) : Vec Ideal S1024x1024 .bf16) (ix2 i e)
      = (W (Proc.devRef .tc main_arg2) : Vec Ideal S1024x1024 .f32) (ix2 e i) := by
  rw [after0_v4, truncf_apply]
  exact transpose_ix2_apply _ _ i e

/-- The transposed value weights at (i, e) are the value weights at (e, i). -/
theorem v6_apply (i e : Fin 1024) :
    (after hostOps0 W (Proc.devRef .tc main_v6) : Vec Ideal S1024x1024 .bf16) (ix2 i e)
      = (W (Proc.devRef .tc main_arg3) : Vec Ideal S1024x1024 .f32) (ix2 e i) := by
  rw [after0_v6, truncf_apply]
  exact transpose_ix2_apply _ _ i e

/-- The folded keys at (b, s, e) are the flat keys at row b · 2048 + s. -/
theorem v8_apply (b : Fin 8) (s : Fin 2048) (e : Fin 1024) :
    (after hostOps1 W (Proc.devRef .tc main_v8) : Vec Ideal S8x2048x1024 .bf16) (ix3 b s e)
      = (W (Proc.devRef .tc main_v7_0) : Vec Ideal S16384x1024 .bf16) (ix2 (⟨b.val * 2048 + s.val, row_lt b s⟩ : Fin 16384) e) := by
  rw [after1_v8]
  exact fold_apply _ b s e _

/-- The folded values at (b, s, e) are the flat values at row b · 2048 + s. -/
theorem v9_apply (b : Fin 8) (s : Fin 2048) (e : Fin 1024) :
    (after hostOps1 W (Proc.devRef .tc main_v9) : Vec Ideal S8x2048x1024 .bf16) (ix3 b s e)
      = (W (Proc.devRef .tc main_v7_1) : Vec Ideal S16384x1024 .bf16) (ix2 (⟨b.val * 2048 + s.val, row_lt b s⟩ : Fin 16384) e) := by
  rw [after1_v9]
  exact fold_apply _ b s e _

end AtIdeal

end Cert.Kernel.Host

end
-- ==== Proof.KFrame.lean ====
/-
  The frame of the whole program: the two schedule tables the attention call finds are the literal tables @main stores,
  so the schedule facts hold and the run applies; every argument array ends as launched — no host operation writes one,
  the first call stages none of them, and the attention call only reads the input through a window.
-/
import proofs.«121710_j11665131176114_2_alg».proof.Proof.KRun
import proofs.«121710_j11665131176114_2_alg».proof.Proof.KTables
import proofs.«121710_j11665131176114_2_alg».proof.Proof.KHost

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the literal tables the pipeline's side condition holds, -/
theorem ok_of (V : (c : Dev nD) → (b : Ref sig .tc) → Buf (Elt F) ((c : Thread nD τ).loc b)) (ha : tbl1 V = litTbl (F := F)) : Ok1 V := by
  show ok1 (tbl1 V); rw [ha]; exact ok1_lit

/-- and the schedule facts. -/
theorem tblFacts_of (V : (c : Dev nD) → (b : Ref sig .tc) → Buf (Elt F) ((c : Thread nD τ).loc b)) (hO : Ok1 V) (ha : tbl1 V = litTbl (F := F)) : TblFacts1 V hO :=
  ⟨fun c t => conds_cases (adm1 V hO) ha c t, fun c h0 => cInit_first (adm1 V hO) ha c h0,
   fun c t h => out_not_diag (adm1 V hO) ha c t h, fun c t h => (out_diag (adm1 V hO) ha c t h).1⟩

variable (m : (ℓ : Loc nD τ sig) → Buf (Elt F) ℓ) (ρ : Dev nD → PrngReg)

/-- Neither call and neither reshape touches the tables: the attention call finds them as @main stored them. -/
theorem tblA : tbl1 (VV3 m) = litTbl (F := F) := by
  funext k
  match k with
  | ⟨0, _⟩ =>
    show StableHlo.after hostOps1 (W2 m 0) (Proc.devRef .tc main_c) = _
    rw [StableHlo.after_of_writes_sub hostOps1 _ hostOps1_writes (show main_c ∉ hostOps1_W by decide)]
    rw [W2_of_ne m 0 main_c (by decide)]
    exact Cert.Kernel.Host.after0_c _
  | ⟨1, _⟩ =>
    show StableHlo.after hostOps1 (W2 m 0) (Proc.devRef .tc main_c_0) = _
    rw [StableHlo.after_of_writes_sub hostOps1 _ hostOps1_writes (show main_c_0 ∉ hostOps1_W by decide)]
    rw [W2_of_ne m 0 main_c_0 (by decide)]
    exact Cert.Kernel.Host.after0_c_0 _

theorem hOA : Ok1 (VV3 m) := ok_of (VV3 m) (tblA m)

theorem hTA : TblFacts1 (VV3 m) (hOA m) := tblFacts_of (VV3 m) (hOA m) (tblA m)

/-- An argument array the first host stretch does not write is as launched when the first call is entered, -/
theorem W1_of (c : Dev nD) (r : Ref sig .tc) (h : r ∉ hostOps0_W) : W1 m c (Proc.devRef .tc r) = m ((c : Thread nD τ).loc r) :=
  StableHlo.after_of_writes_sub hostOps0 _ hostOps0_writes h
/-- and one the second does not write is unchanged across it. -/
theorem W3_of (c : Dev nD) (r : Ref sig .tc) (h : r ∉ hostOps1_W) : W3 m c (Proc.devRef .tc r) = W2 m c (Proc.devRef .tc r) :=
  StableHlo.after_of_writes_sub hostOps1 _ hostOps1_writes h

theorem W3_arg0 (c : Dev nD) : W3 m c (Proc.devRef .tc main_arg0) = m ((c : Thread nD τ).loc main_arg0) :=
  (W3_of m c main_arg0 (by decide)).trans ((W2_of_ne m c main_arg0 (by decide)).trans (W1_of m c main_arg0 (by decide)))
theorem W3_arg1 (c : Dev nD) : W3 m c (Proc.devRef .tc main_arg1) = m ((c : Thread nD τ).loc main_arg1) :=
  (W3_of m c main_arg1 (by decide)).trans ((W2_of_ne m c main_arg1 (by decide)).trans (W1_of m c main_arg1 (by decide)))
theorem W3_arg2 (c : Dev nD) : W3 m c (Proc.devRef .tc main_arg2) = m ((c : Thread nD τ).loc main_arg2) :=
  (W3_of m c main_arg2 (by decide)).trans ((W2_of_ne m c main_arg2 (by decide)).trans (W1_of m c main_arg2 (by decide)))
theorem W3_arg3 (c : Dev nD) : W3 m c (Proc.devRef .tc main_arg3) = m ((c : Thread nD τ).loc main_arg3) :=
  (W3_of m c main_arg3 (by decide)).trans ((W2_of_ne m c main_arg3 (by decide)).trans (W1_of m c main_arg3 (by decide)))

/-- The input array ends as launched: the attention call stages it through an input window, nothing before writes it. -/
theorem W4_arg0 (c : Dev nD) : W4 m (hOA m) c (Proc.devRef .tc main_arg0) = m ((c : Thread nD τ).loc main_arg0) :=
  (W4_arr m (hOA m) c 0).trans (((dat1 (VV3 m) (hOA m) c).arrAt_in 0 rfl _).trans ((A_eq1 (VV3 m) (hOA m) c 0).trans (W3_arg0 m c)))
theorem W4_arg1 (c : Dev nD) : W4 m (hOA m) c (Proc.devRef .tc main_arg1) = m ((c : Thread nD τ).loc main_arg1) :=
  (W4_of_ne m (hOA m) c main_arg1 (by decide)).trans (W3_arg1 m c)
theorem W4_arg2 (c : Dev nD) : W4 m (hOA m) c (Proc.devRef .tc main_arg2) = m ((c : Thread nD τ).loc main_arg2) :=
  (W4_of_ne m (hOA m) c main_arg2 (by decide)).trans (W3_arg2 m c)
theorem W4_arg3 (c : Dev nD) : W4 m (hOA m) c (Proc.devRef .tc main_arg3) = m ((c : Thread nD τ).loc main_arg3) :=
  (W4_of_ne m (hOA m) c main_arg3 (by decide)).trans (W3_arg3 m c)

/-- THE FRAME, at any reading of the floats. -/
theorem frameA : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucA main_arg0 (by decide))).trans (W4_arg0 m c),
     (h c _ (mem_ucA main_arg1 (by decide))).trans (W4_arg1 m c),
     (h c _ (mem_ucA main_arg2 (by decide))).trans (W4_arg2 m c),
     (h c _ (mem_ucA main_arg3 (by decide))).trans (W4_arg3 m c)⟩) (run_mainA m ρ (hOA m) (hTA m))

end Cert.Kernel.Gen

end
-- ==== Proof.KiRegion0.lean ====
/-
  The first kernel call (the key and value projections) at any reading of the floats, as the pipeline's proof data:
  at every grid point the body loads the 512 rows of the flattened input that the point's block holds and the two
  transposed weight matrices whole, and stores into each output block the product of the rows with one matrix. What
  each output block holds after the body is therefore one pure function of the point's input blocks (`out0_3`,
  `out0_4`), the input blocks are left as they were, and nothing else of the core's state is touched.
-/
import proofs.«121710_j11665131176114_2_alg».proof.Proof.Gen.KernelIdeal.Launch
import proofs.«121710_j11665131176114_2_alg».proof.Proof.Gen.KernelIdeal.Skeleton
import proofs.«121710_j11665131176114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the core's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0

/-- The key block after the body: the rows times the first weight matrix, stored whole. -/
def out0_3 (x0 : Vec F S512x1024 .f32) (x1 : Vec F S1024x1024 .bf16) : Vec F S512x1024 .bf16 :=
  View.canon [⟨r0_x, k0_pay2 (View.ld x0 r0_x) (View.ld x1 r0_w)⟩]
/-- The value block after the body: the rows times the second weight matrix, stored whole. -/
def out0_4 (x0 : Vec F S512x1024 .f32) (x2 : Vec F S1024x1024 .bf16) : Vec F S512x1024 .bf16 :=
  View.canon [⟨r0_x, k0_pay3 (View.ld x0 r0_x) (View.ld x2 r0_w)⟩]

/-- One store of the whole block covers it. -/
theorem cover0_x (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The body on whole staging buffers, the inputs' at `x0`, `x1`, `x2` and the outputs' at anything: it runs to the
    continuation with the inputs as they were and the outputs at `out0_3`, `out0_4` of them. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole)
    (x0 : Vec F S512x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kv_kernel i arg1 harg1 arg2 harg2 arg3 harg3 arg4 harg4 arg5 harg5) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_x _)
  iexists _; isplitr
  swap; · iexact H4
  ipureintro
  exact View.read_writes_eq_canon _ _ _ (cover0_x _)

/-- The proof data of the first call on core `c`: the arrays as the call finds them; after the body at point `t` each
    input's buffer at its block and each output's at `out0_W` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KiR1Setup.lean ====
/-
  The second kernel call (causal attention over a triangular schedule of (query tile, key tile) pairs) as the
  pipeline sees it: the two schedule tables it prefetches, read off the buffers as the call finds them; the blocks its
  windows stage; the words of the tables the body loads at a grid point and the four conditions it branches on (the
  key tile is the first of its row: start the running statistics and project the queries; the key tile is the
  diagonal one: mask, update, and write the output; the key tile lies strictly below the diagonal: update unmasked).
-/
import proofs.«121710_j11665131176114_2_alg».proof.Proof.Gen.KernelIdeal.Launch
import proofs.«121710_j11665131176114_2_alg».proof.Proof.Gen.KernelIdeal.Skeleton
import proofs.«121710_j11665131176114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- A load of the whole buffer after stores the last of which filled the whole buffer reads that store's value. -/
theorem readCov_cons_unit_zero {Val : EltTy → Type} [∀ e, Nonempty (Val e)] {sig : RefSig} {κ : Kind} {sp : Space} {S : Shape} {e : EltTy}
    {v : View sig κ sp S e} {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section Region1
-- the core's buffer contents when the call is entered
variable (V : (c : Dev nD) → (b : Ref sig .tc) → Buf (Elt F) ((c : Thread nD τ).loc b))

/-- The two schedule tables as the call finds them (one device). -/
def tbl1 : pre1.Contents (Elt F) := fun j => V (0 : Dev nD) (pre1.ref j)
theorem V_pre1 (c : Dev nD) (j : Fin 2) : V c (pre1.ref j) = tbl1 V j := by
  obtain rfl : c = 0 := Subsingleton.elim _ _; rfl
/-- The pipeline's side condition of the tables: every table-indexed block lies inside its array. -/
abbrev Ok1 : Prop := ok1 (F := F) (tbl1 V)
abbrev adm1 (hO : Ok1 V) : (pcfg1 (F := F)).Adm := ⟨tbl1 V, hO⟩
abbrev cfgM1 (hO : Ok1 V) : Pipeline.Cfg sig Λ₀ := cfg1 (adm1 V hO)

/-- Each table as the body is handed it. -/
abbrev tbM1_0 : Memref sig .tc .smem S10 .i32 := Memref.whole main_c
abbrev tbM1_1 : Memref sig .tc .smem S10 .i32 := Memref.whole main_c_0
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The tables held whole, table by table. -/
theorem PhiT1_eq (c : Dev nD) : (Pipeline.prefHeld pre1 c (fun _ => fullShare) (tbl1 V) : sProp 𝕄) = iprop(tbPt1 c tbM1_0 (tbl1 V 0) ∗ tbPt1 c tbM1_1 (tbl1 V 1)) := by
  unfold Pipeline.prefHeld
  rw [show (Finset.univ : Finset (Fin 2)) = insert (0 : Fin 2) {(1 : Fin 2)} from by decide,
    bigSep_insert (by decide), bigSep_singleton]
  rfl

/-- Window `w`'s block at point `t`, read off its array as the call finds it. -/
def iblk1 (hO : Ok1 V) (c : Dev nD) (w : Fin (cfgM1 V hO).W) (t : Fin (cfgM1 V hO).N) : (((cfgM1 V hO).win w).xblock ((cfgM1 V hO).grid.coords t)).Idx → Elt F ((cfgM1 V hO).win w).elt :=
  (((cfgM1 V hO).win w).blk t).view.read (Elt F) (V c (Pipeline.arrRef spec1 w))

/-- The word the body loads from a table at a grid point. -/
abbrev word1 (c : Dev nD) (M : Memref sig .tc .smem S10 .i32) (i : grid1.Coords) (xt : TbBuf1 (F := F) c M) : Elt F .i32 :=
  M.view.readAt (Elt F) (Rect.unit (s := S10) (k1_off1 i) S1.size (k1_off1_inb i)).toLoadRect xt (Shape.Idx.first (numel1_S1.symm ▸ Nat.one_pos))

/-- The key tile is the first of its row. -/
abbrev cInit (w3 : BitVec 32) : Prop := Scalar.cmpi .ne (Scalar.extui (Scalar.cmpi .eq w3 0#32)) 0#32 = 1#1
/-- The key tile is the diagonal one. -/
abbrev cDiag (w1 w3 : BitVec 32) : Prop := Scalar.cmpi .ne (Scalar.extui (Scalar.cmpi .eq w3 w1)) 0#32 = 1#1
/-- The key tile lies strictly below the diagonal. -/
abbrev cOff (w1 w3 : BitVec 32) : Prop := Scalar.cmpi .ne (Scalar.extui (Scalar.cmpi .slt w3 w1)) 0#32 = 1#1
/-- The output block is written (the same test as the diagonal one). -/
abbrev cFin (w1 w3 : BitVec 32) : Prop := k1_cond4 w1 w3 = 1#1
theorem cFin_iff (w1 w3 : BitVec 32) : cFin w1 w3 ↔ cDiag w1 w3 := Iff.rfl

/-- The scratch operands: whole scoped buffers of the kernel's own. -/
abbrev scM1_0 : Memref sig .tc .vmem S512x1024 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1024 .f32 := Memref.whole cc1_scratch3

end Region1

end Cert.KernelIdeal.Gen

end
-- ==== Proof.KiR1Dat.lean ====
/-
  The second kernel call as the pipeline's proof data. Between grid points the kernel carries four scratch buffers —
  the projected queries of the current query tile, and per query row the running maximum, the running normaliser
  and the running weighted sum of value rows. One grid point maps the carried state to the next (`step1`): where the
  key tile is the first of its row the state is started afresh (queries projected, maximum −∞, sums zero); the
  maximum, normaliser and weighted sum then take the masked update on the diagonal tile and the unmasked one below
  it. The output block is written on the diagonal tile only, as the weighted sum over the normaliser, and is left
  untouched elsewhere. The invariant holds the carried state after the points so far (`stFrom`), for whatever the
  scratch held before the first point — the first point starts the state afresh, so nothing depends on that.
-/
import proofs.«121710_j11665131176114_2_alg».proof.Proof.KiR1Setup

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b)) (hO : Ok1 V)

theorem before1_0_of {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfgM1 V hO) c) (hA : dat.A 1 = V c (Pipeline.arrRef spec1 1))
    (hafter : ∀ t, dat.after 1 t = iblk1 V hO c 1 t) (t : Fin (cfgM1 V hO).N) (d) : dat.before 1 t d = iblk1 V hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfgM1 V hO) c) (hA : dat.A 2 = V c (Pipeline.arrRef spec1 2))
    (hafter : ∀ t, dat.after 2 t = iblk1 V hO c 2 t) (t : Fin (cfgM1 V hO).N) (d) : dat.before 2 t d = iblk1 V hO c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfgM1 V hO) c) (hA : dat.A 3 = V c (Pipeline.arrRef spec1 3))
    (hafter : ∀ t, dat.after 3 t = iblk1 V hO c 3 t) (t : Fin (cfgM1 V hO).N) (d) : dat.before 3 t d = iblk1 V hO c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, and the body as the pipeline calls it there. -/
abbrev ms1_0 (t : Fin (cfgM1 V hO).N) : Memref sig .tc .vmem S1x512x1024 .f32 := spec1_0.stage ((cfgM1 V hO).slots t 0)
abbrev hs1_0 (t : Fin (cfgM1 V hO).N) : (ms1_0 V hO t).IsWhole := hstage1_0 (((cfgM1 V hO).slots t 0).cast nbuf1_0)
abbrev ms1_1 (t : Fin (cfgM1 V hO).N) : Memref sig .tc .vmem S1024x1024 .bf16 := spec1_1.stage ((cfgM1 V hO).slots t 1)
abbrev hs1_1 (t : Fin (cfgM1 V hO).N) : (ms1_1 V hO t).IsWhole := hstage1_1 (((cfgM1 V hO).slots t 1).cast nbuf1_1)
abbrev ms1_2 (t : Fin (cfgM1 V hO).N) : Memref sig .tc .vmem S1x512x1024 .bf16 := spec1_2.stage ((cfgM1 V hO).slots t 2)
abbrev hs1_2 (t : Fin (cfgM1 V hO).N) : (ms1_2 V hO t).IsWhole := hstage1_2 (((cfgM1 V hO).slots t 2).cast nbuf1_2)
abbrev ms1_3 (t : Fin (cfgM1 V hO).N) : Memref sig .tc .vmem S1x512x1024 .bf16 := spec1_3.stage ((cfgM1 V hO).slots t 3)
abbrev hs1_3 (t : Fin (cfgM1 V hO).N) : (ms1_3 V hO t).IsWhole := hstage1_3 (((cfgM1 V hO).slots t 3).cast nbuf1_3)
abbrev ms1_4 (t : Fin (cfgM1 V hO).N) : Memref sig .tc .vmem S1x512x1024 .f32 := spec1_4.stage ((cfgM1 V hO).slots t 4)
abbrev hs1_4 (t : Fin (cfgM1 V hO).N) : (ms1_4 V hO t).IsWhole := hstage1_4 (((cfgM1 V hO).slots t 4).cast nbuf1_4)
abbrev bodyAt1 (t : Fin (cfgM1 V hO).N) : Prog (TpuEff nD τ sig (Elt F) Λ₀ .tc) PUnit :=
  cc1_kernel (grid1.coords t) tbM1_0 (Memref.isWhole_whole _) tbM1_1 (Memref.isWhole_whole _) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)

/-- The two table words the body loads at point `t`: the query tile's number and the key tile's. -/
abbrev W1at (c : Dev nD) (t : Fin (cfgM1 V hO).N) : Elt F .i32 := word1 c tbM1_0 (grid1.coords t) (tbl1 V 0)
abbrev W3at (c : Dev nD) (t : Fin (cfgM1 V hO).N) : Elt F .i32 := word1 c tbM1_1 (grid1.coords t) (tbl1 V 1)

/-- The carried state: queries, running maximum, normaliser, weighted sum. -/
abbrev St1 (F : FTy → Type) : Type := Vec F S512x1024 .bf16 × Vec F S512x1 .f32 × Vec F S512x1 .f32 × Vec F S512x1024 .f32

/-- One grid point on the carried state. -/
def step1 (w1 w3 : BitVec 32) (x0 : Vec F S1x512x1024 .f32) (x1 : Vec F S1024x1024 .bf16) (x2 x3 : Vec F S1x512x1024 .bf16) (s : St1 F) : St1 F :=
  let s0 : St1 F := if cInit w3 then (k1_pay4 x0 x1, k1_pay1 (F := F), k1_pay2 (F := F), k1_pay3 (F := F)) else s
  if cDiag w1 w3 then
    (s0.1, k1_pay20 w1 w3 (k1_pay6 s0.1 x2) s0.2.1, k1_pay18 w1 w3 (k1_pay6 s0.1 x2) s0.2.1 s0.2.2.1, k1_pay19 w1 w3 (k1_pay5 x3) (k1_pay6 s0.1 x2) s0.2.1 s0.2.2.2)
  else if cOff w1 w3 then
    (s0.1, k1_pay12 s0.1 x2 s0.2.1, k1_pay10 s0.1 x2 s0.2.1 s0.2.2.1, k1_pay11 s0.1 x2 x3 s0.2.1 s0.2.2.2)
  else s0

/-- The carried state after the first `n` points, from `dS` before the first. -/
def stFrom (c : Dev nD) (dS : St1 F) : (n : ℕ) → n ≤ (cfgM1 V hO).N → St1 F
  | 0, _ => dS
  | n + 1, h => step1 (W1at V hO c ⟨n, h⟩) (W3at V hO c ⟨n, h⟩) (iblk1 V hO c 0 ⟨n, h⟩) (iblk1 V hO c 1 ⟨n, h⟩) (iblk1 V hO c 2 ⟨n, h⟩) (iblk1 V hO c 3 ⟨n, h⟩) (stFrom c dS n (Nat.le_of_succ_le h))

theorem stFrom_succ (c : Dev nD) (dS : St1 F) (t : Fin (cfgM1 V hO).N) :
    stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl

/-- What the tables' contents decide about the schedule, point by point: which of the four situations a point is in,
    that the first point starts a row, and where the output window is idle. -/
structure TblFacts1 : Prop where
  cases : ∀ (c : Dev nD) (t : Fin (cfgM1 V hO).N),
    (cInit (W3at V hO c t) ∧ cDiag (W1at V hO c t) (W3at V hO c t) ∧ ¬cOff (W1at V hO c t) (W3at V hO c t))
    ∨ (cInit (W3at V hO c t) ∧ ¬cDiag (W1at V hO c t) (W3at V hO c t) ∧ cOff (W1at V hO c t) (W3at V hO c t))
    ∨ (¬cInit (W3at V hO c t) ∧ ¬cDiag (W1at V hO c t) (W3at V hO c t) ∧ cOff (W1at V hO c t) (W3at V hO c t))
    ∨ (¬cInit (W3at V hO c t) ∧ cDiag (W1at V hO c t) (W3at V hO c t) ∧ ¬cOff (W1at V hO c t) (W3at V hO c t))
  init0 : ∀ (c : Dev nD) (h0 : 0 < (cfgM1 V hO).N), cInit (W3at V hO c ⟨0, h0⟩)
  idle : ∀ (c : Dev nD) (t : Fin (cfgM1 V hO).N), ¬cDiag (W1at V hO c t) (W3at V hO c t) → (cfgM1 V hO).idle 4 ((cfgM1 V hO).grid.coords t) = true ∧ ((cfgM1 V hO).win 4).flush t = false
  live : ∀ (c : Dev nD) (t : Fin (cfgM1 V hO).N), cDiag (W1at V hO c t) (W3at V hO c t) → (cfgM1 V hO).idle 4 ((cfgM1 V hO).grid.coords t) = false

/-- The state after a point does not depend on what the scratch held before the first point. -/
theorem stFrom_indep (hT : TblFacts1 V hO) (c : Dev nD) (dS dS' : St1 F) : ∀ (n : ℕ) (h : n + 1 ≤ (cfgM1 V hO).N),
    stFrom V hO c dS (n + 1) h = stFrom V hO c dS' (n + 1) h
  | 0, h => by
      show step1 _ _ _ _ _ _ dS = step1 _ _ _ _ _ _ dS'
      unfold step1
      simp only [if_pos (hT.init0 c h)]
  | n + 1, h => by
      show step1 _ _ _ _ _ _ (stFrom V hO c dS (n + 1) _) = step1 _ _ _ _ _ _ (stFrom V hO c dS' (n + 1) _)
      rw [stFrom_indep hT c dS dS' n (Nat.le_of_succ_le h)]

/-- The state after each point, from anything. -/
def stAt (c : Dev nD) (n : ℕ) (h : n ≤ (cfgM1 V hO).N) : St1 F :=
  stFrom V hO c (scM1_0.view.read (Elt F) scM1_0.view.junk, scM1_1.view.read (Elt F) scM1_1.view.junk, scM1_2.view.read (Elt F) scM1_2.view.junk, scM1_3.view.read (Elt F) scM1_3.view.junk) n h

/-- What rides along untouched: the other call's staging buffers, the generator register, and the two tables. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r) ∗ tbPt1 c tbM1_0 (tbl1 V 0) ∗ tbPt1 c tbM1_1 (tbl1 V 1))

/-- The invariant before position `n`, from `dS` before the first point. -/
def PhiSAt (c : Dev nD) (dS : St1 F) (n : ℕ) (h : n ≤ (cfgM1 V hO).N) : sProp 𝕄 :=
  iprop(owns (c : Thread nD τ) scM1_0 fullShare (stFrom V hO c dS n h).1 ∗ owns (c : Thread nD τ) scM1_1 fullShare (stFrom V hO c dS n h).2.1
    ∗ owns (c : Thread nD τ) scM1_2 fullShare (stFrom V hO c dS n h).2.2.1 ∗ owns (c : Thread nD τ) scM1_3 fullShare (stFrom V hO c dS n h).2.2.2 ∗ Rest1 V c)

def PhiS (c : Dev nD) (n : ℕ) (h : n ≤ (cfgM1 V hO).N) : sProp 𝕄 :=
  iprop(∃ dS : St1 F, PhiSAt V hO c dS n h)

/-- The proof data of the second call on core `c`. -/
def dat1 (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => iblk1 V hO c 1 t
    | ⟨2, _⟩ => iblk1 V hO c 2 t
    | ⟨3, _⟩ => iblk1 V hO c 3 t
    | ⟨4, _⟩ => k1_pay13 (stAt V hO c (t.val + 1) t.isLt).2.2.2 (stAt V hO c (t.val + 1) t.isLt).2.2.1
  Φ t := PhiS V hO c t.val (Nat.le_of_lt_succ t.isLt)
  q _ := fullShare
  owed _ := 0

theorem A_eq1 (c : Dev nD) (w : Fin (cfgM1 V hO).W) : (dat1 V hO c).A w = V c (Pipeline.arrRef spec1 w) := by
  dsimp only [dat1]

theorem PhiS_castSucc (c : Dev nD) (t : Fin (cfgM1 V hO).N) :
    (dat1 V hO c).Φ t.castSucc = PhiS V hO c t.val (Nat.le_of_lt t.isLt) := by
  dsimp only [dat1]; simp only [Fin.coe_castSucc]

theorem after1_0 (c : Dev nD) (t : Fin (cfgM1 V hO).N) : (dat1 V hO c).after 0 t = iblk1 V hO c 0 t := by dsimp only [dat1]; try rfl
theorem after1_1 (c : Dev nD) (t : Fin (cfgM1 V hO).N) : (dat1 V hO c).after 1 t = iblk1 V hO c 1 t := by dsimp only [dat1]; try rfl
theorem after1_2 (c : Dev nD) (t : Fin (cfgM1 V hO).N) : (dat1 V hO c).after 2 t = iblk1 V hO c 2 t := by dsimp only [dat1]; try rfl
theorem after1_3 (c : Dev nD) (t : Fin (cfgM1 V hO).N) : (dat1 V hO c).after 3 t = iblk1 V hO c 3 t := by dsimp only [dat1]; try rfl
theorem after1_4 (c : Dev nD) (t : Fin (cfgM1 V hO).N) : (dat1 V hO c).after 4 t = k1_pay13 (stAt V hO c (t.val + 1) t.isLt).2.2.2 (stAt V hO c (t.val + 1) t.isLt).2.2.1 := by dsimp only [dat1]; try rfl

theorem before1_0 (c : Dev nD) (t : Fin (cfgM1 V hO).N) (d) : (dat1 V hO c).before 0 t d = iblk1 V hO c 0 t :=
  before1_0_of V hO (dat1 V hO c) (A_eq1 V hO c 0) (after1_0 V hO c) t d
theorem before1_1 (c : Dev nD) (t : Fin (cfgM1 V hO).N) (d) : (dat1 V hO c).before 1 t d = iblk1 V hO c 1 t :=
  before1_1_of V hO (dat1 V hO c) (A_eq1 V hO c 1) (after1_1 V hO c) t d
theorem before1_2 (c : Dev nD) (t : Fin (cfgM1 V hO).N) (d) : (dat1 V hO c).before 2 t d = iblk1 V hO c 2 t :=
  before1_2_of V hO (dat1 V hO c) (A_eq1 V hO c 2) (after1_2 V hO c) t d
theorem before1_3 (c : Dev nD) (t : Fin (cfgM1 V hO).N) (d) : (dat1 V hO c).before 3 t d = iblk1 V hO c 3 t :=
  before1_3_of V hO (dat1 V hO c) (A_eq1 V hO c 3) (after1_3 V hO c) t d

/-- The input windows are never idle. -/
theorem liveAt1_0 (t : Fin (cfgM1 V hO).N) : (cfgM1 V hO).idle 0 ((cfgM1 V hO).grid.coords t) = false := rfl
theorem liveAt1_1 (t : Fin (cfgM1 V hO).N) : (cfgM1 V hO).idle 1 ((cfgM1 V hO).grid.coords t) = false := rfl
theorem liveAt1_2 (t : Fin (cfgM1 V hO).N) : (cfgM1 V hO).idle 2 ((cfgM1 V hO).grid.coords t) = false := rfl
theorem liveAt1_3 (t : Fin (cfgM1 V hO).N) : (cfgM1 V hO).idle 3 ((cfgM1 V hO).grid.coords t) = false := rfl

/-- What the body is called with at point `t`, -/
def bodyPre1 (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d))
    ∗ (∃ d, owns (c : Thread nD τ) (ms1_2 V hO t) fullShare ((dat1 V hO c).before 2 t d))
    ∗ (∃ d, owns (c : Thread nD τ) (ms1_3 V hO t) fullShare ((dat1 V hO c).before 3 t d))
    ∗ (∃ d, owns (c : Thread nD τ) (ms1_4 V hO t) fullShare ((dat1 V hO c).before 4 t d)))

/-- and what it returns. -/
def bodyPost1 (c : Dev nD) (t : Fin (cfgM1 V hO).N) : sProp 𝕄 :=
  iprop((dat1 V hO c).Φ t.succ ∗ (dat1 V hO c).owesAt () t.succ
    ∗ (dat1 V hO c).leavesExact 0 t
    ∗ (dat1 V hO c).leavesExact 1 t
    ∗ (dat1 V hO c).leavesExact 2 t
    ∗ (dat1 V hO c).leavesExact 3 t
    ∗ (dat1 V hO c).leavesExact 4 t)

end Region1

end Cert.KernelIdeal.Gen

end
-- ==== Proof.KiR1RunA.lean ====
/-
  The attention body at the first grid point of a query row's group when the key tile is also the diagonal one: the
  running statistics are started and the queries projected, the masked update is applied, and the output block is written.
-/
import proofs.«121710_j11665131176114_2_alg».proof.Proof.KiR1Setup

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
theorem run1_A (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1)
    (hc0 : cInit (word1 c tbM1_1 i xt1)) (hc1 : cDiag (word1 c tbM1_0 i xt0) (word1 c tbM1_1 i xt1)) (hc2 : ¬cOff (word1 c tbM1_0 i xt0) (word1 c tbM1_1 i xt1)) (hc3 : cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d)
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k1_pay13 (k1_pay19 (word1 c tbM1_0 i xt0) (word1 c tbM1_1 i xt1) (k1_pay5 x3) (k1_pay6 (k1_pay4 x0 x1) x2) (k1_pay1 (F := F)) (k1_pay3 (F := F))) (k1_pay18 (word1 c tbM1_0 i xt0) (word1 c tbM1_1 i xt1) (k1_pay6 (k1_pay4 x0 x1) x2) (k1_pay1 (F := F)) (k1_pay2 (F := F))))
        ∗ owns (c : Thread nD τ) arg9 fullShare (k1_pay4 x0 x1) ∗ owns (c : Thread nD τ) arg10 fullShare (k1_pay20 (word1 c tbM1_0 i xt0) (word1 c tbM1_1 i xt1) (k1_pay6 (k1_pay4 x0 x1) x2) (k1_pay1 (F := F))) ∗ owns (c : Thread nD τ) arg11 fullShare (k1_pay18 (word1 c tbM1_0 i xt0) (word1 c tbM1_1 i xt1) (k1_pay6 (k1_pay4 x0 x1) x2) (k1_pay1 (F := F)) (k1_pay2 (F := F))) ∗ owns (c : Thread nD τ) arg12 fullShare (k1_pay19 (word1 c tbM1_0 i xt0) (word1 c tbM1_1 i xt1) (k1_pay5 x3) (k1_pay6 (k1_pay4 x0 x1) x2) (k1_pay1 (F := F)) (k1_pay3 (F := F)))
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_eq_canon _ _ _ (fun y => ⟨_, List.mem_cons_self, View.mem_set_unit_zero hz3 inb_S1x512x1024_S1x512x1024_0_0_0 y⟩)).trans ?_
    refine (View.canon_cons_unit_zero hz3 inb_S1x512x1024_S1x512x1024_0_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HQ]
  · iexists _; isplitr
    swap; · iexact HQ
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.KernelIdeal.Gen

end
-- ==== Proof.KiR1RunB.lean ====
/-
  The attention body at the first grid point of a query row's group when the key tile lies strictly below the diagonal:
  the running statistics are started and the queries projected, then the unmasked update is applied; the output block
  is not touched.
-/
import proofs.«121710_j11665131176114_2_alg».proof.Proof.KiR1Setup

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
theorem run1_B (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1) (x8 : Vec F S1x512x1024 .f32)
    (hc0 : cInit (word1 c tbM1_1 i xt1)) (hc1 : ¬cDiag (word1 c tbM1_0 i xt0) (word1 c tbM1_1 i xt1)) (hc2 : cOff (word1 c tbM1_0 i xt0) (word1 c tbM1_1 i xt1)) (hc3 : ¬cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare (k1_pay4 x0 x1) ∗ owns (c : Thread nD τ) arg10 fullShare (k1_pay12 (k1_pay4 x0 x1) x2 (k1_pay1 (F := F))) ∗ owns (c : Thread nD τ) arg11 fullShare (k1_pay10 (k1_pay4 x0 x1) x2 (k1_pay1 (F := F)) (k1_pay2 (F := F))) ∗ owns (c : Thread nD τ) arg12 fullShare (k1_pay11 (k1_pay4 x0 x1) x2 x3 (k1_pay1 (F := F)) (k1_pay3 (F := F)))
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists f4; isplitr; · ipureintro; exact hf4
    iexact H4
  isplitl [HQ]
  · iexists _; isplitr
    swap; · iexact HQ
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.KernelIdeal.Gen

end
-- ==== Proof.KiR1RunC.lean ====
/-
  The attention body at a grid point whose key tile lies strictly below the diagonal and is not the first of its row:
  the query scratch is read, the running maximum, normaliser and weighted sum are each replaced by their unmasked
  update, and the output block is not touched.
-/
import proofs.«121710_j11665131176114_2_alg».proof.Proof.KiR1Setup

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
theorem run1_C (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1) (x8 : Vec F S1x512x1024 .f32)
    (hc0 : ¬cInit (word1 c tbM1_1 i xt1)) (hc1 : ¬cDiag (word1 c tbM1_0 i xt0) (word1 c tbM1_1 i xt1)) (hc2 : cOff (word1 c tbM1_0 i xt0) (word1 c tbM1_1 i xt1)) (hc3 : ¬cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x8
        ∗ owns (c : Thread nD τ) arg9 fullShare (xq) ∗ owns (c : Thread nD τ) arg10 fullShare (k1_pay12 (xq) x2 xm) ∗ owns (c : Thread nD τ) arg11 fullShare (k1_pay10 (xq) x2 xm xl) ∗ owns (c : Thread nD τ) arg12 fullShare (k1_pay11 (xq) x2 x3 xm xa)
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists f4; isplitr; · ipureintro; exact hf4
    iexact H4
  isplitl [HQ]
  · iexists _; isplitr; · ipureintro; exact harg9.read_unread _
    iexact HQ
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.KernelIdeal.Gen

end
-- ==== Proof.KiR1RunD.lean ====
/-
  The attention body at a grid point whose key tile is the diagonal one and not the first of its row: the masked
  update is applied and the output block is written as the weighted sum over the normaliser.
-/
import proofs.«121710_j11665131176114_2_alg».proof.Proof.KiR1Setup

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
theorem run1_D (c : Dev nD) (i : grid1.Coords) (arg4 : Memref sig .tc .vmem S1x512x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)
    (x0 : Vec F S1x512x1024 .f32) (x1 : Vec F S1024x1024 .bf16) (x2 : Vec F S1x512x1024 .bf16) (x3 : Vec F S1x512x1024 .bf16)
    (xq : Vec F S512x1024 .bf16) (xm : Vec F S512x1 .f32) (xl : Vec F S512x1 .f32) (xa : Vec F S512x1024 .f32)
    (xt0 : TbBuf1 (F := F) c tbM1_0) (xt1 : TbBuf1 (F := F) c tbM1_1)
    (hc0 : ¬cInit (word1 c tbM1_1 i xt1)) (hc1 : cDiag (word1 c tbM1_0 i xt0) (word1 c tbM1_1 i xt1)) (hc2 : ¬cOff (word1 c tbM1_0 i xt0) (word1 c tbM1_1 i xt1)) (hc3 : cFin (word1 c tbM1_0 i xt0) (word1 c tbM1_1 i xt1))
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d)
        ∗ owns (c : Thread nD τ) arg9 fullShare xq ∗ owns (c : Thread nD τ) arg10 fullShare xm ∗ owns (c : Thread nD τ) arg11 fullShare xl ∗ owns (c : Thread nD τ) arg12 fullShare xa
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k1_pay13 (k1_pay19 (word1 c tbM1_0 i xt0) (word1 c tbM1_1 i xt1) (k1_pay5 x3) (k1_pay6 (xq) x2) xm xa) (k1_pay18 (word1 c tbM1_0 i xt0) (word1 c tbM1_1 i xt1) (k1_pay6 (xq) x2) xm xl))
        ∗ owns (c : Thread nD τ) arg9 fullShare (xq) ∗ owns (c : Thread nD τ) arg10 fullShare (k1_pay20 (word1 c tbM1_0 i xt0) (word1 c tbM1_1 i xt1) (k1_pay6 (xq) x2) xm) ∗ owns (c : Thread nD τ) arg11 fullShare (k1_pay18 (word1 c tbM1_0 i xt0) (word1 c tbM1_1 i xt1) (k1_pay6 (xq) x2) xm xl) ∗ owns (c : Thread nD τ) arg12 fullShare (k1_pay19 (word1 c tbM1_0 i xt0) (word1 c tbM1_1 i xt1) (k1_pay5 x3) (k1_pay6 (xq) x2) xm xa)
        ∗ tbPt1 c tbM1_0 xt0 ∗ tbPt1 c tbM1_1 xt1) -∗ K ⟨⟩))
      ⊢ wp frame (wpE (defs₀ (F := F)) Variants.none c none) E (cc1_kernel i tbM1_0 (Memref.isWhole_whole _) tbM1_1 (Memref.isWhole_whole _) arg4 harg4 arg5 harg5 arg6 harg6 arg7 harg7 arg8 harg8 arg9 harg9 arg10 harg10 arg11 harg11 arg12 harg12) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fq, %hfq, HQ⟩, ⟨%fm, %hfm, HM⟩, ⟨%fl, %hfl, HL⟩, ⟨%fa, %hfa, HA⟩, HT0, HT1, Hk⟩
  obtain rfl := harg4.eq_unread hf0; obtain rfl := harg5.eq_unread hf1; obtain rfl := harg6.eq_unread hf2; obtain rfl := harg7.eq_unread hf3
  obtain rfl := harg9.eq_unread hfq; obtain rfl := harg10.eq_unread hfm; obtain rfl := harg11.eq_unread hfl; obtain rfl := harg12.eq_unread hfa
  sl_exec (disch := first | exact hc0 | exact hc1 | exact hc2 | exact hc3)
  sl_step
  try sl_unfold_run_names
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_eq_canon _ _ _ (fun y => ⟨_, List.mem_cons_self, View.mem_set_unit_zero hz3 inb_S1x512x1024_S1x512x1024_0_0_0 y⟩)).trans ?_
    refine (View.canon_cons_unit_zero hz3 inb_S1x512x1024_S1x512x1024_0_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HQ]
  · iexists _; isplitr; · ipureintro; exact harg9.read_unread _
    iexact HQ
  isplitl [HM]
  · iexists _; isplitr
    swap; · iexact HM
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HL]
  · iexists _; isplitr
    swap; · iexact HL
    ipureintro
    refine (View.read_writes_eq_canon _ _ _ (fun y => ⟨_, List.mem_cons_self, View.mem_set_unit_zero hz2 inb_S512x1_S512x1_0_0 y⟩)).trans ?_
    refine (View.canon_cons_unit_zero hz2 inb_S512x1_S512x1_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HA]
  · iexists _; isplitr
    swap; · iexact HA
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    simp only [word1, readCov_cons_unit_zero (S := S512x1024) hz2, readCov_cons_unit_zero (S := S512x1) hz2, View.readAt_eq_ld, harg4.read_unread, harg5.read_unread, harg6.read_unread, harg7.read_unread, harg9.read_unread, harg10.read_unread, harg11.read_unread, harg12.read_unread, View.ld_unit_zero (S := S512x1024) hz2, View.ld_unit_zero (S := S512x1) hz2, View.ld_unit_zero (S := S1024x1024) hz2, View.ld_unit_zero (S := S1x512x1024) hz3]
  isplitl [HT0]; · iexact HT0
  iexact HT1

end Cert.KernelIdeal.Gen

end
-- ==== Proof.KiR1Body.lean ====
/-
  The second kernel call's body at every grid point, against its proof data: in each of the four situations a point can
  be in, the body takes the carried state before the point to the state after it (one `step1`), leaves the input
  blocks as they were and, on the diagonal tile, leaves the output block at the weighted sum over the normaliser;
  below the diagonal the output window is idle and its buffer is handed back untouched.
-/
import proofs.«121710_j11665131176114_2_alg».proof.Proof.KiR1Dat
import proofs.«121710_j11665131176114_2_alg».proof.Proof.KiR1RunA
import proofs.«121710_j11665131176114_2_alg».proof.Proof.KiR1RunB
import proofs.«121710_j11665131176114_2_alg».proof.Proof.KiR1RunC
import proofs.«121710_j11665131176114_2_alg».proof.Proof.KiR1RunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b)) (hO : Ok1 V)

set_option maxHeartbeats 8000000 in
theorem sound_body1 (hT : TblFacts1 V hO) (c : Dev nD) (t : Fin (cfgM1 V hO).N) :
    bodyPre1 V hO c t ⊢ wp frame (wpE (defs₀ (F := F)) Variants.none c none) Set.univ (bodyAt1 V hO t) (fun _ => bodyPost1 V hO c t) := by
  unfold bodyPre1 bodyPost1 bodyAt1
  simp only [before1_0, before1_1, before1_2, before1_3]
  rw [show (dat1 V hO c).owesAt () t.succ = (dat1 V hO c).owesAt () t.castSucc from rfl]
  rw [show (dat1 V hO c).Φ t.succ = PhiS V hO c (t.val + 1) t.isLt from rfl, PhiS_castSucc V hO c t]
  unfold PhiS PhiSAt Rest1
  rw [show (dat1 V hO c).leavesExact 0 t = owns (c : Thread nD τ) (((cfgM1 V hO).win 0).stage ((cfgM1 V hO).slots t 0)) fullShare ((dat1 V hO c).after 0 t) from by
        unfold Dat.leavesExact; rw [liveAt1_0 V hO t], after1_0]
  rw [show (dat1 V hO c).leavesExact 1 t = owns (c : Thread nD τ) (((cfgM1 V hO).win 1).stage ((cfgM1 V hO).slots t 1)) fullShare ((dat1 V hO c).after 1 t) from by
        unfold Dat.leavesExact; rw [liveAt1_1 V hO t], after1_1]
  rw [show (dat1 V hO c).leavesExact 2 t = owns (c : Thread nD τ) (((cfgM1 V hO).win 2).stage ((cfgM1 V hO).slots t 2)) fullShare ((dat1 V hO c).after 2 t) from by
        unfold Dat.leavesExact; rw [liveAt1_2 V hO t], after1_2]
  rw [show (dat1 V hO c).leavesExact 3 t = owns (c : Thread nD τ) (((cfgM1 V hO).win 3).stage ((cfgM1 V hO).slots t 3)) fullShare ((dat1 V hO c).after 3 t) from by
        unfold Dat.leavesExact; rw [liveAt1_3 V hO t], after1_3]
  rcases hT.cases c t with ⟨h0, h1, h2⟩ | ⟨h0, h1, h2⟩ | ⟨h0, h1, h2⟩ | ⟨h0, h1, h2⟩
  · -- situation A
    rw [show (dat1 V hO c).leavesExact 4 t = owns (c : Thread nD τ) (((cfgM1 V hO).win 4).stage ((cfgM1 V hO).slots t 4)) fullShare ((dat1 V hO c).after 4 t) from by
          unfold Dat.leavesExact; rw [hT.live c t h1], after1_4]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl
    have eO : stAt V hO c (t.val + 1) t.isLt = stFrom V hO c dS (t.val + 1) t.isLt := stFrom_indep V hO hT c _ dS t.val t.isLt
    rw [eO, eS]
    iapply (run1_A c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) h0 h1 h2 h1 Set.univ _)
    isplitl [H0]; · iexact H0
    isplitl [H1]; · iexact H1
    isplitl [H2]; · iexact H2
    isplitl [H3]; · iexact H3
    isplitl [H4]; · iexists _; iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_pos h0, if_pos h1]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold step1; simp only [if_pos h0, if_pos h1]
    iexact H4
  · -- situation B
    rw [Dat.leavesExact_idle (dat1 V hO c) 4 t (hT.idle c t h1).1 (hT.idle c t h1).2]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl

    iapply (run1_B c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) ((dat1 V hO c).before 4 t d4) h0 h1 h2 h1 Set.univ _)
    isplitl [H0]; · iexact H0
    isplitl [H1]; · iexact H1
    isplitl [H2]; · iexact H2
    isplitl [H3]; · iexact H3
    isplitl [H4]; · iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_pos h0, if_neg h1, if_pos h2]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4
  · -- situation C
    rw [Dat.leavesExact_idle (dat1 V hO c) 4 t (hT.idle c t h1).1 (hT.idle c t h1).2]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl

    iapply (run1_C c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) ((dat1 V hO c).before 4 t d4) h0 h1 h2 h1 Set.univ _)
    isplitl [H0]; · iexact H0
    isplitl [H1]; · iexact H1
    isplitl [H2]; · iexact H2
    isplitl [H3]; · iexact H3
    isplitl [H4]; · iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_neg h0, if_neg h1, if_pos h2]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4
  · -- situation D
    rw [show (dat1 V hO c).leavesExact 4 t = owns (c : Thread nD τ) (((cfgM1 V hO).win 4).stage ((cfgM1 V hO).slots t 4)) fullShare ((dat1 V hO c).after 4 t) from by
          unfold Dat.leavesExact; rw [hT.live c t h1], after1_4]
    iintro ⟨⟨%dS, HQ, HM, HL, HA, R0, R1, R2, R3, R4, R5, R6, R7, Hg, HT0, HT1⟩, Ho, ⟨%d0, H0⟩, ⟨%d1, H1⟩, ⟨%d2, H2⟩, ⟨%d3, H3⟩, ⟨%d4, H4⟩⟩
    have eS : stFrom V hO c dS (t.val + 1) t.isLt = step1 (W1at V hO c t) (W3at V hO c t) (iblk1 V hO c 0 t) (iblk1 V hO c 1 t) (iblk1 V hO c 2 t) (iblk1 V hO c 3 t) (stFrom V hO c dS t.val (Nat.le_of_lt t.isLt)) := rfl
    have eO : stAt V hO c (t.val + 1) t.isLt = stFrom V hO c dS (t.val + 1) t.isLt := stFrom_indep V hO hT c _ dS t.val t.isLt
    rw [eO, eS]
    iapply (run1_D c (grid1.coords t) (ms1_0 V hO t) (hs1_0 V hO t) (ms1_1 V hO t) (hs1_1 V hO t) (ms1_2 V hO t) (hs1_2 V hO t) (ms1_3 V hO t) (hs1_3 V hO t) (ms1_4 V hO t) (hs1_4 V hO t) scM1_0 (Memref.isWhole_whole _) scM1_1 (Memref.isWhole_whole _) scM1_2 (Memref.isWhole_whole _) scM1_3 (Memref.isWhole_whole _)
        (iblk1 V hO c 0 t) (iblk1 V hO c 1 t) (iblk1 V hO c 2 t) (iblk1 V hO c 3 t)
        (stFrom V hO c dS t.val (Nat.le_of_lt t.isLt)).1 (stFrom V hO c dS t.val (Nat.le_of_lt t.isLt)).2.1 (stFrom V hO c dS t.val (Nat.le_of_lt t.isLt)).2.2.1 (stFrom V hO c dS t.val (Nat.le_of_lt t.isLt)).2.2.2
        (tbl1 V 0) (tbl1 V 1) h0 h1 h2 h1 Set.univ _)
    isplitl [H0]; · iexact H0
    isplitl [H1]; · iexact H1
    isplitl [H2]; · iexact H2
    isplitl [H3]; · iexact H3
    isplitl [H4]; · iexists _; iexact H4
    isplitl [HQ]; · iexact HQ
    isplitl [HM]; · iexact HM
    isplitl [HL]; · iexact HL
    isplitl [HA]; · iexact HA
    isplitl [HT0]; · iexact HT0
    isplitl [HT1]; · iexact HT1
    iintro ⟨H0, H1, H2, H3, H4, HQ, HM, HL, HA, HT0, HT1⟩
    isplitl [HQ HM HL HA R0 R1 R2 R3 R4 R5 R6 R7 Hg HT0 HT1]
    · iexists dS
      rw [eS]; unfold step1; simp only [if_neg h0, if_pos h1]
      isplitl [HQ]; · iexact HQ
      isplitl [HM]; · iexact HM
      isplitl [HL]; · iexact HL
      isplitl [HA]; · iexact HA
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold step1; simp only [if_neg h0, if_pos h1]
    iexact H4

/-- The library's body obligation, at every point. -/
theorem body_obligation1 (hT : TblFacts1 V hO) (c : Dev nD) : BodyObligation (dat1 (F := F) V hO c) (defs₀ (F := F)) Variants.none () Set.univ := fun t => by
  rw [bigSep_W1, bigSep_W1]
  exact sound_body1 V hO hT c t

/-- What the call is handed — the generator register, the tables, the scoped buffers no window stages — is the invariant
    before the first point, at whatever the scratch holds. -/
theorem hin1 (c : Dev nD) : (iprop((∃ r, prngReg c r) ∗ Pipeline.prefHeld pre1 c (fun _ => fullShare) (tbl1 V) ∗ Pipeline.scopedRest (Ix := Unit) (Name := ℕ) (U := UR sig nD τ) (Lvl := ℕ) (Val := Elt F) spec1 c) : sProp 𝕄) ⊢ (dat1 V hO c).Φ 0 := by
  rw [show (dat1 V hO c).Φ 0 = PhiS V hO c 0 (Nat.zero_le _) from rfl, PhiT1_eq, scopedRest1_eq]
  unfold PhiS PhiSAt Rest1
  simp only [owns_whole_eq]
  iintro ⟨Hg, ⟨HT0, HT1⟩, R0, R1, R2, R3, R4, R5, R6, R7, ⟨%f0, S0⟩, ⟨%f1, S1⟩, ⟨%f2, S2⟩, ⟨%f3, S3⟩⟩
  iexists (f0, f1, f2, f3)
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  isplitl [S3]; · iexists f3; isplitr; · ipureintro; rfl
                  iexact S3
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [Hg]; · iexact Hg
  isplitl [HT0]; · iexact HT0
  iexact HT1

/-- After the last point the invariant gives all of it back. -/
theorem hout1 (c : Dev nD) : (dat1 V hO c).Φ (Fin.last (cfgM1 V hO).N) ⊢ (iprop(iprop((∃ r, prngReg c r) ∗ Pipeline.prefHeld pre1 c (fun _ => fullShare) (tbl1 V)) ∗ Pipeline.scopedRest (Ix := Unit) (Name := ℕ) (U := UR sig nD τ) (Lvl := ℕ) (Val := Elt F) spec1 c) : sProp 𝕄) := by
  rw [show (dat1 V hO c).Φ (Fin.last (cfgM1 V hO).N) = PhiS V hO c (Fin.last (cfgM1 V hO).N).val (Nat.le_of_lt_succ (Fin.last (cfgM1 V hO).N).isLt) from rfl, PhiT1_eq, scopedRest1_eq]
  unfold PhiS PhiSAt Rest1
  simp only [owns_whole_eq]
  iintro ⟨%dS, ⟨%f0, -, S0⟩, ⟨%f1, -, S1⟩, ⟨%f2, -, S2⟩, ⟨%f3, -, S3⟩, R0, R1, R2, R3, R4, R5, R6, R7, Hg, HT0, HT1⟩
  isplitl [Hg HT0 HT1]
  · isplitl [Hg]; · iexact Hg
    isplitl [HT0]; · iexact HT0
    iexact HT1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [S0]; · iexists f0; iexact S0
  isplitl [S1]; · iexists f1; iexact S1
  isplitl [S2]; · iexists f2; iexact S2
  iexists f3; iexact S3

end Region1

end Cert.KernelIdeal.Gen

end
-- ==== Proof.KiRun.lean ====
/-
  The whole program as a run: the host stretch before the first kernel call, the first call (key and value
  projections), the two reshapes, and the attention call — each as a segment entered from the core's unscoped buffers at
  the contents the previous segment leaves. Every weakly fair execution terminates, and every final memory holds each
  unscoped buffer at the last segment's contents: the argument arrays as launched, and the result array at what the
  attention call's write-backs leave.
-/
import proofs.«121710_j11665131176114_2_alg».proof.Proof.KiRegion0
import proofs.«121710_j11665131176114_2_alg».proof.Proof.KiR1Body
import proofs.«121710_j11665131176114_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b

section
variable (hO : Ok1 (VV3 m))

/-- At the second call's exit. -/
def W4 (c : Dev nD) : Valuation τ sig (Elt F) :=
  Pipeline.withArrays spec1 c (W3 m c) fun w => (dat1 (VV3 m) hO c).arrAt w (cfgM1 (VV3 m) hO).N
theorem W4_arr (c : Dev nD) (w : Fin (cfgM1 (VV3 m) hO).W) :
    W4 m hO c (Proc.devRef .tc (Pipeline.arrRef spec1 w)) = (dat1 (VV3 m) hO c).arrAt w (cfgM1 (VV3 m) hO).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m hO c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m hO c b
theorem hF1 (c : Dev nD) (w : Fin (cfgM1 (VV3 m) hO).W) : (dat1 (VV3 m) hO c).arrAt w (cfgM1 (VV3 m) hO).N = VV4 m hO c (Pipeline.arrRef spec1 w) :=
  (W4_arr m hO c w).symm
theorem hrest1 (c : Dev nD) : ∀ b, b ∉ Finset.univ.image (Pipeline.arrRef spec1) → VV4 m hO c b = VV3 m c b :=
  fun b hb => W4_of_ne m hO c b fun w e => hb (Finset.mem_image.mpr ⟨w, Finset.mem_univ _, e⟩)

/-! ## The proof data family and the thread state -/

/-- The prefetched tables' admissible contents: the first call has none, the second its two schedule tables as it finds them. -/
def admA : (p : Fin 2) → (pcfgs (F := F) p).Adm
  | ⟨0, _⟩ => cfg0.toPCfg_adm
  | ⟨1, _⟩ => adm1 (VV3 m) hO
/-- Every pipeline's proof data, each at its call's entry contents. -/
def pdatsA : (p : Fin 2) → (c : Dev nD) → Dat τ (Elt F) Unit ℕ (UR sig nD τ) ℕ (Pipeline.pin (pcfgs (F := F)) (admA m hO) p) c
  | ⟨0, _⟩ => fun c => dat0 (VV1 m) c
  | ⟨1, _⟩ => fun c => dat1 (VV3 m) hO c
abbrev VarN : Variants := Variants.none
abbrev LL : GSem nD τ sig → Finset Unit := fun _ => ∅
abbrev lvv : GSem nD τ sig → Unit → ℕ := fun _ _ => 0
/-- What rides beside the buffers through every segment: the generator register at some state and nothing owed. -/
abbrev RR (c : Dev nD) : sProp 𝕄 := iprop((∃ r, prngReg c r) ∗ ∃ W, owes (c : Thread nD τ) (0 : CellTallies nD τ sig Unit) W)
abbrev hsegA (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarN LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_ucA (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TN (c : Dev nD) : sProp 𝕄 := iprop(StableHlo.held (c : Thread nD τ) (Pipeline.ucRefs τ sig) (W4 m hO c) ∗ ∃ r, prngReg c r)

/-! ## The calls as segments -/

set_option backward.isDefEq.respectTransparency.types false in
/-- The first call over the thread state: entered from every unscoped buffer at `W1`, left at `W2`. -/
def regA0 : Pipeline.RegionSeg (pcfgs (F := F)) (admA m hO) (pdatsA m hO) () defs₀ VarN LL lvv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VV1 m) c).loose
  hwaits := Pipeline.hwaits_of_owed_zero _ _ _ _ LL lvv 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) (admA m hO) (pdatsA m hO) (launch0 (F := F)).win (launch0 (F := F)).arr_whole c
      ((pdatsA m hO 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsA m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (admA m hO) (Ix := Unit) (Name := ℕ) (U := UR sig nD τ) (Lvl := ℕ)
      (launch0 (F := F)).win (launch0 (F := F)).arr_whole c (pdatsA m hO) ((pdatsA m hO 0 c).share_full fun _ => rfl)
      (VV1 m c) (VV2 m c) ((pdatsA m hO 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The tables as the second call finds them are the admissible contents it is pinned at. -/
theorem tbl_eqA (c : Dev nD) : (fun k => VV3 m c (pre1.ref k)) = tbl1 (VV3 m) := funext fun k => V_pre1 (VV3 m) c k

set_option backward.isDefEq.respectTransparency.types false in
/-- The second call over the thread state: entered from every unscoped buffer at `W3`, left at `W4`; the two tables
    go into the pipeline's invariant whole and come back whole. -/
def regA1 (hT : TblFacts1 (VV3 m) hO) : Pipeline.RegionSeg (pcfgs (F := F)) (admA m hO) (pdatsA m hO) () defs₀ VarN LL lvv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VV3 m) hO hT c).loose
  hwaits := Pipeline.hwaits_of_owed_zero _ _ _ _ LL lvv 1 fun _ _ => rfl
  pre c := iprop(StableHlo.held (c : Thread nD τ) (Pipeline.ucRefs τ sig) (W3 m c) ∗ RR c)
  post c := iprop(TN m hO c ∗ ∃ W, owes (c : Thread nD τ) (0 : CellTallies nD τ sig Unit) W)
  X c := iprop(∃ r, prngReg c r)
  Y c := iprop((∃ r, prngReg c r) ∗ Pipeline.prefHeld pre1 c (fun _ => fullShare) (tbl1 (VV3 m)))
  Z c := Pipeline.unscopedRestP (Ix := Unit) (Name := ℕ) (U := UR sig nD τ) (Lvl := ℕ) pre1 spec1 c (VV3 m c)
  hentry c := by
    rw [Pipeline.ownSems0_none]
    have hsplit := Pipeline.arrays_of_unscopedBufs (p := 1) (pcfgs (F := F)) (admA m hO) (pdatsA m hO) (launch1 (F := F)).win (launch1 (F := F)).arr_whole c
      ((pdatsA m hO 1 c).share_full fun _ => rfl) (VV3 m c) fun _ => rfl
    rw [Pipeline.unscopedBufs_held, show Pipeline.unscopedRest (Ix := Unit) (Name := ℕ) (U := UR sig nD τ) (Lvl := ℕ) (Pipeline.pin (pcfgs (F := F)) (admA m hO) 1).spec c (VV3 m c) = _ from Pipeline.unscopedRest_split preFacts1 c (VV3 m c), tbl_eqA m c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (VV3 m) hO c
  hout c := by
    rw [Pipeline.ownSems0_none]
    refine (hout1 (VV3 m) hO c).trans ?_
    iintro ⟨HY, Hs⟩
    isplitl [HY]; · iexact HY
    isplitr; · iempintro
    iexact Hs
  hexit c := by
    have hjoin := Pipeline.unscopedBufs_of_arrays (p := 1) (pcfgs (F := F)) (admA m hO) (Ix := Unit) (Name := ℕ) (U := UR sig nD τ) (Lvl := ℕ)
      (launch1 (F := F)).win (launch1 (F := F)).arr_whole c (pdatsA m hO) ((pdatsA m hO 1 c).share_full fun _ => rfl)
      (VV3 m c) (VV4 m hO c) ((pdatsA m hO 1 c).arrAt · (cfgM1 (VV3 m) hO).N) (hF1 m hO c) (hrest1 m hO c)
    rw [Pipeline.unscopedBufs_held, show Pipeline.unscopedRest (Ix := Unit) (Name := ℕ) (U := UR sig nD τ) (Lvl := ℕ) (Pipeline.pin (pcfgs (F := F)) (admA m hO) 1).spec c (VV3 m c) = _ from Pipeline.unscopedRest_split preFacts1 c (VV3 m c), tbl_eqA m c] at hjoin
    iintro ⟨Ha, HO, ⟨HY, Hpf⟩, Hrest⟩
    imodintro
    isplitl [Ha Hrest HY Hpf]
    · isplitl [Ha Hrest Hpf]
      · iapply hjoin; isplitl [Ha]; · iexact Ha
        isplitl [Hpf]; · iexact Hpf
        iexact Hrest
      iexact HY
    unfold Pipeline.Dat.owesAt Pipeline.owesWithin
    icases HO with ⟨%W, -, HO⟩; iexists W; iexact HO

/-! ## @main as segments, and the launch -/

abbrev rsegs (hT : TblFacts1 (VV3 m) hO) : List (Pipeline.Seg (pcfgs (F := F)) (admA m hO) (pdatsA m hO) () defs₀ VarN LL lvv) :=
  [ .host (hsegA hostOps0 hostOps0_sub hostOps0_fresh (W0 m)),
    .region (regA0 m hO),
    .host (hsegA hostOps1 hostOps1_sub hostOps1_fresh (W2 m)),
    .region (regA1 m hO hT) ]
theorem main_runA (hT : TblFacts1 (VV3 m) hO) (c : Dev nD) : main (F := F) c = Pipeline.Seg.run (rsegs m hO hT) := (main_chain c).trans (by chain_rfl)

set_option backward.isDefEq.respectTransparency.types false in
/-- THE RUN: from any memory with zero counters, every weakly fair execution of @main terminates, nothing faulting, and
    every final memory holds every unscoped buffer at the last boundary's contents. -/
theorem run_mainA (hT : TblFacts1 (VV3 m) hO) : θ_run defs (onTc (τ := τ) (main (F := F))) ⟨m, fun _ => 0, ρ⟩ (fun r => ∀ c : Dev nD,
      ∀ b ∈ Pipeline.ucRefs τ sig, r.2.mem (((c : Thread nD τ)).1, b) = W4 m hO c b) :=
  Pipeline.θ_run_regions_kit (pcfgs (F := F)) (admA m hO) (pdatsA m hO) () (cellOf_inj (admA m hO)) emb₁ defs₀ VarN LL lvv m ρ main (rsegs m hO hT)
    (fun c Q => by rw [main_runA m hO hT c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admA m hO)) (cellOf_inj (admA m hO))) (Pipeline.launchToks (Pipeline.pin (pcfgs (F := F)) (admA m hO)) (cellOf_inj (admA m hO))))
    (hu₀ := by
      iintro Hu; imodintro
      isplitl [Hu]
      · iapply (show (ownU (initOf (Pipeline.cells (Pipeline.pin (pcfgs (F := F)) (admA m hO)) (cellOf_inj (admA m hO))) (Pipeline.launchToks (Pipeline.pin (pcfgs (F := F)) (admA m hO)) (cellOf_inj (admA m hO)))) : sProp 𝕄)
            ⊢ BI.own (emb₁ (initOf (Pipeline.cells (Pipeline.pin (pcfgs (F := F)) (admA m hO)) (cellOf_inj (admA m hO))) (Pipeline.launchToks (Pipeline.pin (pcfgs (F := F)) (admA m hO)) (cellOf_inj (admA m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TN m hO)
    (hch := ⟨fun _ => .rfl, fun _ => .rfl, fun _ => .rfl, fun _ => .rfl, fun _ => .rfl⟩)
    (hinit := by
      refine Pipeline.initEach LL lvv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hO c b)
    (hfin := fun c s' => by
      iintro ⟨⟨Hh, -⟩, HSI⟩
      unfold StableHlo.held
      imodintro
      iapply (pointsTo_read_all (Pipeline.ucRefs τ sig) (fun b => (((c : Thread nD τ)).1, b)) (W4 m hO c) s')
      isplitl [Hh] <;> iassumption)
    (hQ := fun s h c => h c)

end

end Cert.KernelIdeal.Gen

end
-- ==== Proof.KiTables.lean ====
/-
  What the two prefetched schedule tables decide.

  The second kernel call runs over a grid of 8 × 10 points: point t has batch t / 10 and step t % 10. The ten steps walk
  the lower triangle of a 4 × 4 arrangement of (query tile, key tile) pairs row by row: the first table holds the query
  tile of each step, 0 1 1 2 2 2 3 3 3 3, the second the key tile, 0 0 1 0 1 2 0 1 2 3. Both the index maps of the
  windows and the body read the tables at the step. With the tables' contents a variable every structural fact is a
  definitional unfolding: the word the body loads is the contents' element at the step, the index map of a window is
  (batch, table word, 0), the output window is idle where the body's last condition fails. At the literal contents
  each of them becomes a statement about the eighty points, decided by enumeration:

    * the words loaded at point t are the query tile and the key tile of step t % 10;
    * the key tile never exceeds the query tile, so the three conditions the body branches on (first key tile of the row,
      diagonal key tile, key tile strictly below the diagonal) occur in exactly four combinations;
    * the output window is written, and flushed, exactly at the diagonal steps, and idle elsewhere;
    * the blocks the tables select lie inside their arrays (the pipeline's side condition).
-/
import proofs.«121710_j11665131176114_2_alg».proof.Proof.KiR1Setup
import proofs.«121710_j11665131176114_2_alg».proof.Proof.KiSched

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ### The literal tables -/

/-- The contents of the two tables as the program's constants give them. -/
def litTbl : pre1.Contents (Elt F) := fun k => match k with
  | ⟨0, _⟩ => fun i => lit0 (S10.rowMajor i)
  | ⟨1, _⟩ => fun i => lit1 (S10.rowMajor i)
  | ⟨_ + 2, h⟩ => absurd h (Nat.not_lt.2 (Nat.le_add_left _ _))

/-- The block index (batch, query tile, 0) at point n. -/
def idxQ (n : ℕ) : Fin 3 → ℕ := ![n / 10, qiOf (n % 10), 0]
/-- The block index (batch, key tile, 0) at point n. -/
def idxK (n : ℕ) : Fin 3 → ℕ := ![n / 10, kiOf (n % 10), 0]

/-! ### Structure: the tables' contents a variable -/

/-- The position in a table that the load at a grid point reads. -/
def wordIdx (i : grid1.Coords) : Fin 10 :=
  S10.rowMajor ((Rect.unit (s := S10) (k1_off1 i) S1.size (k1_off1_inb i)).emb
    (Shape.Idx.first (numel1_S1.symm ▸ Nat.one_pos)))

theorem word1_0_eq (c : Dev nD) (i : grid1.Coords) (pf : pre1.Contents (Elt F)) :
    word1 c tbM1_0 i (pf 0) = pf.at 0 (Rect.unit (s := S10) (k1_off1 i) S1.size (k1_off1_inb i)) numel1_S1 := rfl

theorem word1_1_eq (c : Dev nD) (i : grid1.Coords) (pf : pre1.Contents (Elt F)) :
    word1 c tbM1_1 i (pf 1) = pf.at 1 (Rect.unit (s := S10) (k1_off1 i) S1.size (k1_off1_inb i)) numel1_S1 := rfl

theorem atD0_eq_at (pf : pre1.Contents (Elt F)) (i : grid1.Coords) :
    pf.atD 0 (k1_off1 i) = pf.at 0 (Rect.unit (s := S10) (k1_off1 i) S1.size (k1_off1_inb i)) numel1_S1 := by
  have h : ∀ a : Fin (pre1.ref 0).ty.shape.rank, k1_off1 i a + 1 ≤ (pre1.ref 0).ty.shape.size a := fun a =>
    match a with
    | ⟨0, _⟩ => k1_off1_inb i ⟨0, Nat.one_pos⟩
  exact (dif_pos h).trans rfl

theorem atD1_eq_at (pf : pre1.Contents (Elt F)) (i : grid1.Coords) :
    pf.atD 1 (k1_off1 i) = pf.at 1 (Rect.unit (s := S10) (k1_off1 i) S1.size (k1_off1_inb i)) numel1_S1 := by
  have h : ∀ a : Fin (pre1.ref 1).ty.shape.rank, k1_off1 i a + 1 ≤ (pre1.ref 1).ty.shape.size a := fun a =>
    match a with
    | ⟨0, _⟩ => k1_off1_inb i ⟨0, Nat.one_pos⟩
  exact (dif_pos h).trans rfl

theorem at0_lit (i : grid1.Coords) :
    (litTbl (F := F)).at 0 (Rect.unit (s := S10) (k1_off1 i) S1.size (k1_off1_inb i)) numel1_S1 = lit0 (wordIdx i) := rfl

theorem at1_lit (i : grid1.Coords) :
    (litTbl (F := F)).at 1 (Rect.unit (s := S10) (k1_off1 i) S1.size (k1_off1_inb i)) numel1_S1 = lit1 (wordIdx i) := rfl

/-! ### Decisions over the eighty points and the ten steps (no table variable, no float type) -/

theorem lit0_grid : ∀ t : Fin grid1.N, lit0 (wordIdx (grid1.coords t)) = BitVec.ofNat 32 (qiOf (t.val % 10)) := by
  decide +kernel

theorem lit1_grid : ∀ t : Fin grid1.N, lit1 (wordIdx (grid1.coords t)) = BitVec.ofNat 32 (kiOf (t.val % 10)) := by
  decide +kernel

theorem batch_grid : ∀ t : Fin grid1.N, (BitVec.ofNat 32 ((grid1.coords t) 0).val).toNat = t.val / 10 := by
  decide +kernel

theorem toNat_qi : ∀ s : Fin 10, (BitVec.ofNat 32 (qiOf s.val)).toNat = qiOf s.val := by decide +kernel
theorem toNat_ki : ∀ s : Fin 10, (BitVec.ofNat 32 (kiOf s.val)).toNat = kiOf s.val := by decide +kernel

theorem cond_steps : ∀ s : Fin 10,
    (cInit (BitVec.ofNat 32 (kiOf s.val)) ↔ kiOf s.val = 0)
    ∧ (cDiag (BitVec.ofNat 32 (qiOf s.val)) (BitVec.ofNat 32 (kiOf s.val)) ↔ kiOf s.val = qiOf s.val)
    ∧ (cOff (BitVec.ofNat 32 (qiOf s.val)) (BitVec.ofNat 32 (kiOf s.val)) ↔ kiOf s.val < qiOf s.val) := by
  decide +kernel

theorem ki_le_qi : ∀ s : Fin 10, kiOf s.val ≤ qiOf s.val := by decide +kernel

/-- The output block index changes after point t, or t is the last point, exactly at the diagonal steps. -/
theorem flush_grid : ∀ t : Fin grid1.N,
    (t.val + 1 = grid1.N ∨ ∃ h : t.val + 1 < grid1.N, idxQ (t.val + 1) ≠ idxQ t.val)
      ↔ kiOf (t.val % 10) = qiOf (t.val % 10) := by
  decide +kernel

/-- The blocks the literal tables select lie inside the [8, 2048, 1024] arrays. -/
theorem inbQ_grid : ∀ (t : Fin grid1.N) (ax : Fin 3), (idxQ t.val ax + 1) * S1x512x1024.size ax ≤ S8x2048x1024.size ax := by
  decide +kernel
theorem inbK_grid : ∀ (t : Fin grid1.N) (ax : Fin 3), (idxK t.val ax + 1) * S1x512x1024.size ax ≤ S8x2048x1024.size ax := by
  decide +kernel

/-- Every setting of the grid's coordinates is the coordinates of a point. -/
theorem coords_surj : ∀ i : grid1.Coords, ∃ t : Fin grid1.N, grid1.coords t = i := by
  decide +kernel

/-! ### The index maps at the literal tables, and the pipeline's side condition -/

theorem tr0_lit (t : Fin grid1.N) :
    cc1_transform_0 k1_off1_inb numel1_S1 (litTbl (F := F)) (grid1.coords t) = ![t.val / 10, qiOf (t.val % 10), 0] := by
  funext ax
  match ax with
  | ⟨0, _⟩ => exact batch_grid t
  | ⟨1, _⟩ =>
    show BitVec.toNat ((litTbl (F := F)).at 0 (Rect.unit (s := S10) (k1_off1 (grid1.coords t)) S1.size (k1_off1_inb _)) numel1_S1) = _
    rw [at0_lit, lit0_grid t]
    exact toNat_qi ⟨t.val % 10, Nat.mod_lt _ (by decide)⟩
  | ⟨2, _⟩ => rfl

theorem tr4_lit (t : Fin grid1.N) :
    cc1_transform_4 k1_off1_inb numel1_S1 (litTbl (F := F)) (grid1.coords t) = ![t.val / 10, qiOf (t.val % 10), 0] := by
  funext ax
  match ax with
  | ⟨0, _⟩ => exact batch_grid t
  | ⟨1, _⟩ =>
    show BitVec.toNat ((litTbl (F := F)).at 0 (Rect.unit (s := S10) (k1_off1 (grid1.coords t)) S1.size (k1_off1_inb _)) numel1_S1) = _
    rw [at0_lit, lit0_grid t]
    exact toNat_qi ⟨t.val % 10, Nat.mod_lt _ (by decide)⟩
  | ⟨2, _⟩ => rfl

theorem tr2_lit (t : Fin grid1.N) :
    cc1_transform_2 k1_off1_inb numel1_S1 (litTbl (F := F)) (grid1.coords t) = ![t.val / 10, kiOf (t.val % 10), 0] := by
  funext ax
  match ax with
  | ⟨0, _⟩ => exact batch_grid t
  | ⟨1, _⟩ =>
    show BitVec.toNat ((litTbl (F := F)).at 1 (Rect.unit (s := S10) (k1_off1 (grid1.coords t)) S1.size (k1_off1_inb _)) numel1_S1) = _
    rw [at1_lit, lit1_grid t]
    exact toNat_ki ⟨t.val % 10, Nat.mod_lt _ (by decide)⟩
  | ⟨2, _⟩ => rfl

theorem tr3_lit (t : Fin grid1.N) :
    cc1_transform_3 k1_off1_inb numel1_S1 (litTbl (F := F)) (grid1.coords t) = ![t.val / 10, kiOf (t.val % 10), 0] := by
  funext ax
  match ax with
  | ⟨0, _⟩ => exact batch_grid t
  | ⟨1, _⟩ =>
    show BitVec.toNat ((litTbl (F := F)).at 1 (Rect.unit (s := S10) (k1_off1 (grid1.coords t)) S1.size (k1_off1_inb _)) numel1_S1) = _
    rw [at1_lit, lit1_grid t]
    exact toNat_ki ⟨t.val % 10, Nat.mod_lt _ (by decide)⟩
  | ⟨2, _⟩ => rfl

/-- THE SIDE CONDITION HOLDS of the literal tables: every block they select lies inside its array, and its transfer
    ends on whole words. -/
theorem ok1_lit : ok1 (F := F) litTbl := by
  refine ⟨fun i => ?_, fun i => ?_, fun i => ?_, fun i => ?_⟩
  · obtain ⟨t, rfl⟩ := coords_surj i
    exact ⟨fun ax => by rw [tr0_lit t]; exact inbQ_grid t ax, .inl rfl⟩
  · obtain ⟨t, rfl⟩ := coords_surj i
    exact ⟨fun ax => by rw [tr2_lit t]; exact inbK_grid t ax,
      .inr (Affine.block_words_dvd (of_decide_eq_true rfl) (by decide))⟩
  · obtain ⟨t, rfl⟩ := coords_surj i
    exact ⟨fun ax => by rw [tr3_lit t]; exact inbK_grid t ax,
      .inr (Affine.block_words_dvd (of_decide_eq_true rfl) (by decide))⟩
  · obtain ⟨t, rfl⟩ := coords_surj i
    exact ⟨fun ax => by rw [tr4_lit t]; exact inbQ_grid t ax, .inl rfl⟩

/-! ### (w) The words the body loads -/

theorem word_qi (a : (pcfg1 (F := F)).Adm) (ha : a.1 = litTbl) (c : Dev nD) (t : Fin (cfg1 a).N) :
    word1 c tbM1_0 (grid1.coords t) (a.1 0) = BitVec.ofNat 32 (qiOf (t.val % 10)) := by
  rw [word1_0_eq, ha, at0_lit]
  exact lit0_grid t

theorem word_ki (a : (pcfg1 (F := F)).Adm) (ha : a.1 = litTbl) (c : Dev nD) (t : Fin (cfg1 a).N) :
    word1 c tbM1_1 (grid1.coords t) (a.1 1) = BitVec.ofNat 32 (kiOf (t.val % 10)) := by
  rw [word1_1_eq, ha, at1_lit]
  exact lit1_grid t

/-! ### (k) The conditions the body branches on -/

theorem conds_iff (a : (pcfg1 (F := F)).Adm) (ha : a.1 = litTbl) (c : Dev nD) (t : Fin (cfg1 a).N) :
    (cInit (word1 c tbM1_1 (grid1.coords t) (a.1 1)) ↔ kiOf (t.val % 10) = 0)
    ∧ (cDiag (word1 c tbM1_0 (grid1.coords t) (a.1 0)) (word1 c tbM1_1 (grid1.coords t) (a.1 1))
        ↔ kiOf (t.val % 10) = qiOf (t.val % 10))
    ∧ (cOff (word1 c tbM1_0 (grid1.coords t) (a.1 0)) (word1 c tbM1_1 (grid1.coords t) (a.1 1))
        ↔ kiOf (t.val % 10) < qiOf (t.val % 10)) := by
  rw [word_qi a ha c t, word_ki a ha c t]
  exact cond_steps ⟨t.val % 10, Nat.mod_lt _ (by decide)⟩

/-- The four situations: first and diagonal (the first step of a batch); first, below the diagonal; later, below the
    diagonal; later and diagonal. -/
theorem conds_cases (a : (pcfg1 (F := F)).Adm) (ha : a.1 = litTbl) (c : Dev nD) (t : Fin (cfg1 a).N) :
    (cInit (word1 c tbM1_1 (grid1.coords t) (a.1 1))
        ∧ cDiag (word1 c tbM1_0 (grid1.coords t) (a.1 0)) (word1 c tbM1_1 (grid1.coords t) (a.1 1))
        ∧ ¬cOff (word1 c tbM1_0 (grid1.coords t) (a.1 0)) (word1 c tbM1_1 (grid1.coords t) (a.1 1)))
    ∨ (cInit (word1 c tbM1_1 (grid1.coords t) (a.1 1))
        ∧ ¬cDiag (word1 c tbM1_0 (grid1.coords t) (a.1 0)) (word1 c tbM1_1 (grid1.coords t) (a.1 1))
        ∧ cOff (word1 c tbM1_0 (grid1.coords t) (a.1 0)) (word1 c tbM1_1 (grid1.coords t) (a.1 1)))
    ∨ (¬cInit (word1 c tbM1_1 (grid1.coords t) (a.1 1))
        ∧ ¬cDiag (word1 c tbM1_0 (grid1.coords t) (a.1 0)) (word1 c tbM1_1 (grid1.coords t) (a.1 1))
        ∧ cOff (word1 c tbM1_0 (grid1.coords t) (a.1 0)) (word1 c tbM1_1 (grid1.coords t) (a.1 1)))
    ∨ (¬cInit (word1 c tbM1_1 (grid1.coords t) (a.1 1))
        ∧ cDiag (word1 c tbM1_0 (grid1.coords t) (a.1 0)) (word1 c tbM1_1 (grid1.coords t) (a.1 1))
        ∧ ¬cOff (word1 c tbM1_0 (grid1.coords t) (a.1 0)) (word1 c tbM1_1 (grid1.coords t) (a.1 1))) := by
  obtain ⟨h1, h2, h3⟩ := conds_iff a ha c t
  have hle : kiOf (t.val % 10) ≤ qiOf (t.val % 10) := ki_le_qi ⟨t.val % 10, Nat.mod_lt _ (by decide)⟩
  rw [h1, h2, h3]
  omega

/-- At the first point the key tile is the first of its row. -/
theorem cInit_first (a : (pcfg1 (F := F)).Adm) (ha : a.1 = litTbl) (c : Dev nD) (h0 : 0 < (cfg1 a).N) :
    cInit (word1 c tbM1_1 (grid1.coords ⟨0, h0⟩) (a.1 1)) :=
  (conds_iff a ha c ⟨0, h0⟩).1.mpr (rfl : kiOf (0 % 10) = 0)

/-! ### (x) The index maps -/

theorem gridN : grid1.N = 80 := by decide

theorem N_eq (a : (pcfg1 (F := F)).Adm) : (cfg1 a).N = 80 := gridN

theorem index0_eq (a : (pcfg1 (F := F)).Adm) (ha : a.1 = litTbl) (t : Fin (cfg1 a).N) :
    ((cfg1 a).win 0).index t = ![t.val / 10, qiOf (t.val % 10), 0] := by
  show cc1_transform_0 k1_off1_inb numel1_S1 a.1 (grid1.coords t) = _
  rw [ha]
  exact tr0_lit t

theorem index4_eq (a : (pcfg1 (F := F)).Adm) (ha : a.1 = litTbl) (t : Fin (cfg1 a).N) :
    ((cfg1 a).win 4).index t = ![t.val / 10, qiOf (t.val % 10), 0] := by
  show cc1_transform_4 k1_off1_inb numel1_S1 a.1 (grid1.coords t) = _
  rw [ha]
  exact tr4_lit t

theorem index2_eq (a : (pcfg1 (F := F)).Adm) (ha : a.1 = litTbl) (t : Fin (cfg1 a).N) :
    ((cfg1 a).win 2).index t = ![t.val / 10, kiOf (t.val % 10), 0] := by
  show cc1_transform_2 k1_off1_inb numel1_S1 a.1 (grid1.coords t) = _
  rw [ha]
  exact tr2_lit t

theorem index3_eq (a : (pcfg1 (F := F)).Adm) (ha : a.1 = litTbl) (t : Fin (cfg1 a).N) :
    ((cfg1 a).win 3).index t = ![t.val / 10, kiOf (t.val % 10), 0] := by
  show cc1_transform_3 k1_off1_inb numel1_S1 a.1 (grid1.coords t) = _
  rw [ha]
  exact tr3_lit t

theorem index1_eq (a : (pcfg1 (F := F)).Adm) (t : Fin (cfg1 a).N) : ((cfg1 a).win 1).index t = ![0, 0] := by
  funext ax
  match ax with
  | ⟨0, _⟩ => rfl
  | ⟨1, _⟩ => rfl

/-! ### (i) The output window -/

theorem idle4_word (a : (pcfg1 (F := F)).Adm) (c : Dev nD) (t : Fin (cfg1 a).N) :
    (cfg1 a).idle 4 ((cfg1 a).grid.coords t)
      = !(k1_cond4 (word1 c tbM1_0 (grid1.coords t) (a.1 0)) (word1 c tbM1_1 (grid1.coords t) (a.1 1)) == 1#1) := by
  rw [word1_0_eq, word1_1_eq, ← atD0_eq_at, ← atD1_eq_at]
  rfl

theorem flush4_iff (a : (pcfg1 (F := F)).Adm) (ha : a.1 = litTbl) (t : Fin (cfg1 a).N) :
    ((cfg1 a).win 4).flush t = true ↔ kiOf (t.val % 10) = qiOf (t.val % 10) := by
  have hidx : ∀ u : Fin (cfg1 a).N, ((cfg1 a).win 4).index u = idxQ u.val := fun u => index4_eq a ha u
  unfold Pipeline.Window.flush
  rw [show ((cfg1 a).win 4).isOut = true from rfl, Bool.true_and, Bool.or_eq_true, decide_eq_true_eq, decide_eq_true_eq]
  simp only [hidx]
  exact flush_grid t

theorem out_not_diag (a : (pcfg1 (F := F)).Adm) (ha : a.1 = litTbl) (c : Dev nD) (t : Fin (cfg1 a).N)
    (h : ¬cDiag (word1 c tbM1_0 (grid1.coords t) (a.1 0)) (word1 c tbM1_1 (grid1.coords t) (a.1 1))) :
    (cfg1 a).idle 4 ((cfg1 a).grid.coords t) = true ∧ ((cfg1 a).win 4).flush t = false := by
  refine ⟨?_, ?_⟩
  · rw [idle4_word a c t]
    have hne : k1_cond4 (word1 c tbM1_0 (grid1.coords t) (a.1 0)) (word1 c tbM1_1 (grid1.coords t) (a.1 1)) ≠ 1#1 := h
    rw [beq_eq_false_iff_ne.mpr hne]
    rfl
  · have hk := (conds_iff a ha c t).2.1
    rw [Bool.eq_false_iff]
    exact fun hf => h (hk.mpr ((flush4_iff a ha t).mp hf))

theorem out_diag (a : (pcfg1 (F := F)).Adm) (ha : a.1 = litTbl) (c : Dev nD) (t : Fin (cfg1 a).N)
    (h : cDiag (word1 c tbM1_0 (grid1.coords t) (a.1 0)) (word1 c tbM1_1 (grid1.coords t) (a.1 1))) :
    (cfg1 a).idle 4 ((cfg1 a).grid.coords t) = false ∧ ((cfg1 a).win 4).flush t = true := by
  refine ⟨?_, ?_⟩
  · rw [idle4_word a c t]
    have he : k1_cond4 (word1 c tbM1_0 (grid1.coords t) (a.1 0)) (word1 c tbM1_1 (grid1.coords t) (a.1 1)) = 1#1 := h
    rw [he]
    rfl
  · exact (flush4_iff a ha t).mpr ((conds_iff a ha c t).2.1.mp h)

end Cert.KernelIdeal.Gen

end
-- ==== Proof.KiHost.lean ====
/-
  What the host operations of the program write between its kernel calls, as plain terms of the buffers' contents.

  Before the first kernel call the host flattens the input [8, 2048, 1024] to [16384, 1024], transposes each of the three
  weight matrices and narrows it to the matrix unit's format, and writes the two schedule tables (the query tile and the
  key tile of each of the ten (query tile, key tile) pairs of the causal triangle). Between the two calls it folds the
  projected keys and values [16384, 1024] back to [8, 2048, 1024]. Everything else is left as it was; in particular the
  four arguments.

  Read at an index over the extended reals (where a change of format is the identity): the flattened input at row
  b · 2048 + s is the input at (b, s); a transposed weight matrix at (i, e) is the weight matrix at (e, i); a folded
  array at (b, s, e) is the flat one at row b · 2048 + s.
-/
import proofs.«121710_j11665131176114_2_alg».proof.Proof.Gen.KernelIdeal.Launch
import proofs.«121710_j11665131176114_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.ShloMosaic.ValueIdx
open Idealize.ShloMosaic.StableHlo (after)

section Stretches

variable {F : FTy → Type} [FloatOps F] [Named F] (W : Valuation τ sig (Elt F))

/-! ## The stretch before the first kernel call -/

/-- The flattened input. -/
theorem after0_v0 :
    (after hostOps0 W (Proc.devRef .tc main_v0) : Vec F S16384x1024 .f32)
      = shapeCast S16384x1024 (W (Proc.devRef .tc main_arg0) : Vec F S8x2048x1024 .f32) shapeCasts_S8x2048x1024_S16384x1024 := by
  after_results <;> rfl

/-- The query weights, transposed and narrowed. -/
theorem after0_v2 :
    (after hostOps0 W (Proc.devRef .tc main_v2) : Vec F S1024x1024 .bf16)
      = truncf .bf16 (transpose S1024x1024 [1, 0] (W (Proc.devRef .tc main_arg1) : Vec F S1024x1024 .f32)
          transposes_S1024x1024_S1024x1024_1_0) bitsLt_bf16_f32 := by
  after_results <;> rfl

/-- The key weights, transposed and narrowed. -/
theorem after0_v4 :
    (after hostOps0 W (Proc.devRef .tc main_v4) : Vec F S1024x1024 .bf16)
      = truncf .bf16 (transpose S1024x1024 [1, 0] (W (Proc.devRef .tc main_arg2) : Vec F S1024x1024 .f32)
          transposes_S1024x1024_S1024x1024_1_0) bitsLt_bf16_f32 := by
  after_results <;> rfl

/-- The value weights, transposed and narrowed. -/
theorem after0_v6 :
    (after hostOps0 W (Proc.devRef .tc main_v6) : Vec F S1024x1024 .bf16)
      = truncf .bf16 (transpose S1024x1024 [1, 0] (W (Proc.devRef .tc main_arg3) : Vec F S1024x1024 .f32)
          transposes_S1024x1024_S1024x1024_1_0) bitsLt_bf16_f32 := by
  after_results <;> rfl

/-- The table of query tiles. -/
theorem after0_c :
    (after hostOps0 W (Proc.devRef .tc main_c) : Vec F S10 .i32) = fun i => lit0 (S10.rowMajor i) := by
  after_results <;> rfl

/-- The table of key tiles. -/
theorem after0_c_0 :
    (after hostOps0 W (Proc.devRef .tc main_c_0) : Vec F S10 .i32) = fun i => lit1 (S10.rowMajor i) := by
  after_results <;> rfl

/-- What the stretch does not write it leaves as it was. -/
theorem after0_of (r : Ref sig .tc) (h : r ∉ hostOps0_W) :
    after hostOps0 W (Proc.devRef .tc r) = W (Proc.devRef .tc r) :=
  StableHlo.after_of_writes_sub hostOps0 W hostOps0_writes h

theorem after0_arg0 : after hostOps0 W (Proc.devRef .tc main_arg0) = W (Proc.devRef .tc main_arg0) := after0_of W main_arg0 (by decide)
theorem after0_arg1 : after hostOps0 W (Proc.devRef .tc main_arg1) = W (Proc.devRef .tc main_arg1) := after0_of W main_arg1 (by decide)
theorem after0_arg2 : after hostOps0 W (Proc.devRef .tc main_arg2) = W (Proc.devRef .tc main_arg2) := after0_of W main_arg2 (by decide)
theorem after0_arg3 : after hostOps0 W (Proc.devRef .tc main_arg3) = W (Proc.devRef .tc main_arg3) := after0_of W main_arg3 (by decide)

/-! ## The stretch between the two kernel calls -/

/-- The projected keys, folded back to [8, 2048, 1024]. -/
theorem after1_v8 :
    (after hostOps1 W (Proc.devRef .tc main_v8) : Vec F S8x2048x1024 .bf16)
      = shapeCast S8x2048x1024 (W (Proc.devRef .tc main_v7_0) : Vec F S16384x1024 .bf16) shapeCasts_S16384x1024_S8x2048x1024 := by
  after_results <;> rfl

/-- The projected values, folded back to [8, 2048, 1024]. -/
theorem after1_v9 :
    (after hostOps1 W (Proc.devRef .tc main_v9) : Vec F S8x2048x1024 .bf16)
      = shapeCast S8x2048x1024 (W (Proc.devRef .tc main_v7_1) : Vec F S16384x1024 .bf16) shapeCasts_S16384x1024_S8x2048x1024 := by
  after_results <;> rfl

/-- What the stretch does not write it leaves as it was. -/
theorem after1_of (r : Ref sig .tc) (h : r ∉ hostOps1_W) :
    after hostOps1 W (Proc.devRef .tc r) = W (Proc.devRef .tc r) :=
  StableHlo.after_of_writes_sub hostOps1 W hostOps1_writes h

theorem after1_arg0 : after hostOps1 W (Proc.devRef .tc main_arg0) = W (Proc.devRef .tc main_arg0) := after1_of W main_arg0 (by decide)
theorem after1_arg1 : after hostOps1 W (Proc.devRef .tc main_arg1) = W (Proc.devRef .tc main_arg1) := after1_of W main_arg1 (by decide)
theorem after1_arg2 : after hostOps1 W (Proc.devRef .tc main_arg2) = W (Proc.devRef .tc main_arg2) := after1_of W main_arg2 (by decide)
theorem after1_arg3 : after hostOps1 W (Proc.devRef .tc main_arg3) = W (Proc.devRef .tc main_arg3) := after1_of W main_arg3 (by decide)

end Stretches

/-! ## The layouts read at an index -/

section Layout

variable {α : Type}

/-- An [8, 2048, 1024] array flattened to [16384, 1024] reads, at row b · 2048 + s and column i, the array at (b, s, i). -/
theorem flatten_apply (x : S8x2048x1024.Idx → α) (b : Fin 8) (s : Fin 2048) (i : Fin 1024) (h : b.val * 2048 + s.val < 16384) :
    shapeCast S16384x1024 x shapeCasts_S8x2048x1024_S16384x1024 (ix2 (⟨b.val * 2048 + s.val, h⟩ : Fin 16384) i) = x (ix3 b s i) :=
  shapeCast_apply x _ _ _ (by
    rw [Shape.rowMajor_val_three, Shape.rowMajor_val_two]
    rfl)

/-- A [16384, 1024] array folded to [8, 2048, 1024] reads, at (b, s, e), the array at row b · 2048 + s and column e. -/
theorem fold_apply (y : S16384x1024.Idx → α) (b : Fin 8) (s : Fin 2048) (e : Fin 1024) (h : b.val * 2048 + s.val < 16384) :
    shapeCast S8x2048x1024 y shapeCasts_S16384x1024_S8x2048x1024 (ix3 b s e) = y (ix2 (⟨b.val * 2048 + s.val, h⟩ : Fin 16384) e) :=
  shapeCast_apply y _ _ _ (by
    rw [Shape.rowMajor_val_three, Shape.rowMajor_val_two]
    rfl)

/-- The row b · 2048 + s is a row of the flat array. -/
theorem row_lt (b : Fin 8) (s : Fin 2048) : b.val * 2048 + s.val < 16384 := by
  have := b.isLt; have := s.isLt; omega

end Layout

section AtIdeal

variable (W : Valuation τ sig (Elt Ideal))

/-- The flattened input at row b · 2048 + s is the input at (b, s). -/
theorem v0_apply (b : Fin 8) (s : Fin 2048) (i : Fin 1024) :
    (after hostOps0 W (Proc.devRef .tc main_v0) : Vec Ideal S16384x1024 .f32) (ix2 (⟨b.val * 2048 + s.val, row_lt b s⟩ : Fin 16384) i)
      = (W (Proc.devRef .tc main_arg0) : Vec Ideal S8x2048x1024 .f32) (ix3 b s i) := by
  rw [after0_v0]
  exact flatten_apply _ b s i _

/-- The transposed query weights at (i, e) are the query weights at (e, i). -/
theorem v2_apply (i e : Fin 1024) :
    (after hostOps0 W (Proc.devRef .tc main_v2) : Vec Ideal S1024x1024 .bf16) (ix2 i e)
      = (W (Proc.devRef .tc main_arg1) : Vec Ideal S1024x1024 .f32) (ix2 e i) := by
  rw [after0_v2, truncf_apply]
  exact transpose_ix2_apply _ _ i e

/-- The transposed key weights at (i, e) are the key weights at (e, i). -/
theorem v4_apply (i e : Fin 1024) :
    (after hostOps0 W (Proc.devRef .tc main_v4) : Vec Ideal S1024x1024 .bf16) (ix2 i e)
      = (W (Proc.devRef .tc main_arg2) : Vec Ideal S1024x1024 .f32) (ix2 e i) := by
  rw [after0_v4, truncf_apply]
  exact transpose_ix2_apply _ _ i e

/-- The transposed value weights at (i, e) are the value weights at (e, i). -/
theorem v6_apply (i e : Fin 1024) :
    (after hostOps0 W (Proc.devRef .tc main_v6) : Vec Ideal S1024x1024 .bf16) (ix2 i e)
      = (W (Proc.devRef .tc main_arg3) : Vec Ideal S1024x1024 .f32) (ix2 e i) := by
  rw [after0_v6, truncf_apply]
  exact transpose_ix2_apply _ _ i e

/-- The folded keys at (b, s, e) are the flat keys at row b · 2048 + s. -/
theorem v8_apply (b : Fin 8) (s : Fin 2048) (e : Fin 1024) :
    (after hostOps1 W (Proc.devRef .tc main_v8) : Vec Ideal S8x2048x1024 .bf16) (ix3 b s e)
      = (W (Proc.devRef .tc main_v7_0) : Vec Ideal S16384x1024 .bf16) (ix2 (⟨b.val * 2048 + s.val, row_lt b s⟩ : Fin 16384) e) := by
  rw [after1_v8]
  exact fold_apply _ b s e _

/-- The folded values at (b, s, e) are the flat values at row b · 2048 + s. -/
theorem v9_apply (b : Fin 8) (s : Fin 2048) (e : Fin 1024) :
    (after hostOps1 W (Proc.devRef .tc main_v9) : Vec Ideal S8x2048x1024 .bf16) (ix3 b s e)
      = (W (Proc.devRef .tc main_v7_1) : Vec Ideal S16384x1024 .bf16) (ix2 (⟨b.val * 2048 + s.val, row_lt b s⟩ : Fin 16384) e) := by
  rw [after1_v9]
  exact fold_apply _ b s e _

end AtIdeal

end Cert.KernelIdeal.Host

end
-- ==== Proof.KiFrame.lean ====
/-
  The frame of the whole program: the two schedule tables the attention call finds are the literal tables @main stores,
  so the schedule facts hold and the run applies; every argument array ends as launched — no host operation writes one,
  the first call stages none of them, and the attention call only reads the input through a window.
-/
import proofs.«121710_j11665131176114_2_alg».proof.Proof.KiRun
import proofs.«121710_j11665131176114_2_alg».proof.Proof.KiTables
import proofs.«121710_j11665131176114_2_alg».proof.Proof.KiHost

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- At the literal tables the pipeline's side condition holds, -/
theorem ok_of (V : (c : Dev nD) → (b : Ref sig .tc) → Buf (Elt F) ((c : Thread nD τ).loc b)) (ha : tbl1 V = litTbl (F := F)) : Ok1 V := by
  show ok1 (tbl1 V); rw [ha]; exact ok1_lit

/-- and the schedule facts. -/
theorem tblFacts_of (V : (c : Dev nD) → (b : Ref sig .tc) → Buf (Elt F) ((c : Thread nD τ).loc b)) (hO : Ok1 V) (ha : tbl1 V = litTbl (F := F)) : TblFacts1 V hO :=
  ⟨fun c t => conds_cases (adm1 V hO) ha c t, fun c h0 => cInit_first (adm1 V hO) ha c h0,
   fun c t h => out_not_diag (adm1 V hO) ha c t h, fun c t h => (out_diag (adm1 V hO) ha c t h).1⟩

variable (m : (ℓ : Loc nD τ sig) → Buf (Elt F) ℓ) (ρ : Dev nD → PrngReg)

/-- Neither call and neither reshape touches the tables: the attention call finds them as @main stored them. -/
theorem tblA : tbl1 (VV3 m) = litTbl (F := F) := by
  funext k
  match k with
  | ⟨0, _⟩ =>
    show StableHlo.after hostOps1 (W2 m 0) (Proc.devRef .tc main_c) = _
    rw [StableHlo.after_of_writes_sub hostOps1 _ hostOps1_writes (show main_c ∉ hostOps1_W by decide)]
    rw [W2_of_ne m 0 main_c (by decide)]
    exact Cert.KernelIdeal.Host.after0_c _
  | ⟨1, _⟩ =>
    show StableHlo.after hostOps1 (W2 m 0) (Proc.devRef .tc main_c_0) = _
    rw [StableHlo.after_of_writes_sub hostOps1 _ hostOps1_writes (show main_c_0 ∉ hostOps1_W by decide)]
    rw [W2_of_ne m 0 main_c_0 (by decide)]
    exact Cert.KernelIdeal.Host.after0_c_0 _

theorem hOA : Ok1 (VV3 m) := ok_of (VV3 m) (tblA m)

theorem hTA : TblFacts1 (VV3 m) (hOA m) := tblFacts_of (VV3 m) (hOA m) (tblA m)

/-- An argument array the first host stretch does not write is as launched when the first call is entered, -/
theorem W1_of (c : Dev nD) (r : Ref sig .tc) (h : r ∉ hostOps0_W) : W1 m c (Proc.devRef .tc r) = m ((c : Thread nD τ).loc r) :=
  StableHlo.after_of_writes_sub hostOps0 _ hostOps0_writes h
/-- and one the second does not write is unchanged across it. -/
theorem W3_of (c : Dev nD) (r : Ref sig .tc) (h : r ∉ hostOps1_W) : W3 m c (Proc.devRef .tc r) = W2 m c (Proc.devRef .tc r) :=
  StableHlo.after_of_writes_sub hostOps1 _ hostOps1_writes h

theorem W3_arg0 (c : Dev nD) : W3 m c (Proc.devRef .tc main_arg0) = m ((c : Thread nD τ).loc main_arg0) :=
  (W3_of m c main_arg0 (by decide)).trans ((W2_of_ne m c main_arg0 (by decide)).trans (W1_of m c main_arg0 (by decide)))
theorem W3_arg1 (c : Dev nD) : W3 m c (Proc.devRef .tc main_arg1) = m ((c : Thread nD τ).loc main_arg1) :=
  (W3_of m c main_arg1 (by decide)).trans ((W2_of_ne m c main_arg1 (by decide)).trans (W1_of m c main_arg1 (by decide)))
theorem W3_arg2 (c : Dev nD) : W3 m c (Proc.devRef .tc main_arg2) = m ((c : Thread nD τ).loc main_arg2) :=
  (W3_of m c main_arg2 (by decide)).trans ((W2_of_ne m c main_arg2 (by decide)).trans (W1_of m c main_arg2 (by decide)))
theorem W3_arg3 (c : Dev nD) : W3 m c (Proc.devRef .tc main_arg3) = m ((c : Thread nD τ).loc main_arg3) :=
  (W3_of m c main_arg3 (by decide)).trans ((W2_of_ne m c main_arg3 (by decide)).trans (W1_of m c main_arg3 (by decide)))

/-- The input array ends as launched: the attention call stages it through an input window, nothing before writes it. -/
theorem W4_arg0 (c : Dev nD) : W4 m (hOA m) c (Proc.devRef .tc main_arg0) = m ((c : Thread nD τ).loc main_arg0) :=
  (W4_arr m (hOA m) c 0).trans (((dat1 (VV3 m) (hOA m) c).arrAt_in 0 rfl _).trans ((A_eq1 (VV3 m) (hOA m) c 0).trans (W3_arg0 m c)))
theorem W4_arg1 (c : Dev nD) : W4 m (hOA m) c (Proc.devRef .tc main_arg1) = m ((c : Thread nD τ).loc main_arg1) :=
  (W4_of_ne m (hOA m) c main_arg1 (by decide)).trans (W3_arg1 m c)
theorem W4_arg2 (c : Dev nD) : W4 m (hOA m) c (Proc.devRef .tc main_arg2) = m ((c : Thread nD τ).loc main_arg2) :=
  (W4_of_ne m (hOA m) c main_arg2 (by decide)).trans (W3_arg2 m c)
theorem W4_arg3 (c : Dev nD) : W4 m (hOA m) c (Proc.devRef .tc main_arg3) = m ((c : Thread nD τ).loc main_arg3) :=
  (W4_of_ne m (hOA m) c main_arg3 (by decide)).trans (W3_arg3 m c)

/-- THE FRAME, at any reading of the floats. -/
theorem frameA : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucA main_arg0 (by decide))).trans (W4_arg0 m c),
     (h c _ (mem_ucA main_arg1 (by decide))).trans (W4_arg1 m c),
     (h c _ (mem_ucA main_arg2 (by decide))).trans (W4_arg2 m c),
     (h c _ (mem_ucA main_arg3 (by decide))).trans (W4_arg3 m c)⟩) (run_mainA m ρ (hOA m) (hTA m))

end Cert.KernelIdeal.Gen

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«121710_j11665131176114_2_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.LibERealFactor.lean ====
/-
  A general lemma file: moving a factor across a finite sum of EXTENDED reals without knowing the summands are real.

  On the extended reals `(a + b) · v = a · v + b · v` fails in general (`(⊤ + ⊥) · v`), and the usual road to
  distributivity goes through the reals, which asks every summand to be finite. When the FACTOR is nonnegative and
  finite the law holds for arbitrary summands, hence for any finite sum (`sum_mul_nonneg`, `mul_sum_nonneg`). Such a
  factor is, for instance, an inverse square root of a positive extended real (`rsqrt_nonneg_fin`: `1/√x` for a
  positive real, `0` at `+∞`), the degree normalisation of a graph convolution.
-/
import Idealize.ShloMosaic.PureOps.Ideal

noncomputable section

open scoped BigOperators

namespace Cert.LibERealFactor

open Idealize.ShloMosaic

/-- A nonnegative finite factor on the right moves across a finite sum of extended reals, whatever the summands. -/
theorem sum_mul_nonneg {ι : Type*} (s : Finset ι) (f : ι → EReal) (v : EReal) (h0 : 0 ≤ v) (ht : v ≠ ⊤) :
    (∑ e ∈ s, f e) * v = ∑ e ∈ s, f e * v := by
  classical
  induction s using Finset.induction_on with
  | empty => simp
  | insert a s ha ih =>
    rw [Finset.sum_insert ha, Finset.sum_insert ha, ← ih]
    exact EReal.right_distrib_of_nonneg_of_ne_top h0 ht _ _

/-- The same with the factor on the left. -/
theorem mul_sum_nonneg {ι : Type*} (s : Finset ι) (f : ι → EReal) (v : EReal) (h0 : 0 ≤ v) (ht : v ≠ ⊤) :
    v * ∑ e ∈ s, f e = ∑ e ∈ s, v * f e := by
  rw [mul_comm, sum_mul_nonneg s f v h0 ht]
  exact Finset.sum_congr rfl fun e _ => mul_comm _ _

/-- The inverse square root of a positive extended real is nonnegative and finite (`0` at `+∞`). -/
theorem rsqrt_nonneg_fin (x : EReal) (hx : 0 < x) : 0 ≤ Ideal.rsqrt x ∧ Ideal.rsqrt x ≠ ⊤ := by
  induction x using EReal.rec with
  | bot => exact absurd hx (by simp)
  | top => exact ⟨le_refl _, by simp⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

end Cert.LibERealFactor

end
-- ==== Proof.LibSoftmaxShift.lean ====
/-
  Softmax with and without the row maximum subtracted, on the extended reals.

  A reference computes softmax as exp(x - m) / Σ exp(x_k - m) with m the row maximum (for range reasons that vanish
  with exact arithmetic); a kernel may compute exp(x) / Σ exp(x_k) directly. For REAL logits and a real shift m the two
  agree, because exp(x - m) = exp(x) · exp(-m) and the positive real factor exp(-m) cancels. At an infinite logit the
  two expressions differ, so the hypothesis that every logit is a real number is needed.
-/
import Idealize.ShloMosaic.PureOps.Ideal

noncomputable section

namespace Cert.LibSoftmaxShift

open Idealize.ShloMosaic

/-- The coercion of a finite real sum is the sum of the coercions. -/
theorem coe_sum {ι : Type*} [Fintype ι] (f : ι → ℝ) : ((∑ k, f k : ℝ) : EReal) = ∑ k, (f k : EReal) := by
  classical
  refine Finset.induction_on (Finset.univ : Finset ι) (by simp) ?_
  intro a s ha ih
  rw [Finset.sum_insert ha, Finset.sum_insert ha, EReal.coe_add, ih]

/-- The exponential of a real number minus a real number, computed on the extended reals, is the real exponential of
    the difference. -/
theorem exp_sub_coe (a m : ℝ) : Ideal.exp ((a : EReal) - (m : EReal)) = ((Real.exp (a - m) : ℝ) : EReal) := by
  rw [← EReal.coe_sub]; rfl

/-- The sum of the exponentials of finitely many reals, over a nonempty index type, is a positive real. -/
theorem sum_exp_pos {ι : Type*} [Fintype ι] [Nonempty ι] (x : ι → ℝ) : 0 < ∑ k, Real.exp (x k) :=
  Finset.sum_pos (fun k _ => Real.exp_pos (x k)) Finset.univ_nonempty

/-- A quotient of the exponential of a real by a sum of exponentials of reals is the real quotient. -/
theorem div_exp_sum {ι : Type*} [Fintype ι] [Nonempty ι] (x : ι → ℝ) (j : ι) :
    Ideal.div (Ideal.exp (x j : EReal)) (∑ k, Ideal.exp (x k : EReal))
      = ((Real.exp (x j) / ∑ k, Real.exp (x k) : ℝ) : EReal) := by
  have hs : (∑ k, Ideal.exp (x k : EReal)) = ((∑ k, Real.exp (x k) : ℝ) : EReal) := by
    rw [coe_sum]; rfl
  rw [hs, Ideal.div_coe (ne_of_gt (sum_exp_pos x))]
  show ((Real.exp (x j) : ℝ) : EReal) * _ = _
  rw [← EReal.coe_mul, mul_one_div]

/-- SHIFT INVARIANCE. For real logits `x` over a nonempty finite index type and a real shift `m`, the softmax
    computed from the shifted logits is the softmax computed from the logits themselves. -/
theorem softmax_shift {ι : Type*} [Fintype ι] [Nonempty ι] (x : ι → ℝ) (m : ℝ) (j : ι) :
    Ideal.div (Ideal.exp ((x j : EReal) - (m : EReal))) (∑ k, Ideal.exp ((x k : EReal) - (m : EReal)))
      = Ideal.div (Ideal.exp (x j : EReal)) (∑ k, Ideal.exp (x k : EReal)) := by
  have h1 : ∀ k, Ideal.exp ((x k : EReal) - (m : EReal)) = Ideal.exp (((x k - m : ℝ)) : EReal) := fun k => by
    rw [← EReal.coe_sub]
  simp only [h1]
  rw [div_exp_sum (fun k => x k - m) j, div_exp_sum x j]
  congr 1
  simp only [Real.exp_sub]
  rw [← Finset.sum_div, div_div_div_cancel_right₀ (ne_of_gt (Real.exp_pos m))]

/-- The same for extended reals known to be real: every logit `z k` and the shift `μ` a real number. -/
theorem softmax_shift_of_real {ι : Type*} [Fintype ι] [Nonempty ι] (z : ι → EReal) (hz : ∀ k, ∃ r : ℝ, z k = r)
    (μ : EReal) (hμ : ∃ r : ℝ, μ = r) (j : ι) :
    Ideal.div (Ideal.exp (z j - μ)) (∑ k, Ideal.exp (z k - μ)) = Ideal.div (Ideal.exp (z j)) (∑ k, Ideal.exp (z k)) := by
  choose x hx using hz
  obtain ⟨m, rfl⟩ := hμ
  simp only [hx]
  exact softmax_shift x m j

/-- The maximum of finitely many reals over a nonempty index type — as the supremum on the extended reals, which is
    what a fold of `max` from minus infinity computes — is one of them, hence a real number. -/
theorem sup_real {ι : Type*} [Fintype ι] [Nonempty ι] (z : ι → EReal) (hz : ∀ k, ∃ r : ℝ, z k = r) :
    ∃ r : ℝ, Finset.univ.sup z = r := by
  obtain ⟨i, _, hi⟩ := Finset.exists_mem_eq_sup Finset.univ Finset.univ_nonempty z
  obtain ⟨r, hr⟩ := hz i
  exact ⟨r, hi.trans hr⟩

/-- The softmax of real logits is a real number in every entry. -/
theorem softmax_real {ι : Type*} [Fintype ι] [Nonempty ι] (z : ι → EReal) (hz : ∀ k, ∃ r : ℝ, z k = r) (j : ι) :
    ∃ r : ℝ, Ideal.div (Ideal.exp (z j)) (∑ k, Ideal.exp (z k)) = r := by
  choose x hx using hz
  simp only [hx]
  exact ⟨_, div_exp_sum x j⟩

end Cert.LibSoftmaxShift

end
-- ==== Proof.LibOnlineSoftmax.lean ====
/-
  Online softmax: a softmax-weighted sum accumulated block by block, against the softmax taken over all keys at once.

  A row of attention has logits z(j, t) (block j, position t in the block, T positions per block) and values v(j, t).
  Softmax attention is  Σ_{j,t} (exp(z(j,t) − μ) / Σ_{j',t'} exp(z(j',t') − μ)) · v(j,t)  for any real shift μ.
  The blocked computation never sees all logits together. It carries a state (m, l, acc): the running maximum m of the
  logits seen so far, the running normaliser l = Σ exp(z − m) and the running weighted sum acc = Σ exp(z − m) · v, both
  taken relative to the CURRENT maximum. A new block first raises the maximum to m' = max m (max_t z t), rescales the
  old l and acc by exp(m − m') — because exp(m − m') · exp(z − m) = exp(z − m') — and then adds the block's own terms.
  At the end it divides acc by l.

  Everything is on the extended reals with exp(−∞) = 0. A masked logit is −∞; an unmasked one is a real number; no
  logit is +∞. The values v are ARBITRARY extended reals: the only factors that ever cross a sum are exp(m − m') and
  1/l, nonnegative and finite, and such a factor crosses a finite sum of extended reals whatever the summands.
  The start state is (−∞, 0, 0); the first block must hold a real logit, which makes every later maximum a real number
  (at the first step exp(−∞ − m') = 0 multiplies the zeros of the start state).

  Contents.
    * Pointwise: exp(z − μ) is a nonnegative real for z real or −∞ and μ real (positive for z real);
      exp(M − M') · exp(z − M) = exp(z − M') for real M, M' and z real or −∞.
    * Maxima: the maximum of finitely many logits, each real or −∞ and one of them real, is real.
    * Weights over any finite set: the total Σ exp(z − μ) is a positive real; the weight exp(z − μ)/Σ exp(z − μ) does
      not depend on the real shift μ; (Σ exp(z − μ) · v)/Σ exp(z − μ) is the sum of v under the weights for any other
      real shift.
    * The recurrence: run_fst (the first component is the maximum of the logits seen), run_inv (the invariant),
      run_div_eq (acc/l is softmax attention), run_div_eq_masked (the same with further, fully masked blocks
      appended to the reference's sums).
-/
import Idealize.ShloMosaic.PureOps.Ideal
import proofs.«121710_j11665131176114_2_alg».proof.Proof.LibReal
import proofs.«121710_j11665131176114_2_alg».proof.Proof.LibRealOps
import proofs.«121710_j11665131176114_2_alg».proof.Proof.LibERealFactor
import proofs.«121710_j11665131176114_2_alg».proof.Proof.LibSoftmaxShift

noncomputable section

open scoped BigOperators

namespace Cert.LibOnlineSoftmax

open Idealize.ShloMosaic Cert.LibReal Cert.LibRealOps Cert.LibERealFactor Cert.LibSoftmaxShift

/-! ### Pointwise facts -/

/-- A logit that is real or minus infinity is not plus infinity. -/
theorem ne_top_of_real_or_bot {z : EReal} (hz : IsReal z ∨ z = ⊥) : z ≠ ⊤ := by
  rcases hz with ⟨r, rfl⟩ | rfl
  · exact EReal.coe_ne_top r
  · exact bot_ne_top

/-- An extended real other than plus infinity is real or minus infinity. -/
theorem real_or_bot_of_ne_top {z : EReal} (hz : z ≠ ⊤) : IsReal z ∨ z = ⊥ := by
  by_cases hb : z = ⊥
  · exact Or.inr hb
  · exact Or.inl (IsReal.of_ne hz hb)

/-- The exponential of (a real or minus infinity) minus a real is a nonnegative real. -/
theorem exp_sub_nonneg_real {z μ : EReal} (hz : IsReal z ∨ z = ⊥) (hμ : IsReal μ) :
    ∃ r : ℝ, 0 ≤ r ∧ Ideal.exp (z - μ) = (r : EReal) := by
  obtain ⟨m, rfl⟩ := hμ
  rcases hz with ⟨x, rfl⟩ | rfl
  · exact ⟨Real.exp (x - m), (Real.exp_pos _).le, exp_sub_coe x m⟩
  · exact ⟨0, le_refl _, by rw [EReal.bot_sub, Ideal.exp_bot, EReal.coe_zero]⟩

/-- The exponential of a real minus a real is a positive real. -/
theorem exp_sub_pos_real {z μ : EReal} (hz : IsReal z) (hμ : IsReal μ) :
    ∃ r : ℝ, 0 < r ∧ Ideal.exp (z - μ) = (r : EReal) := by
  obtain ⟨m, rfl⟩ := hμ
  obtain ⟨x, rfl⟩ := hz
  exact ⟨Real.exp (x - m), Real.exp_pos _, exp_sub_coe x m⟩

/-- The exponential of (a real or minus infinity) minus a real is a real number, -/
theorem exp_sub_isReal {z μ : EReal} (hz : IsReal z ∨ z = ⊥) (hμ : IsReal μ) : IsReal (Ideal.exp (z - μ)) := by
  obtain ⟨r, _, hr⟩ := exp_sub_nonneg_real hz hμ
  exact ⟨r, hr⟩

/-- it is nonnegative, -/
theorem exp_sub_nonneg {z μ : EReal} (hz : IsReal z ∨ z = ⊥) (hμ : IsReal μ) : 0 ≤ Ideal.exp (z - μ) := by
  obtain ⟨r, hr0, hr⟩ := exp_sub_nonneg_real hz hμ
  rw [hr]
  exact EReal.coe_nonneg.mpr hr0

/-- and it is not plus infinity. -/
theorem exp_sub_ne_top {z μ : EReal} (hz : IsReal z ∨ z = ⊥) (hμ : IsReal μ) : Ideal.exp (z - μ) ≠ ⊤ :=
  IsReal.ne_top (exp_sub_isReal hz hμ)

/-- Moving the shift: exp(M − M') · exp(z − M) = exp(z − M') for real M, M' and z real or minus infinity
    (at minus infinity both sides are zero). -/
theorem exp_mul_exp {M M' z : EReal} (hM : IsReal M) (hM' : IsReal M') (hz : IsReal z ∨ z = ⊥) :
    Ideal.exp (M - M') * Ideal.exp (z - M) = Ideal.exp (z - M') := by
  obtain ⟨a, rfl⟩ := hM
  obtain ⟨b, rfl⟩ := hM'
  rcases hz with ⟨x, rfl⟩ | rfl
  · rw [exp_sub_coe, exp_sub_coe, exp_sub_coe, ← EReal.coe_mul, ← Real.exp_add]
    congr 2
    ring
  · rw [EReal.bot_sub, EReal.bot_sub, Ideal.exp_bot, mul_zero]

/-! ### Maxima -/

/-- The maximum of finitely many logits none of which is plus infinity is not plus infinity. -/
theorem sup_ne_top {ι : Type*} (s : Finset ι) (z : ι → EReal) (hz : ∀ i ∈ s, IsReal (z i) ∨ z i = ⊥) :
    s.sup z ≠ ⊤ :=
  ((Finset.sup_lt_iff bot_lt_top).mpr fun i hi => lt_top_iff_ne_top.mpr (ne_top_of_real_or_bot (hz i hi))).ne

/-- The maximum of finitely many logits, each real or minus infinity and one of them real, is real. -/
theorem sup_isReal {ι : Type*} (s : Finset ι) (z : ι → EReal) (hz : ∀ i ∈ s, IsReal (z i) ∨ z i = ⊥)
    (h : ∃ i ∈ s, IsReal (z i)) : IsReal (s.sup z) := by
  obtain ⟨i, hi, hr⟩ := h
  exact IsReal.of_ne (sup_ne_top s z hz)
    (ne_of_gt (lt_of_lt_of_le (bot_lt_iff_ne_bot.mpr (IsReal.ne_bot hr)) (Finset.le_sup hi)))

/-- The same over a whole finite index type. -/
theorem sup_univ_isReal {ι : Type*} [Fintype ι] (z : ι → EReal) (hz : ∀ t, IsReal (z t) ∨ z t = ⊥)
    (h : ∃ t, IsReal (z t)) : IsReal (Finset.univ.sup z) := by
  obtain ⟨t, ht⟩ := h
  exact sup_isReal Finset.univ z (fun i _ => hz i) ⟨t, Finset.mem_univ t, ht⟩

/-- The larger of minus infinity and that maximum (the first running maximum) is real too. -/
theorem max_bot_sup_univ_isReal {ι : Type*} [Fintype ι] (z : ι → EReal) (hz : ∀ t, IsReal (z t) ∨ z t = ⊥)
    (h : ∃ t, IsReal (z t)) : IsReal (max ⊥ (Finset.univ.sup z)) := by
  rw [max_eq_right bot_le]
  exact sup_univ_isReal z hz h

/-- The larger of a real number and an extended real other than plus infinity is a real number. -/
theorem max_isReal {a b : EReal} (ha : IsReal a) (hb : b ≠ ⊤) : IsReal (max a b) :=
  IsReal.of_ne (max_lt (lt_top_iff_ne_top.mpr (IsReal.ne_top ha)) (lt_top_iff_ne_top.mpr hb)).ne
    (ne_of_gt (lt_of_lt_of_le (bot_lt_iff_ne_bot.mpr (IsReal.ne_bot ha)) (le_max_left a b)))

/-! ### Softmax weights over a finite set -/

section Weights

variable {ι : Type*}

/-- The total of the weights exp(z i − μ) over a finite set, logits real or minus infinity and one of them real,
    shift real, is a positive real. -/
theorem sum_exp_pos_real (s : Finset ι) (z : ι → EReal) (μ : EReal) (hz : ∀ i ∈ s, IsReal (z i) ∨ z i = ⊥)
    (h : ∃ i ∈ s, IsReal (z i)) (hμ : IsReal μ) :
    ∃ L : ℝ, 0 < L ∧ ∑ i ∈ s, Ideal.exp (z i - μ) = (L : EReal) := by
  obtain ⟨L, hL⟩ : IsReal (∑ i ∈ s, Ideal.exp (z i - μ)) :=
    IsReal.sum s _ fun i hi => exp_sub_isReal (hz i hi) hμ
  refine ⟨L, ?_, hL⟩
  obtain ⟨i, hi, hri⟩ := h
  obtain ⟨r, hr0, hre⟩ := exp_sub_pos_real hri hμ
  have h1 : Ideal.exp (z i - μ) ≤ ∑ k ∈ s, Ideal.exp (z k - μ) :=
    Finset.single_le_sum (f := fun k => Ideal.exp (z k - μ)) (fun k hk => exp_sub_nonneg (hz k hk) hμ) hi
  rw [hre, hL] at h1
  have h2 : r ≤ L := by exact_mod_cast h1
  linarith

/-- Dividing a weighted sum by a positive real total is summing under the divided weights; nothing is asked of the
    weights e or of the values v. -/
theorem sum_mul_div_total (s : Finset ι) (e v : ι → EReal) {L : ℝ} (hL : 0 < L) :
    Ideal.div (∑ i ∈ s, e i * v i) (L : EReal) = ∑ i ∈ s, Ideal.div (e i) (L : EReal) * v i := by
  simp only [Ideal.div_coe hL.ne']
  rw [sum_mul_nonneg _ _ _ (EReal.coe_nonneg.mpr (by positivity)) (EReal.coe_ne_top _)]
  exact Finset.sum_congr rfl fun i _ => mul_right_comm _ _ _

/-- SHIFT INVARIANCE with masked logits: the weight exp(z i − μ) / Σ_k exp(z k − μ) is the same for every real
    shift μ, the logits being real or minus infinity with one of them real. -/
theorem weight_shift (s : Finset ι) (z : ι → EReal) (μ μ' : EReal) (hz : ∀ i ∈ s, IsReal (z i) ∨ z i = ⊥)
    (h : ∃ i ∈ s, IsReal (z i)) (hμ : IsReal μ) (hμ' : IsReal μ') (i : ι) (hi : i ∈ s) :
    Ideal.div (Ideal.exp (z i - μ)) (∑ k ∈ s, Ideal.exp (z k - μ))
      = Ideal.div (Ideal.exp (z i - μ')) (∑ k ∈ s, Ideal.exp (z k - μ')) := by
  obtain ⟨c, hc0, hc⟩ := exp_sub_pos_real hμ' hμ
  have hk : ∀ k ∈ s, Ideal.exp (z k - μ) = (c : EReal) * Ideal.exp (z k - μ') := fun k hk => by
    rw [← hc, exp_mul_exp hμ' hμ (hz k hk)]
  obtain ⟨L', hL'0, hL'⟩ := sum_exp_pos_real s z μ' hz h hμ'
  have hL : ∑ k ∈ s, Ideal.exp (z k - μ) = ((c * L' : ℝ) : EReal) := by
    rw [Finset.sum_congr rfl hk, ← mul_sum_nonneg _ _ _ (EReal.coe_nonneg.mpr hc0.le) (EReal.coe_ne_top _), hL',
      EReal.coe_mul]
  have hreal : c * (1 / (c * L')) = 1 / L' := by
    field_simp
  rw [hL, hL', hk i hi, Ideal.div_coe (mul_pos hc0 hL'0).ne', Ideal.div_coe hL'0.ne', mul_comm (c : EReal),
    mul_assoc, ← EReal.coe_mul, hreal]

/-- The accumulated weighted sum divided by the accumulated total, both taken at the shift μ, is the sum of the
    values under the softmax weights taken at any other real shift μ'. -/
theorem div_sums_eq (s : Finset ι) (z v : ι → EReal) (μ μ' : EReal) (hz : ∀ i ∈ s, IsReal (z i) ∨ z i = ⊥)
    (h : ∃ i ∈ s, IsReal (z i)) (hμ : IsReal μ) (hμ' : IsReal μ') :
    Ideal.div (∑ i ∈ s, Ideal.exp (z i - μ) * v i) (∑ i ∈ s, Ideal.exp (z i - μ))
      = ∑ i ∈ s, Ideal.div (Ideal.exp (z i - μ')) (∑ k ∈ s, Ideal.exp (z k - μ')) * v i := by
  obtain ⟨L, hL0, hL⟩ := sum_exp_pos_real s z μ hz h hμ
  rw [hL, sum_mul_div_total s _ v hL0, ← hL]
  exact Finset.sum_congr rfl fun i hi => by rw [weight_shift s z μ μ' hz h hμ hμ' i hi]

end Weights

/-! ### The recurrence -/

/-- The state: the running maximum m, the running normaliser l, the running weighted sum acc. -/
abbrev St := EReal × EReal × EReal

/-- The start state: maximum minus infinity, normaliser and weighted sum zero. -/
def init : St := (⊥, 0, 0)

/-- One block: raise the maximum, rescale the old normaliser and weighted sum to it, add the block's terms. -/
def stepSt {T : ℕ} (s : St) (z v : Fin T → EReal) : St :=
  let m' := max s.1 (Finset.univ.sup z)
  let a := Ideal.exp (s.1 - m')
  (m', a * s.2.1 + ∑ t, Ideal.exp (z t - m'), a * s.2.2 + ∑ t, Ideal.exp (z t - m') * v t)

/-- The state after the first j blocks. -/
def run {T : ℕ} (zs vs : ℕ → Fin T → EReal) : ℕ → St
  | 0 => init
  | j + 1 => stepSt (run zs vs j) (zs j) (vs j)

section Run

variable {T : ℕ} (zs vs : ℕ → Fin T → EReal)

theorem run_zero : run zs vs 0 = init := rfl

theorem run_succ (j : ℕ) : run zs vs (j + 1) = stepSt (run zs vs j) (zs j) (vs j) := rfl

/-- The new maximum. -/
theorem run_succ_fst (j : ℕ) : (run zs vs (j + 1)).1 = max (run zs vs j).1 (Finset.univ.sup (zs j)) := rfl

/-- The new normaliser, written with the new maximum. -/
theorem run_succ_l (j : ℕ) :
    (run zs vs (j + 1)).2.1 = Ideal.exp ((run zs vs j).1 - (run zs vs (j + 1)).1) * (run zs vs j).2.1
      + ∑ t, Ideal.exp (zs j t - (run zs vs (j + 1)).1) := rfl

/-- The new weighted sum, written with the new maximum. -/
theorem run_succ_acc (j : ℕ) :
    (run zs vs (j + 1)).2.2 = Ideal.exp ((run zs vs j).1 - (run zs vs (j + 1)).1) * (run zs vs j).2.2
      + ∑ t, Ideal.exp (zs j t - (run zs vs (j + 1)).1) * vs j t := rfl

/-- The first component is the maximum of all logits of the blocks seen (minus infinity before the first block);
    no hypothesis on the logits. -/
theorem run_fst (n : ℕ) : (run zs vs n).1 = (Finset.range n).sup fun j => Finset.univ.sup (zs j) := by
  induction n with
  | zero => rw [Finset.range_zero, Finset.sup_empty]; rfl
  | succ n ih => rw [run_succ_fst, ih, Finset.range_add_one, Finset.sup_insert, max_comm]

/-- A nonnegative finite factor crosses a double sum over the first n blocks, term by term. -/
theorem mul_sum_sum (n : ℕ) (a : EReal) (ha0 : 0 ≤ a) (hat : a ≠ ⊤) (f g : ℕ → Fin T → EReal)
    (h : ∀ j ∈ Finset.range n, ∀ t, a * f j t = g j t) :
    a * ∑ j ∈ Finset.range n, ∑ t, f j t = ∑ j ∈ Finset.range n, ∑ t, g j t := by
  rw [mul_sum_nonneg _ _ _ ha0 hat]
  refine Finset.sum_congr rfl fun j hj => ?_
  rw [mul_sum_nonneg _ _ _ ha0 hat]
  exact Finset.sum_congr rfl fun t _ => h j hj t

/-- THE INVARIANT. After n > 0 blocks, the first block holding a real logit and every logit seen being real or minus
    infinity: the running maximum M is a real number, the normaliser is Σ exp(z − M) and the weighted sum is
    Σ exp(z − M) · v, over all logits seen. (That M is the maximum of the logits seen is run_fst.) -/
theorem run_inv (n : ℕ) (hn : 0 < n) (h0 : ∃ t, IsReal (zs 0 t))
    (hz : ∀ j < n, ∀ t, IsReal (zs j t) ∨ zs j t = ⊥) :
    IsReal (run zs vs n).1
      ∧ (run zs vs n).2.1 = ∑ j ∈ Finset.range n, ∑ t, Ideal.exp (zs j t - (run zs vs n).1)
      ∧ (run zs vs n).2.2 = ∑ j ∈ Finset.range n, ∑ t, Ideal.exp (zs j t - (run zs vs n).1) * vs j t := by
  obtain ⟨k, rfl⟩ : ∃ k, n = k + 1 := ⟨n - 1, by omega⟩
  clear hn
  induction k with
  | zero =>
    have hM : IsReal (run zs vs (0 + 1)).1 := by
      show IsReal (max ⊥ (Finset.univ.sup (zs 0)))
      exact max_bot_sup_univ_isReal (zs 0) (hz 0 (by omega)) h0
    have ha : Ideal.exp ((run zs vs 0).1 - (run zs vs (0 + 1)).1) = 0 := by
      show Ideal.exp (⊥ - (run zs vs (0 + 1)).1) = 0
      rw [EReal.bot_sub, Ideal.exp_bot]
    refine ⟨hM, ?_, ?_⟩
    · rw [run_succ_l, ha, zero_mul, zero_add, Finset.sum_range_one]
    · rw [run_succ_acc, ha, zero_mul, zero_add, Finset.sum_range_one]
  | succ k ih =>
    obtain ⟨hM, hl, hacc⟩ := ih (fun j hj t => hz j (by omega) t)
    have hM' : IsReal (run zs vs (k + 1 + 1)).1 := by
      rw [run_succ_fst]
      exact max_isReal hM (sup_ne_top _ _ fun t _ => hz (k + 1) (by omega) t)
    have hkey : ∀ j ∈ Finset.range (k + 1), ∀ t,
        Ideal.exp ((run zs vs (k + 1)).1 - (run zs vs (k + 1 + 1)).1) * Ideal.exp (zs j t - (run zs vs (k + 1)).1)
          = Ideal.exp (zs j t - (run zs vs (k + 1 + 1)).1) := fun j hj t =>
      exp_mul_exp hM hM' (hz j (by have := Finset.mem_range.mp hj; omega) t)
    have ha0 := exp_sub_nonneg (Or.inl hM) hM'
    have hat := exp_sub_ne_top (Or.inl hM) hM'
    refine ⟨hM', ?_, ?_⟩
    · rw [run_succ_l, hl, mul_sum_sum (k + 1) _ ha0 hat _ _ hkey]
      exact (Finset.sum_range_succ (fun j => ∑ t, Ideal.exp (zs j t - (run zs vs (k + 1 + 1)).1)) (k + 1)).symm
    · rw [run_succ_acc, hacc,
        mul_sum_sum (k + 1) _ ha0 hat _ (fun j t => Ideal.exp (zs j t - (run zs vs (k + 1 + 1)).1) * vs j t)
          (fun j hj t => by rw [← mul_assoc, hkey j hj t])]
      exact (Finset.sum_range_succ
        (fun j => ∑ t, Ideal.exp (zs j t - (run zs vs (k + 1 + 1)).1) * vs j t) (k + 1)).symm

end Run

/-! ### The blocked result is softmax attention -/

section Attention

variable {T : ℕ} (zs vs : ℕ → Fin T → EReal)

/-- The total of the weights over the first n > 0 blocks is a positive real, for every real shift. -/
theorem sum_sum_exp_pos_real (n : ℕ) (hn : 0 < n) (h0 : ∃ t, IsReal (zs 0 t))
    (hz : ∀ j < n, ∀ t, IsReal (zs j t) ∨ zs j t = ⊥) (μ : EReal) (hμ : IsReal μ) :
    ∃ L : ℝ, 0 < L ∧ ∑ j ∈ Finset.range n, ∑ t, Ideal.exp (zs j t - μ) = (L : EReal) := by
  obtain ⟨t0, ht0⟩ := h0
  have h := sum_exp_pos_real (Finset.range n ×ˢ (Finset.univ : Finset (Fin T))) (fun p => zs p.1 p.2) μ
    (fun p hp => hz p.1 (Finset.mem_range.mp (Finset.mem_product.mp hp).1) p.2)
    ⟨(0, t0), Finset.mem_product.mpr ⟨Finset.mem_range.mpr hn, Finset.mem_univ _⟩, ht0⟩ hμ
  simpa only [Finset.sum_product] using h

/-- Over the first n > 0 blocks: the weighted sum divided by the total, both at the shift μ, is the sum of the values
    under the softmax weights taken at any other real shift μ'. -/
theorem sums_div_eq (n : ℕ) (hn : 0 < n) (h0 : ∃ t, IsReal (zs 0 t))
    (hz : ∀ j < n, ∀ t, IsReal (zs j t) ∨ zs j t = ⊥) (μ μ' : EReal) (hμ : IsReal μ) (hμ' : IsReal μ') :
    Ideal.div (∑ j ∈ Finset.range n, ∑ t, Ideal.exp (zs j t - μ) * vs j t)
        (∑ j ∈ Finset.range n, ∑ t, Ideal.exp (zs j t - μ))
      = ∑ j ∈ Finset.range n, ∑ t,
          Ideal.div (Ideal.exp (zs j t - μ')) (∑ j' ∈ Finset.range n, ∑ t', Ideal.exp (zs j' t' - μ')) * vs j t := by
  obtain ⟨t0, ht0⟩ := h0
  have h := div_sums_eq (Finset.range n ×ˢ (Finset.univ : Finset (Fin T))) (fun p => zs p.1 p.2)
    (fun p => vs p.1 p.2) μ μ'
    (fun p hp => hz p.1 (Finset.mem_range.mp (Finset.mem_product.mp hp).1) p.2)
    ⟨(0, t0), Finset.mem_product.mpr ⟨Finset.mem_range.mpr hn, Finset.mem_univ _⟩, ht0⟩ hμ hμ'
  simpa only [Finset.sum_product] using h

/-- The maximum of all logits of the first n > 0 blocks (the shift a reference usually takes) is a real number. -/
theorem sup_blocks_isReal (n : ℕ) (hn : 0 < n) (h0 : ∃ t, IsReal (zs 0 t))
    (hz : ∀ j < n, ∀ t, IsReal (zs j t) ∨ zs j t = ⊥) :
    IsReal ((Finset.range n).sup fun j => Finset.univ.sup (zs j)) :=
  sup_isReal (Finset.range n) (fun j => Finset.univ.sup (zs j))
    (fun j hj => real_or_bot_of_ne_top (sup_ne_top _ _ fun t _ => hz j (Finset.mem_range.mp hj) t))
    ⟨0, Finset.mem_range.mpr hn, sup_univ_isReal (zs 0) (hz 0 hn) h0⟩

/-- THE RESULT. After n > 0 blocks (the first holding a real logit, every logit real or minus infinity, the values
    arbitrary extended reals) the weighted sum divided by the normaliser is softmax attention over all keys seen,
    the softmax being written with any real shift M'. -/
theorem run_div_eq (n : ℕ) (hn : 0 < n) (h0 : ∃ t, IsReal (zs 0 t))
    (hz : ∀ j < n, ∀ t, IsReal (zs j t) ∨ zs j t = ⊥) (M' : EReal) (hM' : IsReal M') :
    Ideal.div (run zs vs n).2.2 (run zs vs n).2.1
      = ∑ j ∈ Finset.range n, ∑ t,
          Ideal.div (Ideal.exp (zs j t - M')) (∑ j' ∈ Finset.range n, ∑ t', Ideal.exp (zs j' t' - M')) * vs j t := by
  obtain ⟨hM, hl, hacc⟩ := run_inv zs vs n hn h0 hz
  rw [hl, hacc]
  exact sums_div_eq zs vs n hn h0 hz _ M' hM hM'

/-- WITH A MASKED TAIL. If the blocks n ≤ j < N hold only minus infinity, the reference's sums may run over all N
    blocks: a masked key has weight 0 / (positive real) = 0, and 0 · v = 0 for every extended real v. -/
theorem run_div_eq_masked (n N : ℕ) (hn : 0 < n) (hnN : n ≤ N) (h0 : ∃ t, IsReal (zs 0 t))
    (hz : ∀ j < n, ∀ t, IsReal (zs j t) ∨ zs j t = ⊥) (hmask : ∀ j, n ≤ j → j < N → ∀ t, zs j t = ⊥)
    (M' : EReal) (hM' : IsReal M') :
    Ideal.div (run zs vs n).2.2 (run zs vs n).2.1
      = ∑ j ∈ Finset.range N, ∑ t,
          Ideal.div (Ideal.exp (zs j t - M')) (∑ j' ∈ Finset.range N, ∑ t', Ideal.exp (zs j' t' - M')) * vs j t := by
  have hsub : Finset.range n ⊆ Finset.range N := Finset.range_subset_range.mpr hnN
  have hexp : ∀ j ∈ Finset.range N, j ∉ Finset.range n → ∀ t, Ideal.exp (zs j t - M') = 0 := fun j hjN hjn t => by
    rw [hmask j (Nat.le_of_not_lt fun hlt => hjn (Finset.mem_range.mpr hlt)) (Finset.mem_range.mp hjN) t,
      EReal.bot_sub, Ideal.exp_bot]
  have hden : ∑ j' ∈ Finset.range N, ∑ t', Ideal.exp (zs j' t' - M')
      = ∑ j' ∈ Finset.range n, ∑ t', Ideal.exp (zs j' t' - M') :=
    (Finset.sum_subset hsub fun j hjN hjn => Finset.sum_eq_zero fun t _ => hexp j hjN hjn t).symm
  obtain ⟨L, hL0, hL⟩ := sum_sum_exp_pos_real zs n hn h0 hz M' hM'
  rw [run_div_eq zs vs n hn h0 hz M' hM', hden]
  refine Finset.sum_subset hsub fun j hjN hjn => Finset.sum_eq_zero fun t _ => ?_
  rw [hexp j hjN hjn t, hL, Ideal.div_coe hL0.ne', zero_mul, zero_mul]

end Attention

end Cert.LibOnlineSoftmax

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibRowMin.lean ====
/-
  A kernel's row minima, and the lattice reading of a row reduction, at an index given by coordinates.

  `jnp.min(x, axis=1)` of a matrix `[a, b]` is, in a kernel, a lane reduction `[a, b] → [a]` by `minimumf` from an
  accumulator word. On the extended reals `min` is commutative and associative, so the order of the reduction does not
  matter: read at row `r` the result is the fold of `min`, from the value the accumulator's word denotes, over the entries
  `x (r, k)`, `k` running over the row. When that word is the one of +∞ the accumulator's value is the top element and the
  fold over the whole row is the infimum of the row; dually a fold of `max` from the word of −∞, the bottom element, is
  the supremum — the form a masked maximum or minimum (`jnp.where(mask, x, ∓inf)` reduced along the row) is compared in.
  Last, a matrix transposed by the permutation `[1, 0]` reads, at `(d, j)`, the operand at `(j, d)`: the right operand of
  `x @ y.T`.
-/
import Idealize.ShloMosaic.Lib.ValueIdx
import Idealize.ShloMosaic.Lib.Pipeline.Value
import Idealize.ShloMosaic.PureOps.Ideal.Laws

noncomputable section

namespace Cert.LibRowMin

open Idealize.ShloMosaic Idealize.ShloMosaic.ValueIdx

/-! ## The two infinities' words, and folds over a whole row as lattice operations -/

/-- The f32 word of minus infinity denotes the bottom element of the extended reals. -/
theorem ofBits_neg_inf : Ideal.ofBits .f32 0xFF800000#32 = ⊥ := by simp [Ideal.ofBits, Ideal.ieee]
/-- The f32 word of plus infinity denotes the top element of the extended reals. -/
theorem ofBits_pos_inf : Ideal.ofBits .f32 0x7F800000#32 = ⊤ := by simp [Ideal.ofBits, Ideal.ieee]

/-- A fold of max from bottom over all of `Fin n` is the supremum. -/
theorem fold_max_bot {n : ℕ} (f : Fin n → EReal) : (Finset.univ : Finset (Fin n)).fold max ⊥ f = Finset.univ.sup f := rfl
/-- A fold of min from top over all of `Fin n` is the infimum. -/
theorem fold_min_top {n : ℕ} (f : Fin n → EReal) : (Finset.univ : Finset (Fin n)).fold min ⊤ f = Finset.univ.inf f := rfl

/-! ## A minimum along one axis -/

/-- A lane reduction by minimumf over one axis, at the ideal values: min commutes and associates on the extended reals,
    so the result at an index is the fold of min, from the accumulator's value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A lane reduction by `minimumf` of an `[a, b]` matrix along its rows, at the ideal values and read at row `r`: the
    fold of `min` from the accumulator's value over the row. -/
theorem multiReduction_min_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  refine congrArg (Finset.fold _ _ · _) (funext fun k => congrArg src (funext fun ax => Fin.ext ?_))
  match ax with
  | ⟨0, _⟩ => rfl
  | ⟨1, _⟩ => rfl

/-! ## A transposed matrix -/

/-- An `[a, b]` matrix transposed to `[b, a]` reads, at `(d, j)`, the operand at `(j, d)`. -/
theorem transpose_ab_ba_apply {a b : ℕ} {α : Type} (x : (⟨2, ![a, b]⟩ : Shape).Idx → α)
    (h : (⟨2, ![a, b]⟩ : Shape).Transposes [1, 0] ⟨2, ![b, a]⟩) (d : Fin b) (j : Fin a) :
    transpose ⟨2, ![b, a]⟩ [1, 0] x h (ix2 d j) = x (ix2 j d) :=
  transpose_apply [1, 0] x h (ix2 d j) (ix2 j d) fun ax => by
    match ax with
    | ⟨0, _⟩ => rfl
    | ⟨1, _⟩ => rfl

end Cert.LibRowMin

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KiPayloads.lean ====
/-
  The values the two attention kernels store, read at an index, over the extended reals.

  Each stored value of the projection kernel and of the causal flash-attention kernel is a pure function of the values
  loaded before it. Here each such function is read at one index as plain arithmetic on the extended reals (a float is
  an extended real, a change of format is the identity, exp(-∞) = 0): the projections are matrix products
  Σ_i x(p, i) · w(i, e); the logits of a (query tile, key tile) pair are the scaled inner products
  (Σ_e q(r, e) · k(t, e)) / 32; the update of the running statistics (maximum, normaliser, weighted sum) by one key tile
  is one step of the online-softmax recurrence, with the tile's logits taken as they are below the diagonal and masked
  to -∞ above it on the diagonal tile; the output is the weighted sum divided by the normaliser; the start state is
  (-∞, 0, 0).
-/
import proofs.«121710_j11665131176114_2_alg».proof.Proof.Gen.KernelIdeal.Skeleton
import proofs.«121710_j11665131176114_2_alg».proof.Proof.LibOnlineSoftmax
import proofs.«121710_j11665131176114_2_alg».proof.Proof.LibMatmulNN
import proofs.«121710_j11665131176114_2_alg».proof.Proof.LibMatmulNT
import proofs.«121710_j11665131176114_2_alg».proof.Proof.LibRowMax
import proofs.«121710_j11665131176114_2_alg».proof.Proof.LibRowMin
import proofs.«121710_j11665131176114_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.LibOnlineSoftmax

/-! ## The start state -/

/-- The f32 word of zero denotes zero. -/
theorem ofBits_zero : Ideal.ofBits .f32 0x00000000#32 = 0 := by simp [Ideal.ofBits, Ideal.ieee]

/-- The running maximum starts at minus infinity. -/
theorem pay1_apply (r : Fin 512) : k1_pay1 (F := Ideal) (ix2 r (0 : Fin 1)) = ⊥ := by
  unfold k1_pay1
  rw [shapeCast_self]
  exact Cert.LibRowMin.ofBits_neg_inf

/-- The running normaliser starts at zero. -/
theorem pay2_apply (r : Fin 512) : k1_pay2 (F := Ideal) (ix2 r (0 : Fin 1)) = 0 := by
  unfold k1_pay2
  rw [shapeCast_self]
  exact ofBits_zero

/-- The running weighted sum starts at zero. -/
theorem pay3_apply (r : Fin 512) (d : Fin 1024) : k1_pay3 (F := Ideal) (ix2 r d) = 0 := by
  unfold k1_pay3
  rw [shapeCast_self]
  exact ofBits_zero

/-! ## The output -/

/-- The output at row r, feature d: the weighted sum divided by the normaliser of the row. -/
theorem pay13_apply (acc : Vec Ideal S512x1024 .f32) (l : Vec Ideal S512x1 .f32) (r : Fin 512) (d : Fin 1024) :
    k1_pay13 (F := Ideal) acc l (ix3 (0 : Fin 1) r d) = Ideal.div (acc (ix2 r d)) (l (ix2 r (0 : Fin 1))) := by
  unfold k1_pay13
  rw [shapeCast_ab_1ab_apply, divf_apply, Cert.LibColumns.broadcastTo_a1_ab_apply]

/-! ## The projections -/

/-- The projected queries at row r, feature e: the row of the input times the column of the weights. -/
theorem pay4_apply (x0 : Vec Ideal S1x512x1024 .f32) (wq : Vec Ideal S1024x1024 .bf16) (r : Fin 512) (e : Fin 1024) :
    k1_pay4 (F := Ideal) x0 wq (ix2 r e) = ∑ i : Fin 1024, x0 (ix3 (0 : Fin 1) r i) * wq (ix2 i e) := by
  unfold k1_pay4
  simp only [shapeCast_self]
  rw [truncf_apply, Cert.LibMatmulNN.matmul_nn_apply _ rfl rfl rfl rfl rfl rfl]
  refine Finset.sum_congr rfl fun i _ => ?_
  rw [truncf_apply, shapeCast_1ab_ab_apply]

/-- The input tile of the projection kernel, in the matrix unit's format, is the input tile. -/
theorem k0_pay1_apply (x : Vec Ideal S512x1024 .f32) (p : Fin 512) (i : Fin 1024) :
    k0_pay1 (F := Ideal) x (ix2 p i) = x (ix2 p i) := by
  unfold k0_pay1
  simp only [shapeCast_self]
  rw [truncf_apply]

/-- The projected keys at row p, feature e. -/
theorem k0_pay2_apply (x : Vec Ideal S512x1024 .f32) (w : Vec Ideal S1024x1024 .bf16) (p : Fin 512) (e : Fin 1024) :
    k0_pay2 (F := Ideal) x w (ix2 p e) = ∑ i : Fin 1024, x (ix2 p i) * w (ix2 i e) := by
  unfold k0_pay2
  simp only [shapeCast_self]
  rw [truncf_apply, Cert.LibMatmulNN.matmul_nn_apply _ rfl rfl rfl rfl rfl rfl]
  refine Finset.sum_congr rfl fun i _ => ?_
  rw [k0_pay1_apply]

/-- The projected values at row p, feature e. -/
theorem k0_pay3_apply (x : Vec Ideal S512x1024 .f32) (w : Vec Ideal S1024x1024 .bf16) (p : Fin 512) (e : Fin 1024) :
    k0_pay3 (F := Ideal) x w (ix2 p e) = ∑ i : Fin 1024, x (ix2 p i) * w (ix2 i e) := by
  unfold k0_pay3
  simp only [shapeCast_self]
  rw [truncf_apply, Cert.LibMatmulNN.matmul_nn_apply _ rfl rfl rfl rfl rfl rfl]
  refine Finset.sum_congr rfl fun i _ => ?_
  rw [k0_pay1_apply]

/-! ## The logits of a (query tile, key tile) pair -/

/-- The scale of the logits, 1/32 (the reciprocal square root of the 1024 features). -/
theorem ofBits_scale : Ideal.ofBits .f32 0x3D000000#32 = ((1 / 32 : ℝ) : EReal) := by
  simp [Ideal.ofBits, Ideal.ieee, -EReal.coe_mul]
  norm_num

/-- The logits of query row r against the keys of one tile: the scaled inner products. -/
def zOff (q : FVec Ideal S512x1024 .bf16) (kb : Vec Ideal S1x512x1024 .bf16) (r : Fin 512) : Fin 512 → EReal :=
  fun t => (∑ e : Fin 1024, q (ix2 r e) * kb (ix3 (0 : Fin 1) t e)) * Ideal.ofBits .f32 0x3D000000#32

/-- The kernel's logits at (r, t). -/
theorem pay6_apply (q : FVec Ideal S512x1024 .bf16) (kb : Vec Ideal S1x512x1024 .bf16) (r t : Fin 512) :
    k1_pay6 (F := Ideal) q kb (ix2 r t) = zOff q kb r t := by
  unfold k1_pay6 zOff
  rw [mulf_apply, broadcast_apply, Cert.LibMatmulNT.matmul_nt_apply _ rfl rfl rfl rfl rfl rfl]
  refine congrArg (· * _) (Finset.sum_congr rfl fun e _ => ?_)
  rw [shapeCast_1ab_ab_apply]

/-! ## One key tile's update of the running statistics -/

/-- An exponential at an index is the exponential of the element. -/
theorem exp_apply {s : Shape} {φ : FTy} (a : FVec Ideal s φ) (i : s.Idx) :
    Idealize.ShloMosaic.exp a i = Ideal.exp (a i) := rfl

/-- The row maxima of a tile of logits kept as a column and joined with the running maxima: at row r, the larger of the
    running maximum and the largest logit of the row. -/
theorem newMax_apply (z : FVec Ideal S512x512 .f32) (m : Vec Ideal S512x1 .f32) (r : Fin 512) :
    maximumf m (shapeCast S512x1 (multiReduction .maximumf [1] S512 z 0xFF800000#32 reduces_S512x512_S512 (.inl rfl) rfl)
        shapeCasts_S512_S512x1) (ix2 r (0 : Fin 1))
      = max (m (ix2 r (0 : Fin 1))) (Finset.univ.sup fun t : Fin 512 => z (ix2 r t)) := by
  rw [maximumf_apply, Cert.LibColumns.shapeCast_a_a1_apply]
  refine congrArg (max _) ?_
  refine (Cert.LibRowMax.multiReduction_max_rows_apply z _ _ _ _ r).trans ?_
  rw [Cert.LibRowMin.ofBits_neg_inf, Cert.LibRowMin.fold_max_bot]

/-- The row sums of a tile kept as a column: at row r, the sum over the row. -/
theorem rowSum_apply (p : FVec Ideal S512x512 .f32) (r : Fin 512) :
    shapeCast S512x1 (multiReduction .add [1] S512 p 0x00000000#32 reduces_S512x512_S512 (.inl rfl) rfl)
        shapeCasts_S512_S512x1 (ix2 r (0 : Fin 1))
      = ∑ t : Fin 512, p (ix2 r t) := by
  rw [Cert.LibColumns.shapeCast_a_a1_apply]
  exact Cert.LibColumns.multiReduction_add_rows_apply p _ _ _ _ r

/-- The value tile with its unit axis dropped. -/
theorem pay5_apply (vb : Vec Ideal S1x512x1024 .bf16) (t : Fin 512) (d : Fin 1024) :
    k1_pay5 (F := Ideal) vb (ix2 t d) = vb (ix3 (0 : Fin 1) t d) := by
  unfold k1_pay5
  rw [shapeCast_1ab_ab_apply]

section Unmasked

variable (q : FVec Ideal S512x1024 .bf16) (kb vb : Vec Ideal S1x512x1024 .bf16)
variable (m l : Vec Ideal S512x1 .f32) (acc : Vec Ideal S512x1024 .f32)

/-- The new running maximum of row r. -/
theorem pay7_apply (r : Fin 512) :
    k1_pay7 (F := Ideal) q kb m (ix2 r (0 : Fin 1)) = max (m (ix2 r (0 : Fin 1))) (Finset.univ.sup (zOff q kb r)) := by
  unfold k1_pay7
  refine (newMax_apply _ m r).trans ?_
  exact congrArg (max _) (congrArg _ (funext fun t => pay6_apply q kb r t))

/-- The factor that rescales the old statistics of row r to the new maximum. -/
theorem pay8_apply (r : Fin 512) :
    k1_pay8 (F := Ideal) q kb m (ix2 r (0 : Fin 1))
      = Ideal.exp (m (ix2 r (0 : Fin 1)) - max (m (ix2 r (0 : Fin 1))) (Finset.univ.sup (zOff q kb r))) := by
  unfold k1_pay8
  rw [exp_apply, subf_apply, pay7_apply]

/-- The tile's unnormalised weights: the exponentials of the logits relative to the new maximum. -/
theorem pay9_apply (r t : Fin 512) :
    k1_pay9 (F := Ideal) q kb m (ix2 r t)
      = Ideal.exp (zOff q kb r t - max (m (ix2 r (0 : Fin 1))) (Finset.univ.sup (zOff q kb r))) := by
  unfold k1_pay9
  rw [exp_apply, subf_apply, pay6_apply, Cert.LibColumns.broadcastTo_a1_ab_apply, pay7_apply]

/-- The stored running maximum is the first component of the online-softmax step. -/
theorem pay12_eq_step (r : Fin 512) (d : Fin 1024) :
    k1_pay12 (F := Ideal) q kb m (ix2 r (0 : Fin 1))
      = (stepSt (m (ix2 r (0 : Fin 1)), l (ix2 r (0 : Fin 1)), acc (ix2 r d)) (zOff q kb r)
          (fun t => vb (ix3 (0 : Fin 1) t d))).1 := by
  unfold k1_pay12
  rw [shapeCast_self, pay7_apply]
  rfl

/-- The stored running normaliser is the second component of the online-softmax step. -/
theorem pay10_eq_step (r : Fin 512) (d : Fin 1024) :
    k1_pay10 (F := Ideal) q kb m l (ix2 r (0 : Fin 1))
      = (stepSt (m (ix2 r (0 : Fin 1)), l (ix2 r (0 : Fin 1)), acc (ix2 r d)) (zOff q kb r)
          (fun t => vb (ix3 (0 : Fin 1) t d))).2.1 := by
  unfold k1_pay10
  rw [shapeCast_self, addf_apply, mulf_apply, pay8_apply, rowSum_apply]
  show _ = Ideal.exp _ * _ + ∑ t, Ideal.exp _
  refine congrArg (_ + ·) (Finset.sum_congr rfl fun t _ => ?_)
  rw [pay9_apply]

/-- The stored running weighted sum is the third component of the online-softmax step. -/
theorem pay11_eq_step (r : Fin 512) (d : Fin 1024) :
    k1_pay11 (F := Ideal) q kb vb m acc (ix2 r d)
      = (stepSt (m (ix2 r (0 : Fin 1)), l (ix2 r (0 : Fin 1)), acc (ix2 r d)) (zOff q kb r)
          (fun t => vb (ix3 (0 : Fin 1) t d))).2.2 := by
  unfold k1_pay11
  rw [shapeCast_self, addf_apply, mulf_apply, Cert.LibColumns.broadcastTo_a1_ab_apply, pay8_apply,
    Cert.LibMatmulNN.matmul_nn_apply _ rfl rfl rfl rfl rfl rfl]
  show _ = Ideal.exp _ * _ + ∑ t, Ideal.exp _ * _
  refine congrArg (_ + ·) (Finset.sum_congr rfl fun t _ => ?_)
  rw [truncf_apply, pay9_apply, pay5_apply]

/-- One unmasked key tile updates the running statistics of row r (at feature d) by one online-softmax step. -/
theorem unmasked_step (r : Fin 512) (d : Fin 1024) :
    (k1_pay12 (F := Ideal) q kb m (ix2 r (0 : Fin 1)), k1_pay10 (F := Ideal) q kb m l (ix2 r (0 : Fin 1)),
        k1_pay11 (F := Ideal) q kb vb m acc (ix2 r d))
      = stepSt (m (ix2 r (0 : Fin 1)), l (ix2 r (0 : Fin 1)), acc (ix2 r d)) (zOff q kb r)
          (fun t => vb (ix3 (0 : Fin 1) t d)) := by
  rw [pay12_eq_step q kb vb m l acc r d, pay10_eq_step q kb vb m l acc r d, pay11_eq_step q kb vb m l acc r d]

end Unmasked

/-! ## The diagonal tile: the causal mask -/

/-- A select on a condition that is a truth value. -/
theorem select_ofBool {α : Type} (b : Bool) (x y : α) :
    Scalar.select (BitVec.ofBool b) x y = if b then x else y := by
  cases b
  · exact select_zero x y
  · exact select_one x y

/-- The constant the kernel masks with denotes minus infinity. -/
theorem neg_big_eq : (Named.named κ "neg_big" (φ := .f32) 0xFF333332#32 : Ideal .f32) = ⊥ := rfl

/-- The causal condition as the kernel computes it on 32-bit words: key position t of key tile w3 is at or before
    query position r of query tile w1, the two global positions 512 · tile + offset compared as signed integers. -/
def causal (w1 w3 : BitVec 32) (r t : Fin 512) : Bool :=
  (w3 * 512#32 + BitVec.ofNat 32 t.val).sle (w1 * 512#32 + BitVec.ofNat 32 r.val)

/-- The kernel's condition vector at (r, t). -/
theorem cond_apply (w1 w3 : BitVec 32) (r t : Fin 512) :
    cmpi .sle (addi (broadcast S512x512 (Scalar.muli w3 512#32)) (iota .tc S512x512 32 [1] iota_S512x512_d1_w32))
        (addi (broadcast S512x512 (Scalar.muli w1 512#32)) (iota .tc S512x512 32 [0] iota_S512x512_d0_w32)) (ix2 r t)
      = BitVec.ofBool (causal w1 w3 r t) := by
  have h0 : iota .tc S512x512 32 [0] iota_S512x512_d0_w32 (ix2 r t) = BitVec.ofNat 32 r.val :=
    iota_single_apply .tc S512x512 32 0 iota_S512x512_d0_w32 (ix2 r t)
  have h1 : iota .tc S512x512 32 [1] iota_S512x512_d1_w32 (ix2 r t) = BitVec.ofNat 32 t.val :=
    iota_single_apply .tc S512x512 32 1 iota_S512x512_d1_w32 (ix2 r t)
  show BitVec.ofBool ((w3 * 512#32 + iota .tc S512x512 32 [1] iota_S512x512_d1_w32 (ix2 r t)).sle
      (w1 * 512#32 + iota .tc S512x512 32 [0] iota_S512x512_d0_w32 (ix2 r t))) = _
  rw [h0, h1]
  rfl

/-- The masked logits at (r, t): the logit where the causal condition holds, minus infinity elsewhere. -/
theorem pay14_apply (w1 w3 : BitVec 32) (s : FVec Ideal S512x512 .f32) (r t : Fin 512) :
    k1_pay14 (F := Ideal) w1 w3 s (ix2 r t) = if causal w1 w3 r t then s (ix2 r t) else ⊥ := by
  unfold k1_pay14
  rw [select_apply, cond_apply, broadcast_apply, neg_big_eq, select_ofBool]

/-- A global position below 2048, as a signed 32-bit word, is itself. -/
theorem toInt_pos (g : Nat) (hg : g < 4) (x : Fin 512) :
    (BitVec.ofNat 32 g * 512#32 + BitVec.ofNat 32 x.val).toInt = ((g * 512 + x.val : Nat) : Int) := by
  have hx := x.isLt
  have hn : (BitVec.ofNat 32 g * 512#32 + BitVec.ofNat 32 x.val).toNat = g * 512 + x.val := by
    simp only [BitVec.toNat_add, BitVec.toNat_mul, BitVec.toNat_ofNat, Nat.reducePow]
    omega
  rw [BitVec.toInt_eq_toNat_of_lt (by rw [hn]; omega), hn]

/-- On the diagonal tile (query tile = key tile = g, one of the four tiles) the causal condition is t ≤ r. -/
theorem causal_diag_iff (g : Nat) (hg : g < 4) (r t : Fin 512) :
    causal (BitVec.ofNat 32 g) (BitVec.ofNat 32 g) r t = true ↔ t.val ≤ r.val := by
  unfold causal
  rw [BitVec.sle_iff_toInt_le, toInt_pos g hg t, toInt_pos g hg r]
  omega

/-- The masked logits of the diagonal tile g at (r, t): the logit for t ≤ r, minus infinity above the diagonal. -/
theorem pay14_diag (g : Nat) (hg : g < 4) (s : FVec Ideal S512x512 .f32) (r t : Fin 512) :
    k1_pay14 (F := Ideal) (BitVec.ofNat 32 g) (BitVec.ofNat 32 g) s (ix2 r t)
      = if t.val ≤ r.val then s (ix2 r t) else ⊥ := by
  rw [pay14_apply]
  by_cases h : t.val ≤ r.val
  · rw [if_pos ((causal_diag_iff g hg r t).mpr h), if_pos h]
  · rw [if_neg (fun hc => h ((causal_diag_iff g hg r t).mp hc)), if_neg h]

section Masked

variable (w1 w3 : BitVec 32) (s : FVec Ideal S512x512 .f32) (vb : Vec Ideal S1x512x1024 .bf16)
variable (m l : Vec Ideal S512x1 .f32) (acc : Vec Ideal S512x1024 .f32)

/-- The new running maximum of row r on the diagonal tile. -/
theorem pay15_apply (r : Fin 512) :
    k1_pay15 (F := Ideal) w1 w3 s m (ix2 r (0 : Fin 1))
      = max (m (ix2 r (0 : Fin 1))) (Finset.univ.sup fun t : Fin 512 => k1_pay14 (F := Ideal) w1 w3 s (ix2 r t)) := by
  unfold k1_pay15
  exact newMax_apply _ m r

/-- The factor that rescales the old statistics of row r to the new maximum. -/
theorem pay16_apply (r : Fin 512) :
    k1_pay16 (F := Ideal) w1 w3 s m (ix2 r (0 : Fin 1))
      = Ideal.exp (m (ix2 r (0 : Fin 1))
          - max (m (ix2 r (0 : Fin 1))) (Finset.univ.sup fun t : Fin 512 => k1_pay14 (F := Ideal) w1 w3 s (ix2 r t))) := by
  unfold k1_pay16
  rw [exp_apply, subf_apply, pay15_apply]

/-- The diagonal tile's unnormalised weights: the exponentials of the masked logits relative to the new maximum. -/
theorem pay17_apply (r t : Fin 512) :
    k1_pay17 (F := Ideal) w1 w3 s m (ix2 r t)
      = Ideal.exp (k1_pay14 (F := Ideal) w1 w3 s (ix2 r t)
          - max (m (ix2 r (0 : Fin 1))) (Finset.univ.sup fun t : Fin 512 => k1_pay14 (F := Ideal) w1 w3 s (ix2 r t))) := by
  unfold k1_pay17
  rw [exp_apply, subf_apply, Cert.LibColumns.broadcastTo_a1_ab_apply, pay15_apply]

/-- The running maximum after the diagonal tile is the first component of the online-softmax step. -/
theorem pay20_eq_step (r : Fin 512) (d : Fin 1024) :
    k1_pay20 (F := Ideal) w1 w3 s m (ix2 r (0 : Fin 1))
      = (stepSt (m (ix2 r (0 : Fin 1)), l (ix2 r (0 : Fin 1)), acc (ix2 r d))
          (fun t : Fin 512 => k1_pay14 (F := Ideal) w1 w3 s (ix2 r t)) (fun t => vb (ix3 (0 : Fin 1) t d))).1 := by
  unfold k1_pay20
  rw [shapeCast_self, pay15_apply]
  rfl

/-- The running normaliser after the diagonal tile is the second component of the online-softmax step. -/
theorem pay18_eq_step (r : Fin 512) (d : Fin 1024) :
    k1_pay18 (F := Ideal) w1 w3 s m l (ix2 r (0 : Fin 1))
      = (stepSt (m (ix2 r (0 : Fin 1)), l (ix2 r (0 : Fin 1)), acc (ix2 r d))
          (fun t : Fin 512 => k1_pay14 (F := Ideal) w1 w3 s (ix2 r t)) (fun t => vb (ix3 (0 : Fin 1) t d))).2.1 := by
  unfold k1_pay18
  rw [shapeCast_self, addf_apply, mulf_apply, pay16_apply, rowSum_apply]
  show _ = Ideal.exp _ * _ + ∑ t, Ideal.exp _
  refine congrArg (_ + ·) (Finset.sum_congr rfl fun t _ => ?_)
  rw [pay17_apply]

/-- The running weighted sum after the diagonal tile is the third component of the online-softmax step. -/
theorem pay19_eq_step (r : Fin 512) (d : Fin 1024) :
    k1_pay19 (F := Ideal) w1 w3 (k1_pay5 (F := Ideal) vb) s m acc (ix2 r d)
      = (stepSt (m (ix2 r (0 : Fin 1)), l (ix2 r (0 : Fin 1)), acc (ix2 r d))
          (fun t : Fin 512 => k1_pay14 (F := Ideal) w1 w3 s (ix2 r t)) (fun t => vb (ix3 (0 : Fin 1) t d))).2.2 := by
  unfold k1_pay19
  rw [shapeCast_self, addf_apply, mulf_apply, Cert.LibColumns.broadcastTo_a1_ab_apply, pay16_apply,
    Cert.LibMatmulNN.matmul_nn_apply _ rfl rfl rfl rfl rfl rfl]
  show _ = Ideal.exp _ * _ + ∑ t, Ideal.exp _ * _
  refine congrArg (_ + ·) (Finset.sum_congr rfl fun t _ => ?_)
  rw [truncf_apply, pay17_apply, pay5_apply]

/-- The diagonal key tile updates the running statistics of row r (at feature d) by one online-softmax step over the
    masked logits. -/
theorem masked_step (r : Fin 512) (d : Fin 1024) :
    (k1_pay20 (F := Ideal) w1 w3 s m (ix2 r (0 : Fin 1)), k1_pay18 (F := Ideal) w1 w3 s m l (ix2 r (0 : Fin 1)),
        k1_pay19 (F := Ideal) w1 w3 (k1_pay5 (F := Ideal) vb) s m acc (ix2 r d))
      = stepSt (m (ix2 r (0 : Fin 1)), l (ix2 r (0 : Fin 1)), acc (ix2 r d))
          (fun t : Fin 512 => k1_pay14 (F := Ideal) w1 w3 s (ix2 r t)) (fun t => vb (ix3 (0 : Fin 1) t d)) := by
  rw [pay20_eq_step w1 w3 s vb m l acc r d, pay18_eq_step w1 w3 s vb m l acc r d, pay19_eq_step w1 w3 s vb m l acc r d]

end Masked

end Cert.KernelIdeal.Pay

end
-- ==== Proof.KiValue1.lean ====
/-
  The causal attention call's output array, whole, over the extended reals.

  The call walks 80 grid points: 8 batches of 10 steps, the ten steps of a batch enumerating the pairs (query tile g,
  key tile j) with j ≤ g < 4 row by row (tiles of 512 rows). Between points it carries the projected queries of the
  current query tile and, per query row, the running maximum, normaliser and weighted sum of value rows.

  Read here, under what the two schedule tables' contents decide (taken as hypotheses): each staged block as rows of its
  array; the carried state after every point — the queries are the input rows times the weights, Σ_i x(b, g·512 + r, i) ·
  w(i, e), and the running statistics of row r are the online-softmax recurrence run over the key tiles 0 … j of the row,
  with logits (Σ_e q(r, e) · k(b, j'·512 + t', e)) / 32 masked to −∞ where the key position lies after the query position;
  the block written back on the diagonal step — the weighted sum over the normaliser after the g + 1 key tiles of the
  row; and, since the diagonal steps' blocks tile the output, the whole output array entry by entry.
-/
import proofs.«121710_j11665131176114_2_alg».proof.Proof.KiR1Dat
import proofs.«121710_j11665131176114_2_alg».proof.Proof.KiPayloads
import proofs.«121710_j11665131176114_2_alg».proof.Proof.LibOnlineSoftmax
import proofs.«121710_j11665131176114_2_alg».proof.Proof.KiSched
import Idealize.ShloMosaic.Lib.Pipeline.Value
import Idealize.ShloMosaic.Lib.ValueIdx

set_option maxRecDepth 16384

noncomputable section

open scoped BigOperators

namespace Cert.KernelIdeal.Val1

open Cert.KernelIdeal Cert.KernelIdeal.Gen Idealize.ShloMosaic Idealize.ShloMosaic.TcCoe Idealize.ShloMosaic.ValueIdx
open Idealize.SL.Sem Cert.LibOnlineSoftmax
open Idealize.ShloMosaic.Pipeline (Dat)

/-! ## The schedule -/

/-- Over the ten steps of a batch: the query tile is one of four, the key tile is at or below it. -/
theorem sched_facts : ∀ s : Fin 10, qiOf s.val < 4 ∧ kiOf s.val ≤ qiOf s.val := by decide

theorem qiOf_lt (n : ℕ) : qiOf (n % 10) < 4 := (sched_facts ⟨n % 10, Nat.mod_lt _ (by decide)⟩).1
theorem kiOf_le (n : ℕ) : kiOf (n % 10) ≤ qiOf (n % 10) := (sched_facts ⟨n % 10, Nat.mod_lt _ (by decide)⟩).2
theorem kiOf_lt (n : ℕ) : kiOf (n % 10) < 4 := lt_of_le_of_lt (kiOf_le n) (qiOf_lt n)

/-- A step whose key tile is not the first follows, in the same batch, a step with the same query tile and the key
    tile before. -/
theorem sched_prev : ∀ s : Fin 10, kiOf s.val ≠ 0 →
    0 < s.val ∧ qiOf (s.val - 1) = qiOf s.val ∧ kiOf (s.val - 1) + 1 = kiOf s.val := by decide

/-- The diagonal step of query tile g is step g (g + 3) / 2: steps 0, 2, 5, 9. -/
theorem sched_diag : ∀ g : Fin 4, ∃ s : Fin 10, qiOf s.val = g.val ∧ kiOf s.val = g.val := by decide

/-! ## One grid point on the carried state, row by row

The arrays enter through what the point's blocks hold: Xr the query tile's input rows, Wq the weights, Kt and Vt the key
tile's key and value rows. -/

section Step

variable (w1 w3 : BitVec 32) (x0 : Vec Ideal S1x512x1024 .f32) (x1 : Vec Ideal S1024x1024 .bf16)
  (x2 x3 : Vec Ideal S1x512x1024 .bf16)
variable (Xr : Fin 512 → Fin 1024 → EReal) (Wq : Fin 1024 → Fin 1024 → EReal) (Kt Vt : Fin 512 → Fin 1024 → EReal)
variable (g j : ℕ) (zs : Fin 512 → ℕ → Fin 512 → EReal) (vs : Fin 1024 → ℕ → Fin 512 → EReal)

/-- The update of the running statistics by key tile j of query tile g, from a state that holds the projected queries
    and the recurrence run over the key tiles before j: the queries stay, the statistics take one more step — unmasked
    below the diagonal, where no key position lies after a query position; masked on the diagonal. -/
theorem upd_row (hg : g < 4) (hjg : j ≤ g) (hw1 : w1 = BitVec.ofNat 32 g) (hw3 : w3 = BitVec.ofNat 32 j)
    (hD : cDiag w1 w3 ↔ j = g) (hF : cOff w1 w3 ↔ j < g)
    (hx2 : ∀ t' e, x2 (ix3 (0 : Fin 1) t' e) = Kt t' e) (hx3 : ∀ t' d, x3 (ix3 (0 : Fin 1) t' d) = Vt t' d)
    (hzs : ∀ r t', zs r j t' = if g * 512 + r.val < j * 512 + t'.val then ⊥
      else (∑ e : Fin 1024, (∑ i : Fin 1024, Xr r i * Wq i e) * Kt t' e) * Ideal.ofBits .f32 0x3D000000#32)
    (hvs : ∀ d t', vs d j t' = Vt t' d)
    (s0 : St1 Ideal) (hq : ∀ r e, s0.1 (ix2 r e) = ∑ i : Fin 1024, Xr r i * Wq i e)
    (ht : ∀ r d, (s0.2.1 (ix2 r (0 : Fin 1)), s0.2.2.1 (ix2 r (0 : Fin 1)), s0.2.2.2 (ix2 r d)) = run (zs r) (vs d) j)
    (s1 : St1 Ideal)
    (hs1 : s1 = if cDiag w1 w3 then
        (s0.1, k1_pay20 w1 w3 (k1_pay6 s0.1 x2) s0.2.1, k1_pay18 w1 w3 (k1_pay6 s0.1 x2) s0.2.1 s0.2.2.1, k1_pay19 w1 w3 (k1_pay5 x3) (k1_pay6 s0.1 x2) s0.2.1 s0.2.2.2)
      else if cOff w1 w3 then
        (s0.1, k1_pay12 s0.1 x2 s0.2.1, k1_pay10 s0.1 x2 s0.2.1 s0.2.2.1, k1_pay11 s0.1 x2 x3 s0.2.1 s0.2.2.2)
      else s0) :
    (∀ r e, s1.1 (ix2 r e) = ∑ i : Fin 1024, Xr r i * Wq i e)
    ∧ ∀ r d, (s1.2.1 (ix2 r (0 : Fin 1)), s1.2.2.1 (ix2 r (0 : Fin 1)), s1.2.2.2 (ix2 r d)) = run (zs r) (vs d) (j + 1) := by
  have hv : ∀ d, (fun t' : Fin 512 => x3 (ix3 (0 : Fin 1) t' d)) = vs d j := fun d => funext fun t' => by
    rw [hvs d t', hx3 t' d]
  have hlogit : ∀ r t', Pay.zOff s0.1 x2 r t'
      = (∑ e : Fin 1024, (∑ i : Fin 1024, Xr r i * Wq i e) * Kt t' e) * Ideal.ofBits .f32 0x3D000000#32 := fun r t' => by
    unfold Pay.zOff
    refine congrArg (· * _) (Finset.sum_congr rfl fun e _ => ?_)
    rw [hq r e, hx2 t' e]
  rcases Nat.lt_or_eq_of_le hjg with hlt | heq
  · -- below the diagonal
    have hnD : ¬cDiag w1 w3 := fun h => absurd (hD.mp h) (Nat.ne_of_lt hlt)
    rw [if_neg hnD, if_pos (hF.mpr hlt)] at hs1
    subst hs1
    refine ⟨hq, fun r d => ?_⟩
    show (k1_pay12 (F := Ideal) s0.1 x2 s0.2.1 (ix2 r (0 : Fin 1)), k1_pay10 (F := Ideal) s0.1 x2 s0.2.1 s0.2.2.1 (ix2 r (0 : Fin 1)),
      k1_pay11 (F := Ideal) s0.1 x2 x3 s0.2.1 s0.2.2.2 (ix2 r d)) = _
    rw [run_succ, ← ht r d]
    refine (Pay.unmasked_step s0.1 x2 x3 s0.2.1 s0.2.2.1 s0.2.2.2 r d).trans ?_
    have hz : Pay.zOff s0.1 x2 r = zs r j := funext fun t' => by
      have := t'.isLt
      rw [hzs r t', if_neg (by omega), hlogit r t']
    rw [hz, hv d]
  · -- on the diagonal
    subst heq
    rw [if_pos (hD.mpr rfl)] at hs1
    subst hs1
    refine ⟨hq, fun r d => ?_⟩
    show (k1_pay20 (F := Ideal) w1 w3 (k1_pay6 s0.1 x2) s0.2.1 (ix2 r (0 : Fin 1)),
      k1_pay18 (F := Ideal) w1 w3 (k1_pay6 s0.1 x2) s0.2.1 s0.2.2.1 (ix2 r (0 : Fin 1)),
      k1_pay19 (F := Ideal) w1 w3 (k1_pay5 x3) (k1_pay6 s0.1 x2) s0.2.1 s0.2.2.2 (ix2 r d)) = _
    rw [run_succ, ← ht r d]
    refine (Pay.masked_step w1 w3 (k1_pay6 s0.1 x2) x3 s0.2.1 s0.2.2.1 s0.2.2.2 r d).trans ?_
    have hz : (fun t' : Fin 512 => k1_pay14 (F := Ideal) w1 w3 (k1_pay6 s0.1 x2) (ix2 r t')) = zs r j := funext fun t' => by
      rw [hw1, hw3, Pay.pay14_diag j hg, hzs r t', Pay.pay6_apply, hlogit r t']
      by_cases h : t'.val ≤ r.val
      · rw [if_pos h, if_neg (by omega)]
      · rw [if_neg h, if_pos (by omega)]
    rw [hz, hv d]

end Step

section Step1

variable (w1 w3 : BitVec 32) (x0 : Vec Ideal S1x512x1024 .f32) (x1 : Vec Ideal S1024x1024 .bf16)
  (x2 x3 : Vec Ideal S1x512x1024 .bf16)
variable (Xr : Fin 512 → Fin 1024 → EReal) (Wq : Fin 1024 → Fin 1024 → EReal) (Kt Vt : Fin 512 → Fin 1024 → EReal)
variable (g j : ℕ) (zs : Fin 512 → ℕ → Fin 512 → EReal) (vs : Fin 1024 → ℕ → Fin 512 → EReal)

/-- One grid point, key tile j of query tile g, on the carried state. On the first key tile of a row the state is
    started afresh: the queries are projected and the statistics are the recurrence's start (−∞, 0, 0), whatever the
    state held; on a later one the state is what the key tile before left. Either way the statistics then take the
    step of key tile j. -/
theorem step1_row (hg : g < 4) (hjg : j ≤ g) (hw1 : w1 = BitVec.ofNat 32 g) (hw3 : w3 = BitVec.ofNat 32 j)
    (hI : cInit w3 ↔ j = 0) (hD : cDiag w1 w3 ↔ j = g) (hF : cOff w1 w3 ↔ j < g)
    (hx0 : ∀ r i, x0 (ix3 (0 : Fin 1) r i) = Xr r i) (hx1 : ∀ i e, x1 (ix2 i e) = Wq i e)
    (hx2 : ∀ t' e, x2 (ix3 (0 : Fin 1) t' e) = Kt t' e) (hx3 : ∀ t' d, x3 (ix3 (0 : Fin 1) t' d) = Vt t' d)
    (hzs : ∀ r t', zs r j t' = if g * 512 + r.val < j * 512 + t'.val then ⊥
      else (∑ e : Fin 1024, (∑ i : Fin 1024, Xr r i * Wq i e) * Kt t' e) * Ideal.ofBits .f32 0x3D000000#32)
    (hvs : ∀ d t', vs d j t' = Vt t' d)
    (s : St1 Ideal)
    (hs : j ≠ 0 → (∀ r e, s.1 (ix2 r e) = ∑ i : Fin 1024, Xr r i * Wq i e)
      ∧ ∀ r d, (s.2.1 (ix2 r (0 : Fin 1)), s.2.2.1 (ix2 r (0 : Fin 1)), s.2.2.2 (ix2 r d)) = run (zs r) (vs d) j) :
    (∀ r e, (step1 w1 w3 x0 x1 x2 x3 s).1 (ix2 r e) = ∑ i : Fin 1024, Xr r i * Wq i e)
    ∧ ∀ r d, ((step1 w1 w3 x0 x1 x2 x3 s).2.1 (ix2 r (0 : Fin 1)), (step1 w1 w3 x0 x1 x2 x3 s).2.2.1 (ix2 r (0 : Fin 1)),
        (step1 w1 w3 x0 x1 x2 x3 s).2.2.2 (ix2 r d)) = run (zs r) (vs d) (j + 1) := by
  by_cases hj0 : j = 0
  · refine upd_row w1 w3 x2 x3 Xr Wq Kt Vt g j zs vs hg hjg hw1 hw3 hD hF hx2 hx3 hzs hvs
      (k1_pay4 x0 x1, k1_pay1 (F := Ideal), k1_pay2 (F := Ideal), k1_pay3 (F := Ideal)) ?_ ?_ _ ?_
    · intro r e
      show k1_pay4 (F := Ideal) x0 x1 (ix2 r e) = _
      rw [Pay.pay4_apply]
      refine Finset.sum_congr rfl fun i _ => ?_
      rw [hx0 r i, hx1 i e]
    · intro r d
      show (k1_pay1 (F := Ideal) (ix2 r (0 : Fin 1)), k1_pay2 (F := Ideal) (ix2 r (0 : Fin 1)), k1_pay3 (F := Ideal) (ix2 r d)) = _
      rw [Pay.pay1_apply, Pay.pay2_apply, Pay.pay3_apply, hj0]
      rfl
    · unfold step1
      simp only [if_pos (hI.mpr hj0)]
  · refine upd_row w1 w3 x2 x3 Xr Wq Kt Vt g j zs vs hg hjg hw1 hw3 hD hF hx2 hx3 hzs hvs s (hs hj0).1 (hs hj0).2 _ ?_
    unfold step1
    simp only [if_neg (fun h => hj0 (hI.mp h))]

end Step1
section Region1

-- the core's buffer contents when the call is entered, the tables' side condition, the core
variable (V : (c : Dev nD) → (b : Ref sig .tc) → Buf (Elt Ideal) ((c : Thread nD τ).loc b)) (hO : Ok1 V) (c : Dev nD)

/-- The call runs 80 grid points: 8 batches of 10 steps. -/
theorem N_eq : (cfgM1 V hO).N = 80 := N_1

/-- What the two tables' contents decide, point by point: the words the body loads are the step's query-tile and
    key-tile numbers; the three conditions it branches on; where the output block is written back; and each window's
    block index. -/
structure TblHyp : Prop where
  w : ∀ t : Fin (cfgM1 V hO).N, W1at V hO c t = BitVec.ofNat 32 (qiOf (t.val % 10)) ∧ W3at V hO c t = BitVec.ofNat 32 (kiOf (t.val % 10))
  k : ∀ t : Fin (cfgM1 V hO).N, (cInit (W3at V hO c t) ↔ kiOf (t.val % 10) = 0)
    ∧ (cDiag (W1at V hO c t) (W3at V hO c t) ↔ kiOf (t.val % 10) = qiOf (t.val % 10))
    ∧ (cOff (W1at V hO c t) (W3at V hO c t) ↔ kiOf (t.val % 10) < qiOf (t.val % 10))
  f : ∀ t : Fin (cfgM1 V hO).N, ((cfgM1 V hO).win 4).flush t = true ↔ kiOf (t.val % 10) = qiOf (t.val % 10)
  x : ∀ t : Fin (cfgM1 V hO).N, ((cfgM1 V hO).win 0).index t = ![t.val / 10, qiOf (t.val % 10), 0]
    ∧ ((cfgM1 V hO).win 4).index t = ![t.val / 10, qiOf (t.val % 10), 0]
    ∧ ((cfgM1 V hO).win 2).index t = ![t.val / 10, kiOf (t.val % 10), 0]
    ∧ ((cfgM1 V hO).win 3).index t = ![t.val / 10, kiOf (t.val % 10), 0]
    ∧ ((cfgM1 V hO).win 1).index t = ![0, 0]

/-- The four arrays the call reads: the input, the transposed query weights, the projected keys and values. -/
abbrev X : Vec Ideal S8x2048x1024 .f32 := V c main_arg0
abbrev WQ : Vec Ideal S1024x1024 .bf16 := V c main_v2
abbrev KA : Vec Ideal S8x2048x1024 .bf16 := V c main_v8
abbrev VA : Vec Ideal S8x2048x1024 .bf16 := V c main_v9

/-- The batch of a grid point is one of eight. -/
theorem batch_lt (t : Fin (cfgM1 V hO).N) : t.val / 10 < 8 := by
  have h : t.val < 80 := lt_of_lt_of_eq t.isLt (N_eq V hO)
  omega

/-- Row r of tile g (one of four) is a row of the 2048. -/
theorem tileRow_lt {g : ℕ} (hg : g < 4) (r : Fin 512) : g * 512 + r.val < 2048 := by
  have := r.isLt; omega

/-! ## The blocks the windows stage, as rows of the arrays -/

/-- The input window's block at a point holds the rows of the point's batch and query tile. -/
theorem iblk1_0_apply (hT : TblHyp V hO c) (t : Fin (cfgM1 V hO).N) (r : Fin 512) (i : Fin 1024) :
    (iblk1 V hO c 0 t : Vec Ideal S1x512x1024 .f32) (ix3 (0 : Fin 1) r i)
      = X V c (ix3 (⟨t.val / 10, batch_lt V hO t⟩ : Fin 8)
          (⟨qiOf (t.val % 10) * 512 + r.val, tileRow_lt (qiOf_lt t.val) r⟩ : Fin 2048) i) := by
  obtain ⟨e0, -⟩ := hT.x t
  unfold iblk1
  show (V c main_arg0 : Vec Ideal S8x2048x1024 .f32) ((((cfgM1 V hO).win 0).blk t).view.emb (ix3 (0 : Fin 1) r i)) = _
  refine congrArg (V c main_arg0 : Vec Ideal S8x2048x1024 .f32) (funext fun a => Fin.ext ?_)
  match a with
  | ⟨0, _⟩ => show ((cfgM1 V hO).win 0).index t (0 : Fin 3) * 1 + 1 * 0 = t.val / 10; rw [e0]; simp
  | ⟨1, _⟩ => show ((cfgM1 V hO).win 0).index t (1 : Fin 3) * 512 + 1 * r.val = qiOf (t.val % 10) * 512 + r.val; rw [e0]; simp
  | ⟨2, _⟩ => show ((cfgM1 V hO).win 0).index t (2 : Fin 3) * 1024 + 1 * i.val = i.val; rw [e0]; simp

/-- The weight window's block is the whole matrix. -/
theorem iblk1_1_apply (hT : TblHyp V hO c) (t : Fin (cfgM1 V hO).N) (i e : Fin 1024) :
    (iblk1 V hO c 1 t : Vec Ideal S1024x1024 .bf16) (ix2 i e) = WQ V c (ix2 i e) := by
  obtain ⟨-, -, -, -, e1⟩ := hT.x t
  unfold iblk1
  show (V c main_v2 : Vec Ideal S1024x1024 .bf16) ((((cfgM1 V hO).win 1).blk t).view.emb (ix2 i e)) = _
  refine congrArg (V c main_v2 : Vec Ideal S1024x1024 .bf16) (funext fun a => Fin.ext ?_)
  match a with
  | ⟨0, _⟩ => show ((cfgM1 V hO).win 1).index t (0 : Fin 2) * 1024 + 1 * i.val = i.val; rw [e1]; simp
  | ⟨1, _⟩ => show ((cfgM1 V hO).win 1).index t (1 : Fin 2) * 1024 + 1 * e.val = e.val; rw [e1]; simp

/-- The key window's block at a point holds the key rows of the point's batch and key tile. -/
theorem iblk1_2_apply (hT : TblHyp V hO c) (t : Fin (cfgM1 V hO).N) (t' : Fin 512) (e : Fin 1024) :
    (iblk1 V hO c 2 t : Vec Ideal S1x512x1024 .bf16) (ix3 (0 : Fin 1) t' e)
      = KA V c (ix3 (⟨t.val / 10, batch_lt V hO t⟩ : Fin 8)
          (⟨kiOf (t.val % 10) * 512 + t'.val, tileRow_lt (kiOf_lt t.val) t'⟩ : Fin 2048) e) := by
  obtain ⟨-, -, e2, -⟩ := hT.x t
  unfold iblk1
  show (V c main_v8 : Vec Ideal S8x2048x1024 .bf16) ((((cfgM1 V hO).win 2).blk t).view.emb (ix3 (0 : Fin 1) t' e)) = _
  refine congrArg (V c main_v8 : Vec Ideal S8x2048x1024 .bf16) (funext fun a => Fin.ext ?_)
  match a with
  | ⟨0, _⟩ => show ((cfgM1 V hO).win 2).index t (0 : Fin 3) * 1 + 1 * 0 = t.val / 10; rw [e2]; simp
  | ⟨1, _⟩ => show ((cfgM1 V hO).win 2).index t (1 : Fin 3) * 512 + 1 * t'.val = kiOf (t.val % 10) * 512 + t'.val; rw [e2]; simp
  | ⟨2, _⟩ => show ((cfgM1 V hO).win 2).index t (2 : Fin 3) * 1024 + 1 * e.val = e.val; rw [e2]; simp

/-- The value window's block at a point holds the value rows of the point's batch and key tile. -/
theorem iblk1_3_apply (hT : TblHyp V hO c) (t : Fin (cfgM1 V hO).N) (t' : Fin 512) (e : Fin 1024) :
    (iblk1 V hO c 3 t : Vec Ideal S1x512x1024 .bf16) (ix3 (0 : Fin 1) t' e)
      = VA V c (ix3 (⟨t.val / 10, batch_lt V hO t⟩ : Fin 8)
          (⟨kiOf (t.val % 10) * 512 + t'.val, tileRow_lt (kiOf_lt t.val) t'⟩ : Fin 2048) e) := by
  obtain ⟨-, -, -, e3, -⟩ := hT.x t
  unfold iblk1
  show (V c main_v9 : Vec Ideal S8x2048x1024 .bf16) ((((cfgM1 V hO).win 3).blk t).view.emb (ix3 (0 : Fin 1) t' e)) = _
  refine congrArg (V c main_v9 : Vec Ideal S8x2048x1024 .bf16) (funext fun a => Fin.ext ?_)
  match a with
  | ⟨0, _⟩ => show ((cfgM1 V hO).win 3).index t (0 : Fin 3) * 1 + 1 * 0 = t.val / 10; rw [e3]; simp
  | ⟨1, _⟩ => show ((cfgM1 V hO).win 3).index t (1 : Fin 3) * 512 + 1 * t'.val = kiOf (t.val % 10) * 512 + t'.val; rw [e3]; simp
  | ⟨2, _⟩ => show ((cfgM1 V hO).win 3).index t (2 : Fin 3) * 1024 + 1 * e.val = e.val; rw [e3]; simp

/-! ## The carried state after every point -/

/-- Row r of tile g, one of the 2048 rows. -/
abbrev rowOf (g : Fin 4) (r : Fin 512) : Fin 2048 := ⟨g.val * 512 + r.val, tileRow_lt g.isLt r⟩

/-- The logits of query row r of query tile g, batch b, against key tile j' (one of four; minus infinity past them):
    the scaled inner product of the projected query with the key row, minus infinity where the key position lies after
    the query position. -/
def zsK (b : Fin 8) (g : Fin 4) (r : Fin 512) : ℕ → Fin 512 → EReal := fun j' t' =>
  if h : j' < 4 then
    (if g.val * 512 + r.val < j' * 512 + t'.val then ⊥
      else (∑ e : Fin 1024, (∑ i : Fin 1024, X V c (ix3 b (rowOf g r) i) * WQ V c (ix2 i e))
          * KA V c (ix3 b (⟨j' * 512 + t'.val, tileRow_lt h t'⟩ : Fin 2048) e)) * Ideal.ofBits .f32 0x3D000000#32)
  else ⊥

/-- Feature d of the value rows of key tile j' (one of four; zero past them), batch b. -/
def vsK (b : Fin 8) (d : Fin 1024) : ℕ → Fin 512 → EReal := fun j' t' =>
  if h : j' < 4 then VA V c (ix3 b (⟨j' * 512 + t'.val, tileRow_lt h t'⟩ : Fin 2048) d) else 0

/-- One point: from the state the point before left (asked only where the key tile is not the first of its row) to the
    state after the point. -/
theorem stAt_step (hT : TblHyp V hO c) (n : ℕ) (h : n + 1 ≤ (cfgM1 V hO).N) (b : Fin 8) (g : Fin 4) (j : ℕ)
    (hb : b.val = n / 10) (hg : g.val = qiOf (n % 10)) (hj : j = kiOf (n % 10))
    (hs : j ≠ 0 →
      (∀ r e, (stAt V hO c n (Nat.le_of_succ_le h)).1 (ix2 r e) = ∑ i : Fin 1024, X V c (ix3 b (rowOf g r) i) * WQ V c (ix2 i e))
      ∧ ∀ r d, ((stAt V hO c n (Nat.le_of_succ_le h)).2.1 (ix2 r (0 : Fin 1)), (stAt V hO c n (Nat.le_of_succ_le h)).2.2.1 (ix2 r (0 : Fin 1)),
          (stAt V hO c n (Nat.le_of_succ_le h)).2.2.2 (ix2 r d)) = run (zsK V c b g r) (vsK V c b d) j) :
    (∀ r e, (stAt V hO c (n + 1) h).1 (ix2 r e) = ∑ i : Fin 1024, X V c (ix3 b (rowOf g r) i) * WQ V c (ix2 i e))
    ∧ ∀ r d, ((stAt V hO c (n + 1) h).2.1 (ix2 r (0 : Fin 1)), (stAt V hO c (n + 1) h).2.2.1 (ix2 r (0 : Fin 1)),
        (stAt V hO c (n + 1) h).2.2.2 (ix2 r d)) = run (zsK V c b g r) (vsK V c b d) (j + 1) := by
  obtain rfl : b = ⟨n / 10, batch_lt V hO ⟨n, h⟩⟩ := Fin.ext hb
  obtain rfl : g = ⟨qiOf (n % 10), qiOf_lt n⟩ := Fin.ext hg
  subst hj
  have hj4 : kiOf (n % 10) < 4 := kiOf_lt n
  obtain ⟨hw1, hw3⟩ := hT.w ⟨n, h⟩
  obtain ⟨hI, hD, hF⟩ := hT.k ⟨n, h⟩
  have e : stAt V hO c (n + 1) h = step1 (W1at V hO c ⟨n, h⟩) (W3at V hO c ⟨n, h⟩) (iblk1 V hO c 0 ⟨n, h⟩)
      (iblk1 V hO c 1 ⟨n, h⟩) (iblk1 V hO c 2 ⟨n, h⟩) (iblk1 V hO c 3 ⟨n, h⟩) (stAt V hO c n (Nat.le_of_succ_le h)) := rfl
  rw [e]
  exact step1_row (W1at V hO c ⟨n, h⟩) (W3at V hO c ⟨n, h⟩) (iblk1 V hO c 0 ⟨n, h⟩)
    (iblk1 V hO c 1 ⟨n, h⟩) (iblk1 V hO c 2 ⟨n, h⟩) (iblk1 V hO c 3 ⟨n, h⟩)
    (fun r i => X V c (ix3 (⟨n / 10, batch_lt V hO ⟨n, h⟩⟩ : Fin 8) (rowOf ⟨qiOf (n % 10), qiOf_lt n⟩ r) i))
    (fun i e => WQ V c (ix2 i e))
    (fun t' e => KA V c (ix3 (⟨n / 10, batch_lt V hO ⟨n, h⟩⟩ : Fin 8) (⟨kiOf (n % 10) * 512 + t'.val, tileRow_lt hj4 t'⟩ : Fin 2048) e))
    (fun t' d => VA V c (ix3 (⟨n / 10, batch_lt V hO ⟨n, h⟩⟩ : Fin 8) (⟨kiOf (n % 10) * 512 + t'.val, tileRow_lt hj4 t'⟩ : Fin 2048) d))
    (qiOf (n % 10)) (kiOf (n % 10))
    (zsK V c ⟨n / 10, batch_lt V hO ⟨n, h⟩⟩ ⟨qiOf (n % 10), qiOf_lt n⟩) (vsK V c ⟨n / 10, batch_lt V hO ⟨n, h⟩⟩)
    (qiOf_lt n) (kiOf_le n) hw1 hw3 hI hD hF
    (fun r i => iblk1_0_apply V hO c hT ⟨n, h⟩ r i) (fun i e => iblk1_1_apply V hO c hT ⟨n, h⟩ i e)
    (fun t' e => iblk1_2_apply V hO c hT ⟨n, h⟩ t' e) (fun t' d => iblk1_3_apply V hO c hT ⟨n, h⟩ t' d)
    (fun r t' => by show (if h : kiOf (n % 10) < 4 then _ else _) = _; rw [dif_pos hj4])
    (fun d t' => by show (if h : kiOf (n % 10) < 4 then _ else _) = _; rw [dif_pos hj4])
    (stAt V hO c n (Nat.le_of_succ_le h)) hs

/-- THE CARRIED STATE after point n, batch b, query tile g, key tile j: the projected queries of the tile's rows, and
    per row the recurrence run over the key tiles 0 … j. A step whose key tile is the first starts the state afresh;
    a later step continues the step before it, which has the same query tile and the key tile before. -/
theorem stAt_inv (hT : TblHyp V hO c) : ∀ (n : ℕ) (h : n + 1 ≤ (cfgM1 V hO).N) (b : Fin 8) (g : Fin 4) (j : ℕ),
    b.val = n / 10 → g.val = qiOf (n % 10) → j = kiOf (n % 10) →
    (∀ r e, (stAt V hO c (n + 1) h).1 (ix2 r e) = ∑ i : Fin 1024, X V c (ix3 b (rowOf g r) i) * WQ V c (ix2 i e))
    ∧ ∀ r d, ((stAt V hO c (n + 1) h).2.1 (ix2 r (0 : Fin 1)), (stAt V hO c (n + 1) h).2.2.1 (ix2 r (0 : Fin 1)),
        (stAt V hO c (n + 1) h).2.2.2 (ix2 r d)) = run (zsK V c b g r) (vsK V c b d) (j + 1) := by
  intro n
  induction n with
  | zero =>
    intro h b g j hb hg hj
    exact stAt_step V hO c hT 0 h b g j hb hg hj (fun hj0 => absurd (hj.trans (by decide)) hj0)
  | succ m ih =>
    intro h b g j hb hg hj
    refine stAt_step V hO c hT (m + 1) h b g j hb hg hj (fun hj0 => ?_)
    obtain ⟨hpos, hq, hk⟩ : 0 < (m + 1) % 10 ∧ qiOf ((m + 1) % 10 - 1) = qiOf ((m + 1) % 10)
        ∧ kiOf ((m + 1) % 10 - 1) + 1 = kiOf ((m + 1) % 10) :=
      sched_prev ⟨(m + 1) % 10, Nat.mod_lt _ (by decide)⟩ (by rw [← hj]; exact hj0)
    have hm : m % 10 = (m + 1) % 10 - 1 := by omega
    have hd : m / 10 = (m + 1) / 10 := by omega
    have hprev := ih (Nat.le_of_succ_le h) b g (j - 1) (by rw [hb, hd]) (by rw [hg, hm, hq]) (by rw [hm]; omega)
    rwa [Nat.sub_add_cancel (Nat.pos_of_ne_zero hj0)] at hprev

/-- The projected queries after point t: the rows of the point's batch and query tile times the weights. -/
theorem stAt_queries (hT : TblHyp V hO c) (t : Fin (cfgM1 V hO).N) (r : Fin 512) (e : Fin 1024) :
    (stAt V hO c (t.val + 1) t.isLt).1 (ix2 r e)
      = ∑ i : Fin 1024, X V c (ix3 (⟨t.val / 10, batch_lt V hO t⟩ : Fin 8)
          (rowOf ⟨qiOf (t.val % 10), qiOf_lt t.val⟩ r) i) * WQ V c (ix2 i e) :=
  (stAt_inv V hO c hT t.val t.isLt ⟨t.val / 10, batch_lt V hO t⟩ ⟨qiOf (t.val % 10), qiOf_lt t.val⟩ (kiOf (t.val % 10))
    rfl rfl rfl).1 r e

/-- The running statistics of row r (at feature d) after point t: the recurrence run over the key tiles up to the
    point's. -/
theorem stAt_stats (hT : TblHyp V hO c) (t : Fin (cfgM1 V hO).N) (r : Fin 512) (d : Fin 1024) :
    ((stAt V hO c (t.val + 1) t.isLt).2.1 (ix2 r (0 : Fin 1)), (stAt V hO c (t.val + 1) t.isLt).2.2.1 (ix2 r (0 : Fin 1)),
        (stAt V hO c (t.val + 1) t.isLt).2.2.2 (ix2 r d))
      = run (zsK V c ⟨t.val / 10, batch_lt V hO t⟩ ⟨qiOf (t.val % 10), qiOf_lt t.val⟩ r)
          (vsK V c ⟨t.val / 10, batch_lt V hO t⟩ d) (kiOf (t.val % 10) + 1) :=
  (stAt_inv V hO c hT t.val t.isLt ⟨t.val / 10, batch_lt V hO t⟩ ⟨qiOf (t.val % 10), qiOf_lt t.val⟩ (kiOf (t.val % 10))
    rfl rfl rfl).2 r d

/-! ## The block written back -/

/-- On a diagonal step the output block holds, at row r and feature d, the weighted sum over the normaliser after the
    g + 1 key tiles of the row. -/
theorem after4_apply (hT : TblHyp V hO c) (t : Fin (cfgM1 V hO).N) (b : Fin 8) (g : Fin 4)
    (hb : b.val = t.val / 10) (hg : g.val = qiOf (t.val % 10)) (hd : kiOf (t.val % 10) = qiOf (t.val % 10))
    (r : Fin 512) (d : Fin 1024) :
    ((dat1 V hO c).after 4 t : Vec Ideal S1x512x1024 .f32) (ix3 (0 : Fin 1) r d)
      = Ideal.div (run (zsK V c b g r) (vsK V c b d) (g.val + 1)).2.2 (run (zsK V c b g r) (vsK V c b d) (g.val + 1)).2.1 := by
  refine (congrFun (after1_4 V hO c t) (ix3 (0 : Fin 1) r d)).trans ?_
  refine (Pay.pay13_apply (stAt V hO c (t.val + 1) t.isLt).2.2.2 (stAt V hO c (t.val + 1) t.isLt).2.2.1 r d).trans ?_
  obtain ⟨-, h2⟩ := stAt_inv V hO c hT t.val t.isLt b g g.val hb hg (by rw [hg, hd])
  have h3 := h2 r d
  rw [← h3]

/-! ## The whole output array -/

/-- The tile of a row is one of four. -/
theorem tileOf_lt (R : Fin 2048) : R.val / 512 < 4 := by
  have := R.isLt; omega

/-- The attention output at batch b, row R, feature d: the weighted sum over the normaliser after the key tiles
    0 … R / 512 of the row's recurrence. -/
def outAt (b : Fin 8) (R : Fin 2048) (d : Fin 1024) : EReal :=
  Ideal.div
    (run (zsK V c b ⟨R.val / 512, tileOf_lt R⟩ ⟨R.val % 512, Nat.mod_lt _ (by decide)⟩) (vsK V c b d) (R.val / 512 + 1)).2.2
    (run (zsK V c b ⟨R.val / 512, tileOf_lt R⟩ ⟨R.val % 512, Nat.mod_lt _ (by decide)⟩) (vsK V c b d) (R.val / 512 + 1)).2.1

/-- The same at row r of tile g. -/
theorem outAt_eq (b : Fin 8) (R : Fin 2048) (d : Fin 1024) (g : Fin 4) (r : Fin 512) (hR : R.val = g.val * 512 + r.val) :
    outAt V c b R d
      = Ideal.div (run (zsK V c b g r) (vsK V c b d) (g.val + 1)).2.2 (run (zsK V c b g r) (vsK V c b d) (g.val + 1)).2.1 := by
  have hr := r.isLt
  have e3 : R.val / 512 = g.val := by omega
  have e1 : (⟨R.val / 512, tileOf_lt R⟩ : Fin 4) = g := Fin.ext e3
  have e2 : (⟨R.val % 512, Nat.mod_lt _ (by decide)⟩ : Fin 512) = r := Fin.ext (by show R.val % 512 = r.val; omega)
  unfold outAt
  rw [e1, e2, e3]

/-- The output array: entry (b, R, d) is the attention output there. -/
def outK : Vec Ideal S8x2048x1024 .f32 := fun jdx =>
  outAt V c (⟨(jdx 0).val, (jdx 0).isLt⟩ : Fin 8) (⟨(jdx 1).val, (jdx 1).isLt⟩ : Fin 2048) (⟨(jdx 2).val, (jdx 2).isLt⟩ : Fin 1024)

/-- An entry of the output array, by the batch, tile, row in the tile and feature of its index. -/
theorem outK_apply (jdx : S8x2048x1024.Idx) (b : Fin 8) (g : Fin 4) (r : Fin 512) (d : Fin 1024)
    (h0 : (jdx 0).val = b.val) (h1 : (jdx 1).val = g.val * 512 + r.val) (h2 : (jdx 2).val = d.val) :
    outK V c jdx
      = Ideal.div (run (zsK V c b g r) (vsK V c b d) (g.val + 1)).2.2 (run (zsK V c b g r) (vsK V c b d) (g.val + 1)).2.1 := by
  have eb : (⟨(jdx 0).val, (jdx 0).isLt⟩ : Fin 8) = b := Fin.ext h0
  have ed : (⟨(jdx 2).val, (jdx 2).isLt⟩ : Fin 1024) = d := Fin.ext h2
  unfold outK
  rw [eb, ed]
  exact outAt_eq V c b ⟨(jdx 1).val, (jdx 1).isLt⟩ d g r h1

/-- What a diagonal step writes back is its block of the output array. -/
theorem flushed4_eq (hT : TblHyp V hO c) (t : Fin (cfgM1 V hO).N) (hf : ((cfgM1 V hO).win 4).flush t = true) :
    (dat1 V hO c).flushed 4 t = (((cfgM1 V hO).win 4).blk t).view.read (Elt Ideal) (outK V c) := by
  have hd := (hT.f t).mp hf
  obtain ⟨-, e4, -⟩ := hT.x t
  show ((cfgM1 V hO).win 4).cut ((cfgM1 V hO).grid.coords t) ((dat1 V hO c).after 4 t) = _
  refine funext fun (y : S1x512x1024.Idx) => ?_
  obtain ⟨z, r, d, rfl⟩ : ∃ (z : Fin 1) (r : Fin 512) (d : Fin 1024), y = ix3 z r d :=
    ⟨y 0, y 1, y 2, eq_ix3 (n0 := 1) (n1 := 512) (n2 := 1024) y⟩
  obtain rfl : z = 0 := Subsingleton.elim _ _
  show ((dat1 V hO c).after 4 t : Vec Ideal S1x512x1024 .f32) (ix3 (0 : Fin 1) r d)
    = outK V c ((((cfgM1 V hO).win 4).blk t).view.emb (ix3 (0 : Fin 1) r d))
  refine (after4_apply V hO c hT t ⟨t.val / 10, batch_lt V hO t⟩ ⟨qiOf (t.val % 10), qiOf_lt t.val⟩ rfl rfl hd r d).trans ?_
  refine (outK_apply V c _ ⟨t.val / 10, batch_lt V hO t⟩ ⟨qiOf (t.val % 10), qiOf_lt t.val⟩ r d ?_ ?_ ?_).symm
  · show ((cfgM1 V hO).win 4).index t (0 : Fin 3) * 1 + 1 * 0 = t.val / 10
    rw [e4]; simp
  · show ((cfgM1 V hO).win 4).index t (1 : Fin 3) * 512 + 1 * r.val = qiOf (t.val % 10) * 512 + r.val
    rw [e4]; simp
  · show ((cfgM1 V hO).win 4).index t (2 : Fin 3) * 1024 + 1 * d.val = d.val
    rw [e4]; simp

/-- An index of the array is in a point's output block iff each coordinate is in the block's range on its axis. -/
theorem mem_blk4 (t : Fin (cfgM1 V hO).N) (i : S8x2048x1024.Idx) :
    i ∈ (((cfgM1 V hO).win 4).blk t).view.set ↔ ∀ a : Fin 3,
      ((cfgM1 V hO).win 4).index t a * S1x512x1024.size a ≤ (i a).val
        ∧ (i a).val < ((cfgM1 V hO).win 4).index t a * S1x512x1024.size a + S1x512x1024.size a := by
  refine (Iff.of_eq (congrArg (fun S => i ∈ S) (View.set_slice_whole main_v10 (((cfgM1 V hO).win 4).rect t)))).trans ?_
  exact Rect.mem_set_unit

/-- Every entry of the output is in the block some diagonal step writes back: entry (b, R, d) in that of batch b's
    diagonal step of tile R / 512. -/
theorem cover4 (hT : TblHyp V hO c) (i : S8x2048x1024.Idx) :
    ∃ t : Fin (cfgM1 V hO).N, ((cfgM1 V hO).win 4).flush t = true ∧ i ∈ (((cfgM1 V hO).win 4).blk t).view.set := by
  have h0 : (i 0).val < 8 := (i 0).isLt
  have h1 : (i 1).val < 2048 := (i 1).isLt
  have h2 : (i 2).val < 1024 := (i 2).isLt
  obtain ⟨s, hsq, hsk⟩ : ∃ s : Fin 10, qiOf s.val = (i 1).val / 512 ∧ kiOf s.val = (i 1).val / 512 :=
    sched_diag ⟨(i 1).val / 512, by omega⟩
  have hs10 : s.val < 10 := s.isLt
  obtain ⟨t, ht⟩ : ∃ t : Fin (cfgM1 V hO).N, t.val = (i 0).val * 10 + s.val :=
    ⟨⟨(i 0).val * 10 + s.val, by rw [N_eq V hO]; omega⟩, rfl⟩
  have hmod : t.val % 10 = s.val := by omega
  have hdiv : t.val / 10 = (i 0).val := by omega
  refine ⟨t, (hT.f t).mpr (by rw [hmod, hsq, hsk]), ?_⟩
  obtain ⟨-, e4, -⟩ := hT.x t
  have e40 : ((cfgM1 V hO).win 4).index t (0 : Fin 3) = t.val / 10 := by rw [e4]; rfl
  have e41 : ((cfgM1 V hO).win 4).index t (1 : Fin 3) = qiOf (t.val % 10) := by rw [e4]; rfl
  have e42 : ((cfgM1 V hO).win 4).index t (2 : Fin 3) = 0 := by rw [e4]; rfl
  rw [mem_blk4]
  intro a
  match a with
  | ⟨0, _⟩ =>
    show ((cfgM1 V hO).win 4).index t (0 : Fin 3) * 1 ≤ (i 0).val ∧ (i 0).val < ((cfgM1 V hO).win 4).index t (0 : Fin 3) * 1 + 1
    rw [e40]; omega
  | ⟨1, _⟩ =>
    show ((cfgM1 V hO).win 4).index t (1 : Fin 3) * 512 ≤ (i 1).val ∧ (i 1).val < ((cfgM1 V hO).win 4).index t (1 : Fin 3) * 512 + 512
    rw [e41, hmod, hsq]; omega
  | ⟨2, _⟩ =>
    show ((cfgM1 V hO).win 4).index t (2 : Fin 3) * 1024 ≤ (i 2).val ∧ (i 2).val < ((cfgM1 V hO).win 4).index t (2 : Fin 3) * 1024 + 1024
    rw [e42]; omega

/-- THE OUTPUT ARRAY after the call: the attention output, entry by entry. -/
theorem final4 (hT : TblHyp V hO c) : (dat1 V hO c).arrAt 4 (cfgM1 V hO).N = outK V c :=
  (dat1 V hO c).arrAt_eq_of_cover 4 (outK V c) (fun t hf => flushed4_eq V hO c hT t hf) (cover4 V hO c hT)

/-- The same at one entry. -/
theorem final4_apply (hT : TblHyp V hO c) (b : Fin 8) (R : Fin 2048) (d : Fin 1024) :
    ((dat1 V hO c).arrAt 4 (cfgM1 V hO).N : Vec Ideal S8x2048x1024 .f32) (ix3 b R d) = outAt V c b R d := by
  rw [final4 V hO c hT]
  rfl

end Region1

end Cert.KernelIdeal.Val1

end
-- ==== Proof.KiValue0.lean ====
/-
  The first kernel call's two output arrays, whole.

  The call walks the 32 blocks of 512 rows of the flattened input. At block t it multiplies the block's rows by each of
  the two transposed weight matrices (held whole) and writes each product back as block t of an output array. The 32
  blocks tile the 16384 rows, so after the call each output array is, entry by entry, the row of the flattened input
  times the column of the weight matrix: Σ_i x(j₀, i) · w(i, j₁).
-/
import proofs.«121710_j11665131176114_2_alg».proof.Proof.KiRegion0
import proofs.«121710_j11665131176114_2_alg».proof.Proof.KiPayloads
import Idealize.ShloMosaic.Lib.Pipeline.Value

set_option maxRecDepth 16384

noncomputable section

open scoped BigOperators

namespace Cert.KernelIdeal.Val0

open Cert.KernelIdeal Cert.KernelIdeal.Gen Idealize.ShloMosaic Idealize.ShloMosaic.TcCoe Idealize.ShloMosaic.ValueIdx
open Idealize.SL.Sem
open Idealize.ShloMosaic.Pipeline (Dat)

-- the core's buffer contents when the call is entered
variable (V : (c : Dev nD) → (b : Ref sig .tc) → Buf (Elt Ideal) ((c : Thread nD τ).loc b))

/-- Offsets that are all zero. -/
theorem hz : (![0, 0] : Fin 2 → Nat) = fun _ => 0 := funext fun a => by fin_cases a <;> rfl

/-- The rows of a [16384, 1024] array times a [1024, 1024] matrix, entry by entry. -/
def proj (x : Vec Ideal S16384x1024 .f32) (w : Vec Ideal S1024x1024 .bf16) : S16384x1024.Idx → EReal :=
  fun j => ∑ i : Fin 1024, x (ix2 (⟨(j 0).val, idx2_lt0 j⟩ : Fin 16384) i) * w (ix2 i (⟨(j 1).val, idx2_lt1 j⟩ : Fin 1024))

/-- The printed index maps over the grid: the input's block and both outputs' blocks at point t are block t of rows;
    the weight matrices are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A grid point is one of 32. -/
theorem point_lt (t : Fin cfg0.N) : t.val < 32 := lt_of_lt_of_eq t.isLt N_0

/-- Row p of block t is a row of the array. -/
theorem blockRow_lt (t : Fin cfg0.N) (p : Fin 512) : t.val * 512 + p.val < 16384 := by
  have := point_lt t; have := p.isLt; omega

/-- One entry of a block's product is the entry of the whole product at the block's row: the block's rows are rows r of
    the array, and the block's matrix is the matrix. -/
theorem pay2_block (x0 : Vec Ideal S512x1024 .f32) (w0 w : Vec Ideal S1024x1024 .bf16) (X : Vec Ideal S16384x1024 .f32)
    (p : Fin 512) (e : Fin 1024) (r : Fin 16384)
    (hx : ∀ i : Fin 1024, x0 (ix2 p i) = X (ix2 r i)) (hw : ∀ i : Fin 1024, w0 (ix2 i e) = w (ix2 i e)) :
    k0_pay2 (F := Ideal) x0 w0 (ix2 p e) = proj X w (ix2 r e) := by
  rw [Pay.k0_pay2_apply]
  unfold proj
  refine Finset.sum_congr rfl fun i _ => ?_
  rw [hx i, hw i]

theorem pay3_block (x0 : Vec Ideal S512x1024 .f32) (w0 w : Vec Ideal S1024x1024 .bf16) (X : Vec Ideal S16384x1024 .f32)
    (p : Fin 512) (e : Fin 1024) (r : Fin 16384)
    (hx : ∀ i : Fin 1024, x0 (ix2 p i) = X (ix2 r i)) (hw : ∀ i : Fin 1024, w0 (ix2 i e) = w (ix2 i e)) :
    k0_pay3 (F := Ideal) x0 w0 (ix2 p e) = proj X w (ix2 r e) := by
  rw [Pay.k0_pay3_apply]
  unfold proj
  refine Finset.sum_congr rfl fun i _ => ?_
  rw [hx i, hw i]

/-- The input window's block at point t holds rows 512 t … 512 t + 511 of the flattened input. -/
theorem iblk0_0_apply (c : Dev nD) (t : Fin cfg0.N) (p : Fin 512) (i : Fin 1024) :
    (iblk0 V c 0 t : Vec Ideal S512x1024 .f32) (ix2 p i)
      = (V c main_v0 : Vec Ideal S16384x1024 .f32) (ix2 (⟨t.val * 512 + p.val, blockRow_lt t p⟩ : Fin 16384) i) := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * i.val = i.val; rw [e1]; omega

/-- The first weight window's block is the whole matrix. -/
theorem iblk0_1_apply (c : Dev nD) (t : Fin cfg0.N) (i e : Fin 1024) :
    (iblk0 V c 1 t : Vec Ideal S1024x1024 .bf16) (ix2 i e) = (V c main_v4 : Vec Ideal S1024x1024 .bf16) (ix2 i e) := by
  obtain ⟨-, -, e2, e3, -⟩ := idx_facts t
  unfold iblk0
  rw [View.read_apply]
  show V c main_v4 _ = V c main_v4 _
  congr 1
  funext a
  apply Fin.ext
  match a with
  | ⟨0, _⟩ => show win0_1.index t (0 : Fin 2) * 1024 + 1 * i.val = i.val; rw [e2]; omega
  | ⟨1, _⟩ => show win0_1.index t (1 : Fin 2) * 1024 + 1 * e.val = e.val; rw [e3]; omega

/-- The second weight window's block is the whole matrix. -/
theorem iblk0_2_apply (c : Dev nD) (t : Fin cfg0.N) (i e : Fin 1024) :
    (iblk0 V c 2 t : Vec Ideal S1024x1024 .bf16) (ix2 i e) = (V c main_v6 : Vec Ideal S1024x1024 .bf16) (ix2 i e) := by
  obtain ⟨-, -, -, -, e4, e5, -⟩ := idx_facts t
  unfold iblk0
  rw [View.read_apply]
  show V c main_v6 _ = V c main_v6 _
  congr 1
  funext a
  apply Fin.ext
  match a with
  | ⟨0, _⟩ => show win0_2.index t (0 : Fin 2) * 1024 + 1 * i.val = i.val; rw [e4]; omega
  | ⟨1, _⟩ => show win0_2.index t (1 : Fin 2) * 1024 + 1 * e.val = e.val; rw [e5]; omega

/-! ## What each point writes back -/

/-- What point t writes back into the first output is block t of the rows times the first matrix. -/
theorem flushed3_eq (c : Dev nD) (t : Fin cfg0.N) :
    (dat0 V c).flushed 3 t = ((cfg0.win 3).blk t).view.read (Elt Ideal) (proj (V c main_v0) (V c main_v4)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x1024) hz]
  funext y
  obtain ⟨p, e, rfl⟩ : ∃ (p : Fin 512) (e : Fin 1024), y = ix2 p e := ⟨y 0, y 1, eq_ix2 (n0 := 512) (n1 := 1024) y⟩
  rw [View.read_apply]
  obtain ⟨-, -, -, -, -, -, e6, e7, -⟩ := idx_facts t
  refine (pay2_block (iblk0 V c 0 t) (iblk0 V c 1 t) (V c main_v4) (V c main_v0) p e
    (⟨t.val * 512 + p.val, blockRow_lt t p⟩ : Fin 16384) (fun i => iblk0_0_apply V c t p i) (fun i => iblk0_1_apply V c t i e)).trans ?_
  refine congrArg (proj (V c main_v0) (V c main_v4)) (funext fun a => Fin.ext ?_)
  match a with
  | ⟨0, _⟩ => show t.val * 512 + p.val = win0_3.index t (0 : Fin 2) * 512 + 1 * p.val; rw [e6]; omega
  | ⟨1, _⟩ => show e.val = win0_3.index t (1 : Fin 2) * 1024 + 1 * e.val; rw [e7]; omega

/-- What point t writes back into the second output is block t of the rows times the second matrix. -/
theorem flushed4_eq (c : Dev nD) (t : Fin cfg0.N) :
    (dat0 V c).flushed 4 t = ((cfg0.win 4).blk t).view.read (Elt Ideal) (proj (V c main_v0) (V c main_v6)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  funext y
  obtain ⟨p, e, rfl⟩ : ∃ (p : Fin 512) (e : Fin 1024), y = ix2 p e := ⟨y 0, y 1, eq_ix2 (n0 := 512) (n1 := 1024) y⟩
  rw [View.read_apply]
  obtain ⟨-, -, -, -, -, -, -, -, e8, e9⟩ := idx_facts t
  refine (pay3_block (iblk0 V c 0 t) (iblk0 V c 2 t) (V c main_v6) (V c main_v0) p e
    (⟨t.val * 512 + p.val, blockRow_lt t p⟩ : Fin 16384) (fun i => iblk0_0_apply V c t p i) (fun i => iblk0_2_apply V c t i e)).trans ?_
  refine congrArg (proj (V c main_v0) (V c main_v6)) (funext fun a => Fin.ext ?_)
  match a with
  | ⟨0, _⟩ => show t.val * 512 + p.val = win0_4.index t (0 : Fin 2) * 512 + 1 * p.val; rw [e8]; omega
  | ⟨1, _⟩ => show e.val = win0_4.index t (1 : Fin 2) * 1024 + 1 * e.val; rw [e9]; omega

/-! ## The blocks tile the arrays -/

/-- An index of the first output array is in point t's block iff each coordinate is in the block's range on its axis. -/
theorem mem_blk3 (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v7_0).slice (win0_3.rect t)).set ↔ _
  rw [View.set_slice_whole, Rect.mem_set_unit]
  exact Iff.rfl

/-- The same for the second output array. -/
theorem mem_blk4 (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7_1).slice (win0_4.rect t)).set ↔ _
  rw [View.set_slice_whole, Rect.mem_set_unit]
  exact Iff.rfl

/-- Row r of the array lies in block r / 512. -/
theorem point_of_row (i : S16384x1024.Idx) : ∃ t : Fin cfg0.N, t.val = (i 0).val / 512 := by
  have hi0 : (i 0).val < 16384 := (i 0).isLt
  exact ⟨⟨(i 0).val / 512, lt_of_lt_of_eq (by omega) N_0.symm⟩, rfl⟩

/-- Every entry of the first output array is written back by some point. -/
theorem cover3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := point_of_row i
  obtain ⟨-, -, -, -, -, -, e6, e7, -⟩ := idx_facts t
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 1024 ≤ (i 1).val ∧ (i 1).val < win0_3.index t (1 : Fin 2) * 1024 + 1024
    rw [e7]; omega

/-- Every entry of the second output array is written back by some point. -/
theorem cover4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := point_of_row i
  obtain ⟨-, -, -, -, -, -, -, -, e8, e9⟩ := idx_facts t
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    rw [e8, ht]; omega
  | ⟨1, _⟩ =>
    show win0_4.index t (1 : Fin 2) * 1024 ≤ (i 1).val ∧ (i 1).val < win0_4.index t (1 : Fin 2) * 1024 + 1024
    rw [e9]; omega

/-! ## The two output arrays after the call -/

/-- The projected keys: the rows of the flattened input times the transposed key weights. -/
theorem final3 (c : Dev nD) : (dat0 V c).arrAt 3 cfg0.N = proj (V c main_v0) (V c main_v4) :=
  (dat0 V c).arrAt_eq_of_cover 3 (proj (V c main_v0) (V c main_v4)) (fun t _ => flushed3_eq V c t) cover3

/-- The projected values: the rows of the flattened input times the transposed value weights. -/
theorem final4 (c : Dev nD) : (dat0 V c).arrAt 4 cfg0.N = proj (V c main_v0) (V c main_v6) :=
  (dat0 V c).arrAt_eq_of_cover 4 (proj (V c main_v0) (V c main_v6)) (fun t _ => flushed4_eq V c t) cover4

/-- An entry of the product, by coordinates. -/
theorem proj_apply (x : Vec Ideal S16384x1024 .f32) (w : Vec Ideal S1024x1024 .bf16) (r : Fin 16384) (e : Fin 1024) :
    proj x w (ix2 r e) = ∑ i : Fin 1024, x (ix2 r i) * w (ix2 i e) := rfl

/-- An entry of the projected keys, by coordinates. -/
theorem final3_apply (c : Dev nD) (r : Fin 16384) (e : Fin 1024) :
    (dat0 V c).arrAt 3 cfg0.N (ix2 r e) = proj (V c main_v0) (V c main_v4) (ix2 r e) :=
  congrFun (final3 V c) (ix2 r e)

/-- An entry of the projected values, by coordinates. -/
theorem final4_apply (c : Dev nD) (r : Fin 16384) (e : Fin 1024) :
    (dat0 V c).arrAt 4 cfg0.N (ix2 r e) = proj (V c main_v0) (V c main_v6) (ix2 r e) :=
  congrFun (final4 V c) (ix2 r e)

end Cert.KernelIdeal.Val0

end
-- ==== Proof.AttnSpec.lean ====
/-
  Causal single-head attention on the extended reals, index by index: the specification both programs are compared
  with. Queries, keys and values are linear images of the input rows (`proj`); the score of query row `r` against
  key row `k` is the inner product of their images (`score`); a key after the query is masked to −∞ and the rest
  divided by 32, the square root of the width 1024 (`logit`); the softmax weights are taken against the row's maximum
  (`weight`), and the result is the weighted sum of the value rows (`attn`).
-/
import Idealize.ShloMosaic.PureOps.Ideal
import Idealize.ShloMosaic.Lib.ValueIdx

noncomputable section

namespace Cert.AttnSpec

open Idealize.ShloMosaic Idealize.ShloMosaic.ValueIdx

abbrev X3 : Type := (⟨3, ![8, 2048, 1024]⟩ : Shape).Idx → EReal
abbrev W2 : Type := (⟨2, ![1024, 1024]⟩ : Shape).Idx → EReal

/-- A linear layer without bias: row `s` of batch `b` against row `e` of the weight matrix. -/
def proj (x : X3) (w : W2) (b : Fin 8) (s : Fin 2048) (e : Fin 1024) : EReal :=
  ∑ i : Fin 1024, x (ix3 b s i) * w (ix2 e i)

/-- The inner product of a query row's image and a key row's image. -/
def score (x : X3) (wq wk : W2) (b : Fin 8) (r k : Fin 2048) : EReal :=
  ∑ e : Fin 1024, proj x wq b r e * proj x wk b k e

/-- The scaled logit: a key after the query is −∞. -/
def logit (x : X3) (wq wk : W2) (b : Fin 8) (r k : Fin 2048) : EReal :=
  Ideal.div (if r.val < k.val then ⊥ else score x wq wk b r k) ((32 : ℝ) : EReal)

/-- The largest logit of a query row. -/
def rowMax (x : X3) (wq wk : W2) (b : Fin 8) (r : Fin 2048) : EReal :=
  max ⊥ (Finset.univ.sup fun k : Fin 2048 => logit x wq wk b r k)

/-- The softmax weight of key `k` for query row `r`. -/
def weight (x : X3) (wq wk : W2) (b : Fin 8) (r k : Fin 2048) : EReal :=
  Ideal.div (Ideal.exp (logit x wq wk b r k - rowMax x wq wk b r))
    (∑ k' : Fin 2048, Ideal.exp (logit x wq wk b r k' - rowMax x wq wk b r))

/-- Attention at one output entry. -/
def attnAt (x : X3) (wq wk wv : W2) (b : Fin 8) (r : Fin 2048) (d : Fin 1024) : EReal :=
  ∑ k : Fin 2048, weight x wq wk b r k * proj x wv b k d

/-- Attention, as an array. -/
def attn (x : X3) (wq wk wv : W2) : X3 :=
  fun j => attnAt x wq wk wv ⟨(j 0).val, (j 0).isLt⟩ ⟨(j 1).val, (j 1).isLt⟩ ⟨(j 2).val, (j 2).isLt⟩

end Cert.AttnSpec

end
-- ==== Proof.KiGlue.lean ====
/-
  What the attention call finds in its operands, in terms of the program's four arguments.

  Between launch and the attention call the program runs a host stretch, the projection call, and a second host stretch.
  Followed buffer by buffer: the input reaches the attention call as launched; the query weights reach it transposed (and
  narrowed, which changes nothing on the extended reals), so entry (i, e) is the weight matrix's entry (e, i); the keys and
  the values reach it as the projection call's two output arrays folded back to [8, 2048, 1024], and the entry (b, s, e)
  of each is the linear image Σ_i x(b, s, i) · w(e, i) of input row (b, s) under the key weights, respectively the value
  weights.
-/
import proofs.«121710_j11665131176114_2_alg».proof.Proof.KiRun
import proofs.«121710_j11665131176114_2_alg».proof.Proof.KiHost
import proofs.«121710_j11665131176114_2_alg».proof.Proof.KiValue0
import proofs.«121710_j11665131176114_2_alg».proof.Proof.AttnSpec

set_option maxRecDepth 16384

noncomputable section

open scoped BigOperators

namespace Cert.KernelIdeal.Glue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-! ## The arguments as launched -/

/-- The input, [8, 2048, 1024]. -/
abbrev argX : Cert.AttnSpec.X3 := m ((c : Thread nD τ).loc main_arg0)
/-- The query weights, [1024, 1024]. -/
abbrev argWq : Cert.AttnSpec.W2 := m ((c : Thread nD τ).loc main_arg1)
/-- The key weights. -/
abbrev argWk : Cert.AttnSpec.W2 := m ((c : Thread nD τ).loc main_arg2)
/-- The value weights. -/
abbrev argWv : Cert.AttnSpec.W2 := m ((c : Thread nD τ).loc main_arg3)

/-! ## What the attention call finds -/

/-- The input as launched: no host operation writes it and the first call stages none of it. -/
theorem VV3_arg0 : VV3 m c main_arg0 = m ((c : Thread nD τ).loc main_arg0) :=
  calc VV3 m c main_arg0
    _ = W2 m c (Proc.devRef .tc main_arg0) :=
        StableHlo.after_of_writes_sub hostOps1 _ hostOps1_writes (show main_arg0 ∉ hostOps1_W by decide)
    _ = W1 m c (Proc.devRef .tc main_arg0) := W2_of_ne m c main_arg0 (by decide)
    _ = W0 m c (Proc.devRef .tc main_arg0) :=
        StableHlo.after_of_writes_sub hostOps0 _ hostOps0_writes (show main_arg0 ∉ hostOps0_W by decide)
    _ = m ((c : Thread nD τ).loc main_arg0) := rfl

/-- The narrowed transposed query weights are still what the first host stretch wrote. -/
theorem VV3_v2 : VV3 m c main_v2 = StableHlo.after hostOps0 (W0 m c) (Proc.devRef .tc main_v2) :=
  calc VV3 m c main_v2
    _ = W2 m c (Proc.devRef .tc main_v2) :=
        StableHlo.after_of_writes_sub hostOps1 _ hostOps1_writes (show main_v2 ∉ hostOps1_W by decide)
    _ = W1 m c (Proc.devRef .tc main_v2) := W2_of_ne m c main_v2 (by decide)
    _ = StableHlo.after hostOps0 (W0 m c) (Proc.devRef .tc main_v2) := rfl

/-- The query weights the attention call multiplies by, at (i, e), are the query weights at (e, i). -/
theorem VV3_v2_apply (i e : Fin 1024) :
    (VV3 m c main_v2 : Vec Ideal S1024x1024 .bf16) (ix2 i e) = argWq m c (ix2 e i) :=
  (congrFun (VV3_v2 m c) (ix2 i e)).trans (Host.v2_apply (W0 m c) i e)

/-- The first call's first output array, as the second host stretch finds it. -/
theorem W2_v7_0 : W2 m c (Proc.devRef .tc main_v7_0) = (dat0 (VV1 m) c).arrAt 3 cfg0.N := W2_arr m c 3
/-- The first call's second output array. -/
theorem W2_v7_1 : W2 m c (Proc.devRef .tc main_v7_1) = (dat0 (VV1 m) c).arrAt 4 cfg0.N := W2_arr m c 4

/-- An entry of the flat projected keys: row b · 2048 + s of the flattened input against row e of the key weights. -/
theorem keys_flat (b : Fin 8) (s : Fin 2048) (e : Fin 1024) :
    Val0.proj (VV1 m c main_v0) (VV1 m c main_v4) (ix2 (⟨b.val * 2048 + s.val, Host.row_lt b s⟩ : Fin 16384) e)
      = Cert.AttnSpec.proj (argX m c) (argWk m c) b s e := by
  rw [Val0.proj_apply]
  unfold Cert.AttnSpec.proj
  exact Finset.sum_congr rfl fun i _ =>
    congrArg₂ (· * ·) (Host.v0_apply (W0 m c) b s i) (Host.v4_apply (W0 m c) i e)

/-- An entry of the flat projected values. -/
theorem values_flat (b : Fin 8) (s : Fin 2048) (e : Fin 1024) :
    Val0.proj (VV1 m c main_v0) (VV1 m c main_v6) (ix2 (⟨b.val * 2048 + s.val, Host.row_lt b s⟩ : Fin 16384) e)
      = Cert.AttnSpec.proj (argX m c) (argWv m c) b s e := by
  rw [Val0.proj_apply]
  unfold Cert.AttnSpec.proj
  exact Finset.sum_congr rfl fun i _ =>
    congrArg₂ (· * ·) (Host.v0_apply (W0 m c) b s i) (Host.v6_apply (W0 m c) i e)

/-- The keys the attention call finds, at (b, s, e): the linear image of input row (b, s) under the key weights. -/
theorem VV3_v8_apply (b : Fin 8) (s : Fin 2048) (e : Fin 1024) :
    (VV3 m c main_v8 : Vec Ideal S8x2048x1024 .bf16) (ix3 b s e) = Cert.AttnSpec.proj (argX m c) (argWk m c) b s e :=
  (Host.v8_apply (W2 m c) b s e).trans <|
    (congrFun (W2_v7_0 m c) (ix2 (⟨b.val * 2048 + s.val, Host.row_lt b s⟩ : Fin 16384) e)).trans <|
      (Val0.final3_apply (VV1 m) c _ e).trans (keys_flat m c b s e)

/-- The values the attention call finds, at (b, s, e): the linear image of input row (b, s) under the value weights. -/
theorem VV3_v9_apply (b : Fin 8) (s : Fin 2048) (e : Fin 1024) :
    (VV3 m c main_v9 : Vec Ideal S8x2048x1024 .bf16) (ix3 b s e) = Cert.AttnSpec.proj (argX m c) (argWv m c) b s e :=
  (Host.v9_apply (W2 m c) b s e).trans <|
    (congrFun (W2_v7_1 m c) (ix2 (⟨b.val * 2048 + s.val, Host.row_lt b s⟩ : Fin 16384) e)).trans <|
      (Val0.final4_apply (VV1 m) c _ e).trans (values_flat m c b s e)

end Cert.KernelIdeal.Glue

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.AttnOnline.lean ====
/-
  Attention at one output entry is the running-softmax recursion over the key tiles up to the diagonal one.

  The 2048 key rows are cut into 4 tiles of 512: key row j·512 + t is position t of tile j. The query row is row r of
  tile g. Causal attention gives the keys after the query the logit −∞, so the tiles after g carry no weight at all and
  the diagonal tile g carries weight only at the positions up to r. The blocked computation therefore visits the tiles
  0, …, g only, keeping a running maximum, a running normaliser and a running weighted sum, and divides at the end.
  That quotient is the specification's attention entry, whose softmax is taken over all 2048 keys against the row
  maximum:

    * the logit of the specification, a quotient by 32, is the masked score times 1/32 (−∞ stays −∞);
    * for real inputs to the score, every score is real, so every logit is real or −∞, the logit of the key equal to
      the query is real, and the row maximum is a real number: it can serve as the shift of the softmax;
    * the logits of tile 0 contain a real one (key 0 is never after the query), the tiles after g are entirely −∞;
    * the sum over the 2048 keys regroups as the sum over the 4 tiles of the sums over their 512 positions.

  Nothing is asked of the value projection: a weight is a nonnegative real, and it multiplies an arbitrary extended real.
-/
import Idealize.ShloMosaic.PureOps.Ideal
import proofs.«121710_j11665131176114_2_alg».proof.Proof.AttnSpec
import proofs.«121710_j11665131176114_2_alg».proof.Proof.LibOnlineSoftmax
import proofs.«121710_j11665131176114_2_alg».proof.Proof.LibReal
import proofs.«121710_j11665131176114_2_alg».proof.Proof.LibRealOps
import proofs.«121710_j11665131176114_2_alg».proof.Proof.LibTiles

noncomputable section

open scoped BigOperators

namespace Cert.AttnOnline

open Idealize.ShloMosaic Idealize.ShloMosaic.ValueIdx
open Cert.AttnSpec Cert.LibOnlineSoftmax Cert.LibReal Cert.LibRealOps

/-- Key row number j·512 + t: position t of tile j. -/
def keyRow (j : ℕ) (h : j < 4) (t : Fin 512) : Fin 2048 := ⟨j * 512 + t.val, by omega⟩

/-- The logits the recursion sees for the query row r of tile g: tile j, position t. A key after the query is −∞;
    beyond the four tiles everything is −∞. -/
def zsOf (x : X3) (wq wk : W2) (b : Fin 8) (g : Fin 4) (r : Fin 512) : ℕ → Fin 512 → EReal := fun j t =>
  if h : j < 4 then
    (if g.val * 512 + r.val < j * 512 + t.val then ⊥
      else score x wq wk b (keyRow g.val g.isLt r) (keyRow j h t) * ((1 / 32 : ℝ) : EReal))
  else ⊥

/-- The values the recursion sees for column d: tile j, position t. -/
def vsOf (x : X3) (wv : W2) (b : Fin 8) (d : Fin 1024) : ℕ → Fin 512 → EReal := fun j t =>
  if h : j < 4 then proj x wv b (keyRow j h t) d else 0

/-! ### The specification's quantities for real inputs -/

/-- A projection of real inputs by real weights is real. -/
theorem proj_isReal (x : X3) (w : W2) (hx : ∀ i, IsReal (x i)) (hw : ∀ i, IsReal (w i)) (b : Fin 8) (s : Fin 2048)
    (e : Fin 1024) : IsReal (proj x w b s e) :=
  IsReal.sum_univ _ fun i => IsReal.mul (hx _) (hw _)

/-- A score of real inputs is real. -/
theorem score_isReal (x : X3) (wq wk : W2) (hx : ∀ i, IsReal (x i)) (hwq : ∀ i, IsReal (wq i))
    (hwk : ∀ i, IsReal (wk i)) (b : Fin 8) (r k : Fin 2048) : IsReal (score x wq wk b r k) :=
  IsReal.sum_univ _ fun e => IsReal.mul (proj_isReal x wq hx hwq b r e) (proj_isReal x wk hx hwk b k e)

/-- The logit, a quotient by 32, is the masked score times 1/32; minus infinity stays minus infinity. -/
theorem logit_eq (x : X3) (wq wk : W2) (b : Fin 8) (r k : Fin 2048) :
    logit x wq wk b r k
      = if r.val < k.val then ⊥ else score x wq wk b r k * ((1 / 32 : ℝ) : EReal) := by
  unfold logit
  rw [Ideal.div_coe (by norm_num : (32 : ℝ) ≠ 0)]
  by_cases h : r.val < k.val
  · rw [if_pos h, if_pos h, EReal.bot_mul_coe_of_pos (by norm_num)]
  · rw [if_neg h, if_neg h]

/-- For real inputs every logit is real or minus infinity. -/
theorem logit_real_or_bot (x : X3) (wq wk : W2) (hx : ∀ i, IsReal (x i)) (hwq : ∀ i, IsReal (wq i))
    (hwk : ∀ i, IsReal (wk i)) (b : Fin 8) (r k : Fin 2048) :
    IsReal (logit x wq wk b r k) ∨ logit x wq wk b r k = ⊥ := by
  rw [logit_eq]
  by_cases h : r.val < k.val
  · rw [if_pos h]; exact Or.inr rfl
  · rw [if_neg h]; exact Or.inl (IsReal.mul (score_isReal x wq wk hx hwq hwk b r k) (IsReal.coe _))

/-- A key not after the query has a real logit; in particular the key equal to the query. -/
theorem logit_isReal_of_le (x : X3) (wq wk : W2) (hx : ∀ i, IsReal (x i)) (hwq : ∀ i, IsReal (wq i))
    (hwk : ∀ i, IsReal (wk i)) (b : Fin 8) (r k : Fin 2048) (h : k.val ≤ r.val) : IsReal (logit x wq wk b r k) := by
  rw [logit_eq, if_neg (by omega)]
  exact IsReal.mul (score_isReal x wq wk hx hwq hwk b r k) (IsReal.coe _)

/-- For real inputs the row maximum of the logits is a real number. -/
theorem rowMax_isReal (x : X3) (wq wk : W2) (hx : ∀ i, IsReal (x i)) (hwq : ∀ i, IsReal (wq i))
    (hwk : ∀ i, IsReal (wk i)) (b : Fin 8) (r : Fin 2048) : IsReal (rowMax x wq wk b r) :=
  max_bot_sup_univ_isReal (fun k : Fin 2048 => logit x wq wk b r k)
    (fun k => logit_real_or_bot x wq wk hx hwq hwk b r k)
    ⟨r, logit_isReal_of_le x wq wk hx hwq hwk b r r (le_refl _)⟩

/-! ### The recursion's logits and values are the specification's, tile by tile -/

/-- Inside the four tiles the recursion's logit is the specification's logit of that key. -/
theorem zsOf_eq_logit (x : X3) (wq wk : W2) (b : Fin 8) (g : Fin 4) (r : Fin 512) (j : Fin 4) (t : Fin 512) :
    zsOf x wq wk b g r j.val t = logit x wq wk b (keyRow g.val g.isLt r) (keyRow j.val j.isLt t) := by
  unfold zsOf
  rw [dif_pos j.isLt, logit_eq]
  rfl

/-- Inside the four tiles the recursion's value is the value projection of that key. -/
theorem vsOf_eq_proj (x : X3) (wv : W2) (b : Fin 8) (d : Fin 1024) (j : Fin 4) (t : Fin 512) :
    vsOf x wv b d j.val t = proj x wv b (keyRow j.val j.isLt t) d := by
  unfold vsOf
  rw [dif_pos j.isLt]

/-- Every logit the recursion sees is real or minus infinity. -/
theorem zsOf_real_or_bot (x : X3) (wq wk : W2) (hx : ∀ i, IsReal (x i)) (hwq : ∀ i, IsReal (wq i))
    (hwk : ∀ i, IsReal (wk i)) (b : Fin 8) (g : Fin 4) (r : Fin 512) (j : ℕ) (t : Fin 512) :
    IsReal (zsOf x wq wk b g r j t) ∨ zsOf x wq wk b g r j t = ⊥ := by
  by_cases hj : j < 4
  · have h := zsOf_eq_logit x wq wk b g r ⟨j, hj⟩ t
    rw [show zsOf x wq wk b g r j t = _ from h]
    exact logit_real_or_bot x wq wk hx hwq hwk b _ _
  · right
    unfold zsOf
    rw [dif_neg hj]

/-- Tile 0 holds a real logit: key 0 is never after the query. -/
theorem zsOf_zero_real (x : X3) (wq wk : W2) (hx : ∀ i, IsReal (x i)) (hwq : ∀ i, IsReal (wq i))
    (hwk : ∀ i, IsReal (wk i)) (b : Fin 8) (g : Fin 4) (r : Fin 512) :
    ∃ t, IsReal (zsOf x wq wk b g r 0 t) := by
  refine ⟨⟨0, by omega⟩, ?_⟩
  have h := zsOf_eq_logit x wq wk b g r ⟨0, by omega⟩ ⟨0, by omega⟩
  rw [show zsOf x wq wk b g r 0 ⟨0, by omega⟩ = _ from h]
  exact logit_isReal_of_le x wq wk hx hwq hwk b _ _ (by show 0 * 512 + 0 ≤ g.val * 512 + r.val; omega)

/-- The tiles after the query's tile are entirely minus infinity. -/
theorem zsOf_masked (x : X3) (wq wk : W2) (b : Fin 8) (g : Fin 4) (r : Fin 512) (j : ℕ) (hj : g.val + 1 ≤ j)
    (t : Fin 512) : zsOf x wq wk b g r j t = ⊥ := by
  unfold zsOf
  by_cases h4 : j < 4
  · rw [dif_pos h4, if_pos (by omega)]
  · rw [dif_neg h4]

/-- A sum over the 2048 keys, tile by tile. -/
theorem sum_keyRow {M : Type*} [AddCommMonoid M] (f : Fin 2048 → M) :
    ∑ k : Fin 2048, f k = ∑ j : Fin 4, ∑ t : Fin 512, f (keyRow j.val j.isLt t) :=
  (Cert.LibTiles.sum_tiles_mul 4 512 f fun j p => by omega).symm.trans
    (Finset.sum_congr rfl fun j _ => Finset.sum_congr rfl fun t _ =>
      congrArg f (Fin.ext (by show 512 * j.val + t.val = j.val * 512 + t.val; omega)))

/-! ### The theorem -/

/-- ATTENTION AT ONE ENTRY IS THE RECURSION'S QUOTIENT. For real inputs x, wq, wk (nothing is asked of wv): the
    specification's attention at the query row r of tile g and column d is the running weighted sum divided by the
    running normaliser after the tiles 0, …, g. -/
theorem attnAt_eq_online (x : X3) (wq wk wv : W2) (hx : ∀ i, IsReal (x i)) (hwq : ∀ i, IsReal (wq i))
    (hwk : ∀ i, IsReal (wk i)) (b : Fin 8) (g : Fin 4) (r : Fin 512) (d : Fin 1024) :
    attnAt x wq wk wv b (keyRow g.val g.isLt r) d
      = Ideal.div (run (zsOf x wq wk b g r) (vsOf x wv b d) (g.val + 1)).2.2
          (run (zsOf x wq wk b g r) (vsOf x wv b d) (g.val + 1)).2.1 := by
  have hM := rowMax_isReal x wq wk hx hwq hwk b (keyRow g.val g.isLt r)
  have hden : (∑ j' ∈ Finset.range 4, ∑ t' : Fin 512,
        Ideal.exp (zsOf x wq wk b g r j' t' - rowMax x wq wk b (keyRow g.val g.isLt r)))
      = ∑ k' : Fin 2048,
          Ideal.exp (logit x wq wk b (keyRow g.val g.isLt r) k' - rowMax x wq wk b (keyRow g.val g.isLt r)) :=
    ((Finset.sum_range fun j' => ∑ t' : Fin 512,
        Ideal.exp (zsOf x wq wk b g r j' t' - rowMax x wq wk b (keyRow g.val g.isLt r))).trans
      (Finset.sum_congr rfl fun j _ => Finset.sum_congr rfl fun t _ => by rw [zsOf_eq_logit])).trans
      (sum_keyRow fun k' =>
        Ideal.exp (logit x wq wk b (keyRow g.val g.isLt r) k' - rowMax x wq wk b (keyRow g.val g.isLt r))).symm
  rw [run_div_eq_masked (zsOf x wq wk b g r) (vsOf x wv b d) (g.val + 1) 4 (Nat.succ_pos _) (by omega)
    (zsOf_zero_real x wq wk hx hwq hwk b g r)
    (fun j _ t => zsOf_real_or_bot x wq wk hx hwq hwk b g r j t)
    (fun j hj _ t => zsOf_masked x wq wk b g r j hj t)
    (rowMax x wq wk b (keyRow g.val g.isLt r)) hM, hden]
  refine ((sum_keyRow fun k => weight x wq wk b (keyRow g.val g.isLt r) k * proj x wv b k d).trans ?_).trans
    (Finset.sum_range fun j => ∑ t : Fin 512,
      Ideal.div (Ideal.exp (zsOf x wq wk b g r j t - rowMax x wq wk b (keyRow g.val g.isLt r)))
        (∑ k' : Fin 2048,
          Ideal.exp (logit x wq wk b (keyRow g.val g.isLt r) k' - rowMax x wq wk b (keyRow g.val g.isLt r)))
        * vsOf x wv b d j t).symm
  exact Finset.sum_congr rfl fun j _ => Finset.sum_congr rfl fun t _ => by
    rw [zsOf_eq_logit, vsOf_eq_proj]
    rfl

end Cert.AttnOnline

end
-- ==== Proof.KiFinite.lean ====
/-
  The precondition makes every input entry a real number.

  The precondition compares, for each of the four input arrays, the absolute value of every entry with plus infinity
  (strictly below), reduces each comparison by "and" over the whole array, and joins the four results by "and"; it asks
  the outcome to be 1. An "and" of one-bit words is 1 only when both are; a reduction by "and" over all axes that came out
  1 met a 1 at every index; and an entry whose absolute value is strictly below plus infinity is neither infinity, hence
  a real number. So under the precondition every entry of every input array is a real number.
-/
import proofs.«121710_j11665131176114_2_alg».proof.Defs
import proofs.«121710_j11665131176114_2_alg».proof.Proof.Gen.Pre_finite_inputs
import proofs.«121710_j11665131176114_2_alg».proof.Proof.LibReal
import Idealize.ShloMosaic.Lib.ReduceAll
import Idealize.ShloMosaic.Lib.ValueIdx

noncomputable section

namespace Cert.KernelIdeal.Finite

open Idealize.ShloMosaic Idealize.SL.Sem Cert.LibReal

/-- The four comparisons' conjunction being all ones makes every entry of the four arrays a real number. -/
theorem fn_all_real [hP : Cert.Pre_finite_inputs.Facts]
    (x0 : FVec Ideal Cert.Pre_finite_inputs.S8x2048x1024 .f32)
    (x1 x2 x3 : FVec Ideal Cert.Pre_finite_inputs.S1024x1024 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have hc := congrFun h ValueIdx.ix0
  unfold Cert.Pre_finite_inputs.fn Cert.Pre_finite_inputs.fn_part1 at hc
  dsimp only at hc
  obtain ⟨h123, h4⟩ := IntOp.andi_eq_one.mp hc
  obtain ⟨h12, h3⟩ := IntOp.andi_eq_one.mp h123
  obtain ⟨h1, h2⟩ := IntOp.andi_eq_one.mp h12
  refine ⟨fun i => ?_, fun i => ?_, fun i => ?_, fun i => ?_⟩
  · exact elem_real Cert.Pre_finite_inputs.Facts.bcast_S_S8x2048x1024 x0 i
      (Host.reduce_andi_all _ _ Cert.Pre_finite_inputs.Facts.reducesTo_S8x2048x1024_S_d0_1_2
        Cert.Pre_finite_inputs.Facts.h_S_ ValueIdx.ix0 h1 i)
  · exact elem_real Cert.Pre_finite_inputs.Facts.bcast_S_S1024x1024 x1 i
      (Host.reduce_andi_all _ _ Cert.Pre_finite_inputs.Facts.reducesTo_S1024x1024_S_d0_1
        Cert.Pre_finite_inputs.Facts.h_S_ ValueIdx.ix0 h2 i)
  · exact elem_real Cert.Pre_finite_inputs.Facts.bcast_S_S1024x1024 x2 i
      (Host.reduce_andi_all _ _ Cert.Pre_finite_inputs.Facts.reducesTo_S1024x1024_S_d0_1
        Cert.Pre_finite_inputs.Facts.h_S_ ValueIdx.ix0 h3 i)
  · exact elem_real Cert.Pre_finite_inputs.Facts.bcast_S_S1024x1024 x3 i
      (Host.reduce_andi_all _ _ Cert.Pre_finite_inputs.Facts.reducesTo_S1024x1024_S_d0_1
        Cert.Pre_finite_inputs.Facts.h_S_ ValueIdx.ix0 h4 i)

/-- UNDER THE PRECONDITION every entry of the four argument buffers, on every device, is a real number. -/
theorem finite_of_pre [hP : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.LibReal.IsReal
        (m ((c.tc : Thread Cert.KernelIdeal.nD Cert.KernelIdeal.τ).loc Cert.KernelIdeal.main_arg0) i))
    ∧ (∀ i, Cert.LibReal.IsReal
        (m ((c.tc : Thread Cert.KernelIdeal.nD Cert.KernelIdeal.τ).loc Cert.KernelIdeal.main_arg1) i))
    ∧ (∀ i, Cert.LibReal.IsReal
        (m ((c.tc : Thread Cert.KernelIdeal.nD Cert.KernelIdeal.τ).loc Cert.KernelIdeal.main_arg2) i))
    ∧ (∀ i, Cert.LibReal.IsReal
        (m ((c.tc : Thread Cert.KernelIdeal.nD Cert.KernelIdeal.τ).loc Cert.KernelIdeal.main_arg3) i)) :=
  fn_all_real _ _ _ _ (h c)

end Cert.KernelIdeal.Finite

end
-- ==== Proof.KiFinal.lean ====
/-
  The attention call's result, and with it the whole program's, is the specification's attention.

  Three things are put together here. First, the two schedule tables the attention call finds are the literal ones, so
  everything they decide — the words the body loads, the conditions it branches on, where the output block is written
  back, every window's block index — holds at every grid point. Second, the output array the call leaves, entry
  (b, g·512 + r, d), is the running weighted sum over the running normaliser after the key tiles 0 … g of row r's
  recurrence; the logits and the values that recurrence is fed are, buffer by buffer, the specification's: the input as
  launched, the query weights transposed, the keys and the values the linear images of the input rows, the scale word
  1/32. For real inputs that quotient is the specification's attention at the entry. Third, the precondition makes the
  inputs real, the run of the whole program ends with every unscoped buffer at the last segment's contents, and the
  argument arrays are as launched: so every weakly fair execution terminates with the result array equal to the
  specification's attention of the arguments and the arguments unchanged.
-/
import proofs.«121710_j11665131176114_2_alg».proof.Proof.KiFrame
import proofs.«121710_j11665131176114_2_alg».proof.Proof.KiValue1
import proofs.«121710_j11665131176114_2_alg».proof.Proof.KiGlue
import proofs.«121710_j11665131176114_2_alg».proof.Proof.KiTables
import proofs.«121710_j11665131176114_2_alg».proof.Proof.AttnOnline
import proofs.«121710_j11665131176114_2_alg».proof.Proof.KiFinite

set_option maxRecDepth 16384

noncomputable section

open scoped BigOperators

namespace Cert.KernelIdeal.Final

open Cert.KernelIdeal Cert.KernelIdeal.Gen Idealize.ShloMosaic Idealize.ShloMosaic.TcCoe Idealize.ShloMosaic.ValueIdx
open Idealize.SL.Sem Cert.LibReal Cert.LibOnlineSoftmax

section AtOneDevice

variable (m : (ℓ : Loc nD τ sig) → Buf (Elt Ideal) ℓ) (c : Dev nD)

/-! ### (a) What the tables decide, at the tables the attention call finds -/

/-- Every schedule fact, at the contents of the two tables as the attention call finds them. -/
theorem tblHyp : Val1.TblHyp (VV3 m) (hOA m) c where
  w t := ⟨word_qi (adm1 (VV3 m) (hOA m)) (tblA m) c t, word_ki (adm1 (VV3 m) (hOA m)) (tblA m) c t⟩
  k t := conds_iff (adm1 (VV3 m) (hOA m)) (tblA m) c t
  f t := flush4_iff (adm1 (VV3 m) (hOA m)) (tblA m) t
  x t := ⟨index0_eq (adm1 (VV3 m) (hOA m)) (tblA m) t, index4_eq (adm1 (VV3 m) (hOA m)) (tblA m) t,
    index2_eq (adm1 (VV3 m) (hOA m)) (tblA m) t, index3_eq (adm1 (VV3 m) (hOA m)) (tblA m) t,
    index1_eq (adm1 (VV3 m) (hOA m)) t⟩

/-! ### (b) The output array is the specification's attention -/

/-- The logits the call's recurrence is fed are the specification's masked, scaled scores. -/
theorem zsK_eq (b : Fin 8) (g : Fin 4) (r : Fin 512) :
    Val1.zsK (VV3 m) c b g r
      = Cert.AttnOnline.zsOf (Glue.argX m c) (Glue.argWq m c) (Glue.argWk m c) b g r := by
  funext j' t'
  unfold Val1.zsK Cert.AttnOnline.zsOf
  by_cases h : j' < 4
  · rw [dif_pos h, dif_pos h]
    by_cases hm : g.val * 512 + r.val < j' * 512 + t'.val
    · rw [if_pos hm, if_pos hm]
    · rw [if_neg hm, if_neg hm, Pay.ofBits_scale]
      refine congrArg (· * _) ?_
      unfold Cert.AttnSpec.score
      refine Finset.sum_congr rfl fun e _ => ?_
      refine congrArg₂ (· * ·) ?_ (Glue.VV3_v8_apply m c b _ e)
      unfold Cert.AttnSpec.proj
      exact Finset.sum_congr rfl fun i _ =>
        congrArg₂ (· * ·) (congrFun (Glue.VV3_arg0 m c) _) (Glue.VV3_v2_apply m c i e)
  · rw [dif_neg h, dif_neg h]

/-- The values the call's recurrence is fed are the specification's value projections. -/
theorem vsK_eq (b : Fin 8) (d : Fin 1024) :
    Val1.vsK (VV3 m) c b d = Cert.AttnOnline.vsOf (Glue.argX m c) (Glue.argWv m c) b d := by
  funext j' t'
  unfold Val1.vsK Cert.AttnOnline.vsOf
  by_cases h : j' < 4
  · rw [dif_pos h, dif_pos h]
    exact Glue.VV3_v9_apply m c b _ d
  · rw [dif_neg h, dif_neg h]

/-- THE OUTPUT ARRAY of the attention call, for real input and real query and key weights, is the specification's
    attention of the program's four arguments. -/
theorem outK_eq_attn (hx : ∀ i, IsReal (Glue.argX m c i)) (hwq : ∀ i, IsReal (Glue.argWq m c i))
    (hwk : ∀ i, IsReal (Glue.argWk m c i)) :
    Val1.outK (VV3 m) c
      = Cert.AttnSpec.attn (Glue.argX m c) (Glue.argWq m c) (Glue.argWk m c) (Glue.argWv m c) := by
  funext jdx
  obtain ⟨b, R, d, rfl⟩ : ∃ (b : Fin 8) (R : Fin 2048) (d : Fin 1024), jdx = ix3 b R d :=
    ⟨jdx 0, jdx 1, jdx 2, eq_ix3 jdx⟩
  obtain ⟨g, r, rfl⟩ : ∃ (g : Fin 4) (r : Fin 512), R = Cert.AttnOnline.keyRow g.val g.isLt r := by
    have hR := R.isLt
    exact ⟨⟨R.val / 512, by omega⟩, ⟨R.val % 512, Nat.mod_lt _ (by decide)⟩,
      Fin.ext (by show R.val = R.val / 512 * 512 + R.val % 512; omega)⟩
  rw [Val1.outK_apply (VV3 m) c _ b g r d rfl rfl rfl, zsK_eq, vsK_eq]
  exact (Cert.AttnOnline.attnAt_eq_online (Glue.argX m c) (Glue.argWq m c) (Glue.argWk m c) (Glue.argWv m c)
    hx hwq hwk b g r d).symm

end AtOneDevice

/-! ### (c) The whole program -/

/-- THE RUN AND ITS VALUE. Under the precondition every weakly fair execution of the program terminates, nothing
    faulting, with the result array the specification's attention of the four arguments and the arguments unchanged. -/
theorem run_value (m : (ℓ : Loc nD τ sig) → Buf (Elt Ideal) ℓ) (ρ : Dev nD → PrngReg)
    (hpre : Cert.Pre_KernelIdeal m) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v10)
            = Cert.AttnSpec.attn (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c _ (mem_ucA main_v10 (by decide))).trans
        ((W4_arr m (hOA m) c 4).trans
          ((Val1.final4 (VV3 m) (hOA m) c (tblHyp m c)).trans
            (outK_eq_attn m c (Cert.KernelIdeal.Finite.finite_of_pre m hpre c).1
              (Cert.KernelIdeal.Finite.finite_of_pre m hpre c).2.1
              (Cert.KernelIdeal.Finite.finite_of_pre m hpre c).2.2.1))),
     (h c _ (mem_ucA main_arg0 (by decide))).trans (W4_arg0 m c),
     (h c _ (mem_ucA main_arg1 (by decide))).trans (W4_arg1 m c),
     (h c _ (mem_ucA main_arg2 (by decide))).trans (W4_arg2 m c),
     (h c _ (mem_ucA main_arg3 (by decide))).trans (W4_arg3 m c)⟩) (run_mainA m ρ (hOA m) (hTA m))

end Cert.KernelIdeal.Final

end
-- ==== Proof.LibHostMax3.lean ====
/-
  The maximum of a rank-3 array along its last axis, in a host program, read at an index given by coordinates.

  A `stablehlo.reduce` whose body is `maximum`, over the last axis of an `[a, b, c]` array, leaves an `[a, b]` array; its
  entry at `(p, r)` is the fold of `max`, from the initial value's one element, over the `c` entries `x (p, r, k)`. Since
  `max` is commutative and associative the order of the fold does not matter, and the fold over the indices that drop to
  `(p, r)` is the fold over the last coordinate `k` with `(p, r)` held fixed.
-/
import Idealize.ShloMosaic.Lib.ValueLayout
import Idealize.ShloMosaic.PureOps.Ideal.Laws

noncomputable section

open scoped BigOperators

namespace Idealize.ShloMosaic.ValueIdx

open Idealize.ShloMosaic

/-- The host's maximum of an `[a, b, c]` array along its last axis, read at `(p, r)`: the fold of `max`, from the initial
    value, over the entries `x (p, r, k)`, `k` running over the last axis, in any order. -/
theorem hostReduce_max_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

/-- The host's sum of an `[a, b, c]` array along its last axis, at the ideal values and read at `(p, r)`: the initial
    value plus the sum of the entries `x (p, r, k)`. -/
theorem hostReduceAdd_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Idealize.ShloMosaic.ValueIdx

end
-- ==== Proof.RefValue.lean ====
/-
  The reference's result, index by index.

  The reference computes causal single-head attention in thirty-odd array operations: three linear images of the input
  rows, the scores as inner products of the query and key images, a mask that sends the keys after the query to −∞, a
  division by the square root of the width 1024, a softmax along the keys (row maximum from −∞, subtraction,
  exponential, row sum from zero, division) and the weighted sum of the value images. Read at an index with the
  coordinates b (batch), r (query row), k (key row), d (column), every one of these arrays is the corresponding
  quantity of the specification: a projection, a score, a masked and scaled logit, the row maximum, an exponential, the
  row total, a softmax weight, and at the end the attention entry. The proof is rewriting only: each operation read at
  an index given by coordinates, the composed index functions identified with the coordinate constructors, the integer
  comparison of the two iotas decided (it marks exactly the keys k > r), the word of −∞, the word of zero and the square
  root of the word of 1024 (which is 32) evaluated.
-/
import proofs.«121710_j11665131176114_2_alg».proof.Proof.Gen.ReferenceIdeal.Read
import proofs.«121710_j11665131176114_2_alg».proof.Proof.AttnSpec
import proofs.«121710_j11665131176114_2_alg».proof.Proof.LibHostMax3
import proofs.«121710_j11665131176114_2_alg».proof.Proof.LibRowMin

noncomputable section

open scoped BigOperators

namespace Cert.ReferenceIdeal.RefValue

open Cert.ReferenceIdeal Cert.ReferenceIdeal.Gen Cert.ReferenceIdeal.Read Cert.AttnSpec Cert.LibRowMin
open Idealize.ShloMosaic Idealize.ShloMosaic.ValueIdx

/-! ### The composed index functions, at indices given by coordinates -/

theorem lidx_v0 (b : Fin 8) (s : Fin 2048) (e i : Fin 1024) : lidx_main_v0 (ix3 b s e) i = ix3 b s i := by
  funext a; match a with | ⟨0, _⟩ => rfl | ⟨1, _⟩ => rfl | ⟨2, _⟩ => rfl

theorem ridx_v0 (b : Fin 8) (s : Fin 2048) (e i : Fin 1024) : ridx_main_v0 (ix3 b s e) i = ix2 e i := by
  funext a; match a with | ⟨0, _⟩ => rfl | ⟨1, _⟩ => rfl

theorem lidx_v1 (b : Fin 8) (s : Fin 2048) (e i : Fin 1024) : lidx_main_v1 (ix3 b s e) i = ix3 b s i := by
  funext a; match a with | ⟨0, _⟩ => rfl | ⟨1, _⟩ => rfl | ⟨2, _⟩ => rfl

theorem ridx_v1 (b : Fin 8) (s : Fin 2048) (e i : Fin 1024) : ridx_main_v1 (ix3 b s e) i = ix2 e i := by
  funext a; match a with | ⟨0, _⟩ => rfl | ⟨1, _⟩ => rfl

theorem lidx_v2 (b : Fin 8) (s : Fin 2048) (e i : Fin 1024) : lidx_main_v2 (ix3 b s e) i = ix3 b s i := by
  funext a; match a with | ⟨0, _⟩ => rfl | ⟨1, _⟩ => rfl | ⟨2, _⟩ => rfl

theorem ridx_v2 (b : Fin 8) (s : Fin 2048) (e i : Fin 1024) : ridx_main_v2 (ix3 b s e) i = ix2 e i := by
  funext a; match a with | ⟨0, _⟩ => rfl | ⟨1, _⟩ => rfl

theorem lidx_v3 (b : Fin 8) (r k : Fin 2048) (e : Fin 1024) : lidx_main_v3 (ix3 b r k) e = ix3 b r e := by
  funext a; match a with | ⟨0, _⟩ => rfl | ⟨1, _⟩ => rfl | ⟨2, _⟩ => rfl

theorem ridx_v3 (b : Fin 8) (r k : Fin 2048) (e : Fin 1024) : ridx_main_v3 (ix3 b r k) e = ix3 b k e := by
  funext a; match a with | ⟨0, _⟩ => rfl | ⟨1, _⟩ => rfl | ⟨2, _⟩ => rfl

theorem idx_v6 (z : Fin 1) (r k : Fin 2048) : idx_main_v6 (ix3 z r k) = ix2 r k := by
  funext a; match a with | ⟨0, _⟩ => rfl | ⟨1, _⟩ => rfl

theorem idx_c1v1 (b : Fin 8) (r k : Fin 2048) :
    idx_main_call1_v1 (ix3 b r k) = ix3 (⟨0, Nat.one_pos⟩ : Fin 1) r k := by
  funext a; match a with | ⟨0, _⟩ => rfl | ⟨1, _⟩ => rfl | ⟨2, _⟩ => rfl

theorem idx_v14 (b : Fin 8) (r : Fin 2048) (z : Fin 1) : idx_main_v14 (ix3 b r z) = ix2 b r := by
  funext a; match a with | ⟨0, _⟩ => rfl | ⟨1, _⟩ => rfl

theorem idx_v15 (b : Fin 8) (r k : Fin 2048) :
    idx_main_v15 (ix3 b r k) = ix3 b r (⟨0, Nat.one_pos⟩ : Fin 1) := by
  funext a; match a with | ⟨0, _⟩ => rfl | ⟨1, _⟩ => rfl | ⟨2, _⟩ => rfl

theorem idx_v18 (b : Fin 8) (r k : Fin 2048) : idx_main_v18 (ix2 b r) k = ix3 b r k := by
  funext a; match a with | ⟨0, _⟩ => rfl | ⟨1, _⟩ => rfl | ⟨2, _⟩ => rfl

theorem idx_v19 (b : Fin 8) (r : Fin 2048) (z : Fin 1) : idx_main_v19 (ix3 b r z) = ix2 b r := by
  funext a; match a with | ⟨0, _⟩ => rfl | ⟨1, _⟩ => rfl

theorem idx_v20 (b : Fin 8) (r k : Fin 2048) :
    idx_main_v20 (ix3 b r k) = ix3 b r (⟨0, Nat.one_pos⟩ : Fin 1) := by
  funext a; match a with | ⟨0, _⟩ => rfl | ⟨1, _⟩ => rfl | ⟨2, _⟩ => rfl

theorem lidx_v22 (b : Fin 8) (r k : Fin 2048) (d : Fin 1024) : lidx_main_v22 (ix3 b r d) k = ix3 b r k := by
  funext a; match a with | ⟨0, _⟩ => rfl | ⟨1, _⟩ => rfl | ⟨2, _⟩ => rfl

theorem ridx_v22 (b : Fin 8) (r k : Fin 2048) (d : Fin 1024) : ridx_main_v22 (ix3 b r d) k = ix3 b k d := by
  funext a; match a with | ⟨0, _⟩ => rfl | ⟨1, _⟩ => rfl | ⟨2, _⟩ => rfl

/-! ### Words -/

/-- A natural number below 2048, as a 32-bit word read as a signed integer, is itself. -/
theorem toInt_small (n : ℕ) (h : n < 2048) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- The signed comparison "row + 0 ≥ column" of two iotas below 2048 is the comparison of the coordinates. -/
theorem cmp_ge (r k : Fin 2048) :
    IntOp.cmpi .sge (IntOp.addi (BitVec.ofNat 32 r.val) 0#32) (BitVec.ofNat 32 k.val)
      = if k.val ≤ r.val then 1#1 else 0#1 := by
  show BitVec.ofBool ((BitVec.ofNat 32 k.val).sle (BitVec.ofNat 32 r.val + 0#32)) = _
  rw [BitVec.add_zero, BitVec.sle, toInt_small k.val k.isLt, toInt_small r.val r.isLt]
  by_cases h : k.val ≤ r.val
  · rw [if_pos h, decide_eq_true (by exact_mod_cast h)]; rfl
  · rw [if_neg h, decide_eq_false (by exact_mod_cast h)]; rfl

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 0.0 denotes zero. -/
theorem ofBits_zero : Ideal.ofBits .f32 0x00000000#32 = 0 := by
  simp [Ideal.ofBits, Ideal.ieee]

/-- The square root of the real 1024 is the real 32. -/
theorem sqrt_1024 : Ideal.sqrt ((1024 : ℝ) : EReal) = ((32 : ℝ) : EReal) := by
  show (if (1024 : ℝ) < 0 then (⊥ : EReal) else (Real.sqrt 1024 : EReal)) = _
  rw [if_neg (by norm_num)]
  congr 1
  rw [show (1024 : ℝ) = 32 ^ 2 by norm_num, Real.sqrt_sq (by norm_num)]

/-! ### The operations, read at coordinates -/

section Values

variable (x0 : (⟨S8x2048x1024, .f32⟩ : BufTy).Contents (Elt Ideal))
  (x1 x2 x3 : (⟨S1024x1024, .f32⟩ : BufTy).Contents (Elt Ideal))

/-- The first linear image (queries) is the specification's projection. -/
theorem v0_at (b : Fin 8) (s : Fin 2048) (e : Fin 1024) :
    val_main_v0 (F := Ideal) x0 x1 (ix3 b s e) = proj x0 x1 b s e := by
  rw [val_main_v0_apply]
  unfold proj
  exact Finset.sum_congr rfl fun i _ => by rw [lidx_v0, ridx_v0]

/-- The second linear image (keys). -/
theorem v1_at (b : Fin 8) (s : Fin 2048) (e : Fin 1024) :
    val_main_v1 (F := Ideal) x0 x2 (ix3 b s e) = proj x0 x2 b s e := by
  rw [val_main_v1_apply]
  unfold proj
  exact Finset.sum_congr rfl fun i _ => by rw [lidx_v1, ridx_v1]

/-- The third linear image (values). -/
theorem v2_at (b : Fin 8) (s : Fin 2048) (e : Fin 1024) :
    val_main_v2 (F := Ideal) x0 x3 (ix3 b s e) = proj x0 x3 b s e := by
  rw [val_main_v2_apply]
  unfold proj
  exact Finset.sum_congr rfl fun i _ => by rw [lidx_v2, ridx_v2]

/-- The scores: inner products of a query row's image and a key row's image. -/
theorem v3_at (b : Fin 8) (r k : Fin 2048) :
    val_main_v3 (F := Ideal) x0 x1 x2 (ix3 b r k) = score x0 x1 x2 b r k := by
  rw [val_main_v3_apply]
  unfold score
  exact Finset.sum_congr rfl fun e _ => by rw [lidx_v3, ridx_v3, v0_at, v1_at]

/-- The mask: the bit is set exactly at the keys after the query. -/
theorem mask_at (r k : Fin 2048) :
    val_main_v5 (F := Ideal) (ix2 r k) = if r.val < k.val then 1#1 else 0#1 := by
  rw [val_main_v5_apply, val_main_call0_v4_apply, val_main_call0_v2_apply, val_main_call0_v0_apply,
    val_main_call0_v1_apply, val_main_call0_c_apply, val_main_call0_v3_apply, val_main_call0_v5_apply,
    val_main_call0_c_0_apply, val_main_v4_apply, val_main_c_apply]
  show Scalar.select (IntOp.cmpi .sge (IntOp.addi (BitVec.ofNat 32 r.val) 0#32) (BitVec.ofNat 32 k.val)) 0#1 1#1 = _
  rw [cmp_ge]
  by_cases h : k.val ≤ r.val
  · rw [if_pos h, select_one, if_neg (by omega)]
  · rw [if_neg h, select_zero, if_pos (by omega)]

/-- The masked scores: −∞ at the keys after the query, the score elsewhere. -/
theorem v7_at (b : Fin 8) (r k : Fin 2048) :
    val_main_v7 (F := Ideal) x0 x1 x2 (ix3 b r k) = if r.val < k.val then ⊥ else score x0 x1 x2 b r k := by
  rw [val_main_v7_apply, val_main_call1_v1_apply, idx_c1v1, val_main_v6_apply, idx_v6, mask_at,
    val_main_call1_v2_apply, val_main_call1_v0_apply, val_main_cst_apply, v3_at]
  by_cases h : r.val < k.val
  · rw [if_pos h, if_pos h, select_one]
    exact ofBits_neg_inf
  · rw [if_neg h, if_neg h, select_zero]

/-- The divisor: the square root of 1024 is 32. -/
theorem v8_at (j : S_.Idx) : val_main_v8 (F := Ideal) j = ((32 : ℝ) : EReal) := by
  rw [val_main_v8_apply, val_main_cst_0_apply]
  show Ideal.sqrt (Ideal.ofBits .f32 0x44800000#32) = _
  rw [ofBits_1024, sqrt_1024]

/-- The logits. -/
theorem v10_at (b : Fin 8) (r k : Fin 2048) :
    val_main_v10 (F := Ideal) x0 x1 x2 (ix3 b r k) = logit x0 x1 x2 b r k := by
  rw [val_main_v10_apply, v7_at, val_main_v9_apply, v8_at]
  rfl

/-- The host's maximum along the last axis of an [8, 2048, 2048] array, read at (b, r). -/
theorem reduce_max_at (y : FVec Ideal ⟨3, ![8, 2048, 2048]⟩ .f32) (init : S_.Idx → Ideal .f32) (b : Fin 8)
    (r : Fin 2048) :
    Host.reduce (FloatOps.maximumf (F := Ideal) (φ := .f32)) y init reducesTo_S8x2048x2048_S8x2048_d2 h_S_ (ix2 b r)
      = (Finset.univ : Finset (Fin 2048)).fold max (init (Shape.Idx.first h_S_)) (fun k => y (ix3 b r k)) :=
  hostReduce_max_last3_apply y init _ (by decide) _ b r

/-- The row maximum of the logits, as the reduction computes it: their supremum. -/
theorem v11_at (b : Fin 8) (r : Fin 2048) :
    val_main_v11 (F := Ideal) x0 x1 x2 (ix2 b r) = Finset.univ.sup fun k : Fin 2048 => logit x0 x1 x2 b r k := by
  unfold val_main_v11
  rw [reduce_max_at, val_main_cst_1_apply]
  have hf : (fun k : Fin 2048 => val_main_v10 (F := Ideal) x0 x1 x2 (ix3 b r k))
      = fun k : Fin 2048 => logit x0 x1 x2 b r k := funext fun k => v10_at x0 x1 x2 b r k
  rw [hf]
  show (Finset.univ : Finset (Fin 2048)).fold max (Ideal.ofBits .f32 0xFF800000#32) _ = _
  rw [ofBits_neg_inf, fold_max_bot]

/-- The larger of −∞ and that maximum: the specification's row maximum. -/
theorem v13_at (b : Fin 8) (r : Fin 2048) :
    val_main_v13 (F := Ideal) x0 x1 x2 (ix2 b r) = rowMax x0 x1 x2 b r := by
  rw [val_main_v13_apply, val_main_v12_apply, val_main_cst_2_apply, v11_at]
  show max (Ideal.ofBits .f32 0xFF800000#32) _ = _
  rw [ofBits_neg_inf]
  rfl

/-- The row maximum, broadcast back along the keys. -/
theorem v15_at (b : Fin 8) (r k : Fin 2048) :
    val_main_v15 (F := Ideal) x0 x1 x2 (ix3 b r k) = rowMax x0 x1 x2 b r := by
  rw [val_main_v15_apply, idx_v15, val_main_v14_apply, idx_v14, v13_at]

/-- The exponentials of the shifted logits. -/
theorem v17_at (b : Fin 8) (r k : Fin 2048) :
    val_main_v17 (F := Ideal) x0 x1 x2 (ix3 b r k)
      = Ideal.exp (logit x0 x1 x2 b r k - rowMax x0 x1 x2 b r) := by
  rw [val_main_v17_apply, val_main_v16_apply, v10_at, v15_at]
  rfl

/-- The row totals. -/
theorem v18_at (b : Fin 8) (r : Fin 2048) :
    val_main_v18 (F := Ideal) x0 x1 x2 (ix2 b r)
      = ∑ k : Fin 2048, Ideal.exp (logit x0 x1 x2 b r k - rowMax x0 x1 x2 b r) := by
  rw [val_main_v18_apply, val_main_cst_3_apply]
  show Ideal.ofBits .f32 0x00000000#32 + _ = _
  rw [ofBits_zero, zero_add]
  exact Finset.sum_congr rfl fun k _ => by rw [idx_v18, v17_at]

/-- The row total, broadcast back along the keys. -/
theorem v20_at (b : Fin 8) (r k : Fin 2048) :
    val_main_v20 (F := Ideal) x0 x1 x2 (ix3 b r k)
      = ∑ k' : Fin 2048, Ideal.exp (logit x0 x1 x2 b r k' - rowMax x0 x1 x2 b r) := by
  rw [val_main_v20_apply, idx_v20, val_main_v19_apply, idx_v19, v18_at]

/-- The softmax weights. -/
theorem v21_at (b : Fin 8) (r k : Fin 2048) :
    val_main_v21 (F := Ideal) x0 x1 x2 (ix3 b r k) = weight x0 x1 x2 b r k := by
  rw [val_main_v21_apply, v17_at, v20_at]
  rfl

/-- THE REFERENCE'S RESULT is the specification's attention, entry by entry. -/
theorem ref_eq (x0 : (⟨S8x2048x1024, .f32⟩ : BufTy).Contents (Elt Ideal))
    (x1 x2 x3 : (⟨S1024x1024, .f32⟩ : BufTy).Contents (Elt Ideal)) :
    Cert.ReferenceIdeal.Read.val_main_v22 (F := Ideal) x0 x1 x2 x3 = Cert.AttnSpec.attn x0 x1 x2 x3 := by
  funext i
  obtain ⟨b, r, d, rfl⟩ : ∃ (b : Fin 8) (r : Fin 2048) (d : Fin 1024), i = ix3 b r d :=
    ⟨i 0, i 1, i 2, eq_ix3 i⟩
  rw [val_main_v22_apply]
  show _ = attnAt x0 x1 x2 x3 b r d
  unfold attnAt
  exact Finset.sum_congr rfl fun k _ => by rw [lidx_v22, ridx_v22, v21_at, v2_at]

end Values

end Cert.ReferenceIdeal.RefValue

end
-- ==== Proof.lean ====
/-
  Causal single-head attention, a two-call kernel against the jnp reference, on the extended reals.

  The kernel computes the key and value projections in a first call and, in a second call over a triangular schedule of
  (query tile, key tile) pairs, the query projection and a running softmax: per query row a running maximum, a running
  normaliser and a running weighted sum of value rows, rescaled whenever the maximum grows, divided at the diagonal tile.
  The reference forms all scores, masks the keys after the query with −∞, takes the softmax of each row and the weighted
  sum of the value rows. Index by index both are the same extended real: the projections are the same sums; the kernel's
  scale 1/32 is the reference's division by the square root of 1024; the kernel's mask constant is named −∞; the
  running recursion over the tiles up to the diagonal one is the softmax-weighted sum over all keys (the tiles after the
  diagonal are entirely masked), for finite inputs — the precondition is used exactly there, to move the rescaling
  factors across the partial sums.
  The frames: each program runs to the end, faults nowhere and leaves its argument arrays as launched.
-/
import proofs.«121710_j11665131176114_2_alg».proof.Defs
import proofs.«121710_j11665131176114_2_alg».proof.Proof.Gen.Kernel
import proofs.«121710_j11665131176114_2_alg».proof.Proof.Gen.KernelIdeal
import proofs.«121710_j11665131176114_2_alg».proof.Proof.Gen.ReferenceIdeal
import proofs.«121710_j11665131176114_2_alg».proof.Proof.Gen.Pre_finite_inputs
import proofs.«121710_j11665131176114_2_alg».proof.Proof.Gen.ReferenceIdeal.Run
import proofs.«121710_j11665131176114_2_alg».proof.Proof.KFrame
import proofs.«121710_j11665131176114_2_alg».proof.Proof.KiFinal
import proofs.«121710_j11665131176114_2_alg».proof.Proof.RefValue

noncomputable section

namespace Cert.Proof

open Idealize.ShloMosaic Idealize.ShloMosaic.TcCoe Idealize.SL.Sem

/-- The word-level kernel's frame. -/
theorem frame_k : Cert.frame_Kernel := fun m ρ _ => Cert.Kernel.Gen.frameA m ρ
/-- The idealized kernel's frame. -/
theorem frame_ki : Cert.frame_KernelIdeal := fun m ρ _ => Cert.KernelIdeal.Gen.frameA m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's finite mask constant is named −∞. -/
theorem preserves : Cert.preserves_Kernel_KernelIdeal :=
  IdealRules.named_const.statement Cert.KernelIdeal.κ "neg_big" .f32 0xFF333332#32 ⊥ rfl

/-- Both idealized programs end with the attention specification of the (agreeing) argument arrays. -/
theorem algebraic : Cert.algebraic_KernelIdeal_ReferenceIdeal := by
  intro m ρ m' ρ' hpre hagree
  refine ⟨_, Cert.KernelIdeal.Final.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
